-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S100000x2 : Shape := ⟨2, ![100000, 2]⟩
abbrev S4000000 : Shape := ⟨1, ![4000000]⟩
abbrev S500000 : Shape := ⟨1, ![500000]⟩
abbrev S2x64 : Shape := ⟨2, ![2, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S3x64 : Shape := ⟨2, ![3, 64]⟩
abbrev S2000000 : Shape := ⟨1, ![2000000]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S100000x2 : S_.BroadcastsInDim S100000x2 (![] : Fin 0 → Fin S100000x2.rank)
  reducesTo_S100000x2_S_d0_1 : S100000x2.ReducesTo [0, 1] S_
  bcast_S_S4000000 : S_.BroadcastsInDim S4000000 (![] : Fin 0 → Fin S4000000.rank)
  reducesTo_S4000000_S_d0 : S4000000.ReducesTo [0] S_
  bcast_S_S500000 : S_.BroadcastsInDim S500000 (![] : Fin 0 → Fin S500000.rank)
  reducesTo_S500000_S_d0 : S500000.ReducesTo [0] S_
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S3x64 : S_.BroadcastsInDim S3x64 (![] : Fin 0 → Fin S3x64.rank)
  reducesTo_S3x64_S_d0_1 : S3x64.ReducesTo [0, 1] S_

variable [Facts]

def fn_part4 {F : FTy → Type} [FloatOps F] (main_arg14 : FVec F S64x1 .f32) (main_arg15 : FVec F S1 .f32) (main_v63 : IVec S_ 1) (main_v67 : IVec S_ 1) : IVec S_ 1 :=
  let main_v68 : IVec S_ 1 := andi main_v63 main_v67
  let main_v69 : FVec F S64x1 .f32 := Host.absf main_arg14
  let main_cst_26 : FVec F S_ .f32 := constant S_ .f32 0x7F800000#32
  let main_v70 : FVec F S64x1 .f32 := broadcastInDim S64x1 ![] bcast_S_S64x1 main_cst_26
  let main_v71 : IVec S64x1 1 := cmpf .olt main_v69 main_v70
  let main_c_27 : IVec S_ 1 := constantI S_ 1 1#1
  let main_v72 : IVec S_ 1 := (fun x v => Host.reduce IntOp.andi x v reducesTo_S64x1_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg11 : FVec F S64 .f32) (main_arg12 : FVec F S64x64 .f32) (main_arg13 : FVec F S64 .f32) (main_arg14 : FVec F S64x1 .f32) (main_arg15 : FVec F S1 .f32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_v63 main_v67

def fn_part2 {F : FTy → Type} [FloatOps F] (main_arg7 : FVec F S64 .f32) (main_arg8 : FVec F S64x1 .f32) (main_arg9 : FVec F S1 .f32) (main_arg10 : FVec F S3x64 .f32) (main_arg11 : FVec F S64 .f32) (main_arg12 : FVec F S64x64 .f32) (main_arg13 : FVec F S64 .f32) (main_arg14 : FVec F S64x1 .f32) (main_arg15 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg8
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S3x64 .f32 := Host.absf main_arg10
  let main_cst_18 : FVec F S_ .f32 := constant S_ .f32 0x7F800000#32
  let main_v50 : FVec F S3x64 .f32 := broadcastInDim S3x64 ![] bcast_S_S3x64 main_cst_18
  fn_part3 (F := F) main_arg11 main_arg12 main_arg13 main_arg14 main_arg15 main_v48 main_v49 main_v50

def fn_part1 {F : FTy → Type} [FloatOps F] (main_arg4 : FVec F S2x64 .f32) (main_arg5 : FVec F S64 .f32) (main_arg6 : FVec F S64x64 .f32) (main_arg7 : FVec F S64 .f32) (main_arg8 : FVec F S64x1 .f32) (main_arg9 : FVec F S1 .f32) (main_arg10 : FVec F S3x64 .f32) (main_arg11 : FVec F S64 .f32) (main_arg12 : FVec F S64x64 .f32) (main_arg13 : FVec F S64 .f32) (main_arg14 : FVec F S64x1 .f32) (main_arg15 : FVec F S1 .f32) (main_v13 : IVec S_ 1) (main_v16 : IVec S500000 1) : IVec S_ 1 :=
  let main_c_5 : IVec S_ 1 := constantI S_ 1 1#1
  let main_v17 : IVec S_ 1 := (fun x v => Host.reduce IntOp.andi x v reducesTo_S500000_S_d0 h_S_) main_v16 main_c_5
  let main_v18 : IVec S_ 1 := andi main_v13 main_v17
  let main_v19 : FVec F S2x64 .f32 := Host.absf main_arg4
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S100000x5 .f32) (main_arg1 : FVec F S100000x2 .f32) (main_arg2 : FVec F S4000000 .f32) (main_arg3 : FVec F S500000 .f32) (main_arg4 : FVec F S2x64 .f32) (main_arg5 : FVec F S64 .f32) (main_arg6 : FVec F S64x64 .f32) (main_arg7 : FVec F S64 .f32) (main_arg8 : FVec F S64x1 .f32) (main_arg9 : FVec F S1 .f32) (main_arg10 : FVec F S3x64 .f32) (main_arg11 : FVec F S64 .f32) (main_arg12 : FVec F S64x64 .f32) (main_arg13 : FVec F S64 .f32) (main_arg14 : FVec F S64x1 .f32) (main_arg15 : FVec F S1 .f32) (main_arg16 : IVec S2000000 32) (main_arg17 : IVec S2000000 32) (main_arg18 : IVec S2000000 32) (main_arg19 : IVec S4000000 32) (main_arg20 : IVec S4000000 32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S100000x2 .f32 := Host.absf main_arg1
  let main_cst_0 : FVec F S_ .f32 := constant S_ .f32 0x7F800000#32
  let main_v5 : FVec F S100000x2 .f32 := broadcastInDim S100000x2 ![] bcast_S_S100000x2 main_cst_0
  let main_v6 : IVec S100000x2 1 := cmpf .olt main_v4 main_v5
  let main_c_1 : IVec S_ 1 := constantI S_ 1 1#1
  let main_v7 : IVec S_ 1 := (fun x v => Host.reduce IntOp.andi x v reducesTo_S100000x2_S_d0_1 h_S_) main_v6 main_c_1
  let main_v8 : IVec S_ 1 := andi main_v3 main_v7
  let main_v9 : FVec F S4000000 .f32 := Host.absf main_arg2
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  let main_v14 : FVec F S500000 .f32 := Host.absf main_arg3
  let main_cst_4 : FVec F S_ .f32 := constant S_ .f32 0x7F800000#32
  let main_v15 : FVec F S500000 .f32 := broadcastInDim S500000 ![] bcast_S_S500000 main_cst_4
  let main_v16 : IVec S500000 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S100000x5 : Shape := ⟨2, ![100000, 5]⟩
abbrev S100000x2 : Shape := ⟨2, ![100000, 2]⟩
abbrev S4000000 : Shape := ⟨1, ![4000000]⟩
abbrev S500000 : Shape := ⟨1, ![500000]⟩
abbrev S2x64 : Shape := ⟨2, ![2, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S3x64 : Shape := ⟨2, ![3, 64]⟩
abbrev S2000000 : Shape := ⟨1, ![2000000]⟩
abbrev S100000x1 : Shape := ⟨2, ![100000, 1]⟩
abbrev S100000 : Shape := ⟨1, ![100000]⟩
abbrev S1x100000 : Shape := ⟨2, ![1, 100000]⟩
abbrev S3x100000 : Shape := ⟨2, ![3, 100000]⟩
abbrev S_ : Shape := ⟨0, ![]⟩
abbrev S3x100096 : Shape := ⟨2, ![3, 100096]⟩
abbrev S64x3 : Shape := ⟨2, ![64, 3]⟩
abbrev S1x64 : Shape := ⟨2, ![1, 64]⟩
abbrev S1x100096 : Shape := ⟨2, ![1, 100096]⟩
abbrev S3x5888 : Shape := ⟨2, ![3, 5888]⟩
abbrev S1x5888 : Shape := ⟨2, ![1, 5888]⟩
abbrev S64x5888 : Shape := ⟨2, ![64, 5888]⟩
abbrev S1x1 : Shape := ⟨2, ![1, 1]⟩
abbrev S2000000x1 : Shape := ⟨2, ![2000000, 1]⟩
abbrev S1x2000000 : Shape := ⟨2, ![1, 2000000]⟩
abbrev S2x2000000 : Shape := ⟨2, ![2, 2000000]⟩
abbrev S64x2 : Shape := ⟨2, ![64, 2]⟩
abbrev S2x16000 : Shape := ⟨2, ![2, 16000]⟩
abbrev S1x16000 : Shape := ⟨2, ![1, 16000]⟩
abbrev S64x16000 : Shape := ⟨2, ![64, 16000]⟩
abbrev S4000000x1 : Shape := ⟨2, ![4000000, 1]⟩

abbrev nBuf : Space → Nat
  | .hbm => 105
  | .vmem => 20
  | .smem => 0
  | _ => 0

abbrev bufTy : (tb : Table) → Fin (tcTables nBuf tb) → BufTy
  | .hbm, ⟨0, _⟩ => ⟨S100000x5, .f32⟩
  | .hbm, ⟨1, _⟩ => ⟨S100000x2, .f32⟩
  | .hbm, ⟨2, _⟩ => ⟨S4000000, .f32⟩
  | .hbm, ⟨3, _⟩ => ⟨S500000, .f32⟩
  | .hbm, ⟨4, _⟩ => ⟨S2x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S3x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x1, .f32⟩
  | .hbm, ⟨15, _⟩ => ⟨S1, .f32⟩
  | .hbm, ⟨16, _⟩ => ⟨S2000000, .i32⟩
  | .hbm, ⟨17, _⟩ => ⟨S2000000, .i32⟩
  | .hbm, ⟨18, _⟩ => ⟨S2000000, .i32⟩
  | .hbm, ⟨19, _⟩ => ⟨S4000000, .i32⟩
  | .hbm, ⟨20, _⟩ => ⟨S4000000, .i32⟩
  | .hbm, ⟨21, _⟩ => ⟨S100000x1, .f32⟩
  | .hbm, ⟨22, _⟩ => ⟨S100000, .f32⟩
  | .hbm, ⟨23, _⟩ => ⟨S100000x1, .f32⟩
  | .hbm, ⟨24, _⟩ => ⟨S100000, .f32⟩
  | .hbm, ⟨25, _⟩ => ⟨S100000x1, .f32⟩
  | .hbm, ⟨26, _⟩ => ⟨S100000, .f32⟩
  | .hbm, ⟨27, _⟩ => ⟨S1x100000, .f32⟩
  | .hbm, ⟨28, _⟩ => ⟨S1x100000, .f32⟩
  | .hbm, ⟨29, _⟩ => ⟨S1x100000, .f32⟩
  | .hbm, ⟨30, _⟩ => ⟨S3x100000, .f32⟩
  | .hbm, ⟨31, _⟩ => ⟨S_, .i32⟩
  | .hbm, ⟨32, _⟩ => ⟨S_, .f32⟩
  | .hbm, ⟨33, _⟩ => ⟨S3x100096, .f32⟩
  | .hbm, ⟨34, _⟩ => ⟨S64x3, .f32⟩
  | .hbm, ⟨35, _⟩ => ⟨S64x64, .f32⟩
  | .hbm, ⟨36, _⟩ => ⟨S1x64, .f32⟩
  | .hbm, ⟨37, _⟩ => ⟨S1x100096, .f32⟩
  | .hbm, ⟨38, _⟩ => ⟨S1x100000, .f32⟩
  | .hbm, ⟨39, _⟩ => ⟨S100000, .f32⟩
  | .hbm, ⟨40, _⟩ => ⟨S_, .i32⟩
  | .hbm, ⟨41, _⟩ => ⟨S2000000, .i32⟩
  | .hbm, ⟨42, _⟩ => ⟨S2000000, .i1⟩
  | .hbm, ⟨43, _⟩ => ⟨S_, .i32⟩
  | .hbm, ⟨44, _⟩ => ⟨S2000000, .i32⟩
  | .hbm, ⟨45, _⟩ => ⟨S2000000, .i32⟩
  | .hbm, ⟨46, _⟩ => ⟨S2000000, .i32⟩
  | .hbm, ⟨47, _⟩ => ⟨S2000000x1, .i32⟩
  | .hbm, ⟨48, _⟩ => ⟨S2000000, .f32⟩
  | .hbm, ⟨49, _⟩ => ⟨S_, .i32⟩
  | .hbm, ⟨50, _⟩ => ⟨S2000000, .i32⟩
  | .hbm, ⟨51, _⟩ => ⟨S2000000, .i1⟩
  | .hbm, ⟨52, _⟩ => ⟨S_, .i32⟩
  | .hbm, ⟨53, _⟩ => ⟨S2000000, .i32⟩
  | .hbm, ⟨54, _⟩ => ⟨S2000000, .i32⟩
  | .hbm, ⟨55, _⟩ => ⟨S2000000, .i32⟩
  | .hbm, ⟨56, _⟩ => ⟨S2000000x1, .i32⟩
  | .hbm, ⟨57, _⟩ => ⟨S2000000, .f32⟩
  | .hbm, ⟨58, _⟩ => ⟨S2000000, .f32⟩
  | .hbm, ⟨59, _⟩ => ⟨S1x2000000, .f32⟩
  | .hbm, ⟨60, _⟩ => ⟨S1x2000000, .f32⟩
  | .hbm, ⟨61, _⟩ => ⟨S2x2000000, .f32⟩
  | .hbm, ⟨62, _⟩ => ⟨S64x2, .f32⟩
  | .hbm, ⟨63, _⟩ => ⟨S64x64, .f32⟩
  | .hbm, ⟨64, _⟩ => ⟨S1x64, .f32⟩
  | .hbm, ⟨65, _⟩ => ⟨S1x2000000, .f32⟩
  | .hbm, ⟨66, _⟩ => ⟨S2000000, .f32⟩
  | .hbm, ⟨67, _⟩ => ⟨S_, .f32⟩
  | .hbm, ⟨68, _⟩ => ⟨S500000, .f32⟩
  | .hbm, ⟨69, _⟩ => ⟨S2000000x1, .i32⟩
  | .hbm, ⟨70, _⟩ => ⟨S500000, .f32⟩
  | .hbm, ⟨71, _⟩ => ⟨S_, .f32⟩
  | .hbm, ⟨72, _⟩ => ⟨S500000, .f32⟩
  | .hbm, ⟨73, _⟩ => ⟨S500000, .f32⟩
  | .hbm, ⟨74, _⟩ => ⟨S_, .f32⟩
  | .hbm, ⟨75, _⟩ => ⟨S500000, .f32⟩
  | .hbm, ⟨76, _⟩ => ⟨S500000, .f32⟩
  | .hbm, ⟨77, _⟩ => ⟨S500000, .f32⟩
  | .hbm, ⟨78, _⟩ => ⟨S500000, .f32⟩
  | .hbm, ⟨79, _⟩ => ⟨S500000, .i1⟩
  | .hbm, ⟨80, _⟩ => ⟨S500000, .f32⟩
  | .hbm, ⟨81, _⟩ => ⟨S500000, .f32⟩
  | .hbm, ⟨82, _⟩ => ⟨S500000, .f32⟩
  | .hbm, ⟨83, _⟩ => ⟨S500000, .f32⟩
  | .hbm, ⟨84, _⟩ => ⟨S500000, .f32⟩
  | .hbm, ⟨85, _⟩ => ⟨S500000, .f32⟩
  | .hbm, ⟨86, _⟩ => ⟨S500000, .f32⟩
  | .hbm, ⟨87, _⟩ => ⟨S500000, .f32⟩
  | .hbm, ⟨88, _⟩ => ⟨S500000, .f32⟩
  | .hbm, ⟨89, _⟩ => ⟨S_, .i32⟩
  | .hbm, ⟨90, _⟩ => ⟨S4000000, .i32⟩
  | .hbm, ⟨91, _⟩ => ⟨S4000000, .i1⟩
  | .hbm, ⟨92, _⟩ => ⟨S_, .i32⟩
  | .hbm, ⟨93, _⟩ => ⟨S4000000, .i32⟩
  | .hbm, ⟨94, _⟩ => ⟨S4000000, .i32⟩
  | .hbm, ⟨95, _⟩ => ⟨S4000000, .i32⟩
  | .hbm, ⟨96, _⟩ => ⟨S4000000x1, .i32⟩
  | .hbm, ⟨97, _⟩ => ⟨S4000000, .f32⟩
  | .hbm, ⟨98, _⟩ => ⟨S4000000, .f32⟩
  | .hbm, ⟨99, _⟩ => ⟨S_, .f32⟩
  | .hbm, ⟨100, _⟩ => ⟨S100000, .f32⟩
  | .hbm, ⟨101, _⟩ => ⟨S4000000x1, .i32⟩
  | .hbm, ⟨102, _⟩ => ⟨S100000, .f32⟩
  | .hbm, ⟨103, _⟩ => ⟨S100000, .f32⟩
  | .hbm, ⟨104, _⟩ => ⟨S100000x1, .f32⟩
  | .local _ .vmem, ⟨0, _⟩ => ⟨S3x5888, .f32⟩
  | .local _ .vmem, ⟨1, _⟩ => ⟨S3x5888, .f32⟩
  | .local _ .vmem, ⟨2, _⟩ => ⟨S64x3, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S1x64, .f32⟩
  | .local _ .vmem, ⟨7, _⟩ => ⟨S1, .f32⟩
  | .local _ .vmem, ⟨8, _⟩ => ⟨S1x5888, .f32⟩
  | .local _ .vmem, ⟨9, _⟩ => ⟨S1x5888, .f32⟩
  | .local _ .vmem, ⟨10, _⟩ => ⟨S2x16000, .f32⟩
  | .local _ .vmem, ⟨11, _⟩ => ⟨S2x16000, .f32⟩
  | .local _ .vmem, ⟨12, _⟩ => ⟨S64x2, .f32⟩
  | .local _ .vmem, ⟨13, _⟩ => ⟨S64, .f32⟩
  | .local _ .vmem, ⟨14, _⟩ => ⟨S64x64, .f32⟩
  | .local _ .vmem, ⟨15, _⟩ => ⟨S64, .f32⟩
  | .local _ .vmem, ⟨16, _⟩ => ⟨S1x64, .f32⟩
  | .local _ .vmem, ⟨17, _⟩ => ⟨S1, .f32⟩
  | .local _ .vmem, ⟨18, _⟩ => ⟨S1x16000, .f32⟩
  | .local _ .vmem, ⟨19, _⟩ => ⟨S1x16000, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_c : Ref sig .tc := ⟨.hbm, 31, rfl⟩
abbrev main_call0_v0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c_0 : Ref sig .tc := ⟨.hbm, 40, rfl⟩
abbrev main_v17 : Ref sig .tc := ⟨.hbm, 41, rfl⟩
abbrev main_v18 : Ref sig .tc := ⟨.hbm, 42, rfl⟩
abbrev main_c_1 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_2 : Ref sig .tc := ⟨.hbm, 49, rfl⟩
abbrev main_v24 : Ref sig .tc := ⟨.hbm, 50, rfl⟩
abbrev main_v25 : Ref sig .tc := ⟨.hbm, 51, rfl⟩
abbrev main_c_3 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_4 : Ref sig .tc := ⟨.hbm, 71, rfl⟩
abbrev main_v43 : Ref sig .tc := ⟨.hbm, 72, rfl⟩
abbrev main_v44 : Ref sig .tc := ⟨.hbm, 73, rfl⟩
abbrev main_call1_cst : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_v6 : Ref sig .tc := ⟨.hbm, 81, rfl⟩
abbrev main_call1_v7 : Ref sig .tc := ⟨.hbm, 82, rfl⟩
abbrev main_call1_v8 : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_v45 : Ref sig .tc := ⟨.hbm, 87, rfl⟩
abbrev main_v46 : Ref sig .tc := ⟨.hbm, 88, rfl⟩
abbrev main_c_5 : Ref sig .tc := ⟨.hbm, 89, rfl⟩
abbrev main_v47 : Ref sig .tc := ⟨.hbm, 90, rfl⟩
abbrev main_v48 : Ref sig .tc := ⟨.hbm, 91, rfl⟩
abbrev main_c_6 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_cst_7 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x5888 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x5888 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2x16000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1x16000 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S100000x5_S100000x1_0_3 : S100000x5.Slices ![0, 3] S100000x1
  shapeCasts_S100000x1_S100000 : S100000x1.ShapeCasts S100000
  slices_S100000x2_S100000x1_0_0 : S100000x2.Slices ![0, 0] S100000x1
  slices_S100000x2_S100000x1_0_1 : S100000x2.Slices ![0, 1] S100000x1
  bcast_S100000_S1x100000_1 : S100000.BroadcastsInDim S1x100000 (![1] : Fin 1 → Fin S1x100000.rank)
  concatenates_S1x100000_S1x100000_S1x100000_S3x100000_d0 : Shape.Concatenates [S1x100000, S1x100000, S1x100000] S3x100000 0
  pads_S3x100000_S3x100096_000_0960 : S3x100000.Pads (![0, 0] : Fin 2 → Nat) ![0, 96] ![0, 0] S3x100096
  h_S_ : 0 < S_.numel
  transposes_S3x64_S64x3_1_0 : S3x64.Transposes [1, 0] S64x3
  transposes_S64x64_S64x64_1_0 : S64x64.Transposes [1, 0] S64x64
  transposes_S64x1_S1x64_1_0 : S64x1.Transposes [1, 0] S1x64
  inb_S3x5888_S3x5888_0_0 : ∀ a, (![0, 0] : Fin 2 → Nat) a + S3x5888.size a ≤ S3x5888.size a
  h_S3x5888 : 0 < S3x5888.numel
  shapeCasts_S3x5888_S3x5888 : S3x5888.ShapeCasts S3x5888
  bitsLt_bf16_f32 : FTy.bits .bf16 < FTy.bits .f32
  inb_S64x3_S64x3_0_0 : ∀ a, (![0, 0] : Fin 2 → Nat) a + S64x3.size a ≤ S64x3.size a
  h_S64x3 : 0 < S64x3.numel
  shapeCasts_S64x3_S64x3 : S64x3.ShapeCasts S64x3
  inb_S64_S64_0 : ∀ a, (![0] : Fin 1 → Nat) a + S64.size a ≤ S64.size a
  h_S64 : 0 < S64.numel
  shapeCasts_S64_S64x1 : S64.ShapeCasts S64x1
  broadcasts_S64x1_S64x5888 : S64x1.Broadcasts S64x5888
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1_S1_0 : ∀ a, (![0] : Fin 1 → Nat) a + S1.size a ≤ S1.size a
  h_S1 : 0 < S1.numel
  shapeCasts_S1_S1x1 : S1.ShapeCasts S1x1
  broadcasts_S1x1_S1x5888 : S1x1.Broadcasts S1x5888
  inb_S1x5888_S1x5888_0_0 : ∀ a, (![0, 0] : Fin 2 → Nat) a + S1x5888.size a ≤ S1x5888.size a
  h_S1x5888 : 0 < S1x5888.numel
  slices_S1x100096_S1x100000_0_0 : S1x100096.Slices ![0, 0] S1x100000
  shapeCasts_S1x100000_S100000 : S1x100000.ShapeCasts S100000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000_S1x2000000_1 : S2000000.BroadcastsInDim S1x2000000 (![1] : Fin 1 → Fin S1x2000000.rank)
  concatenates_S1x2000000_S1x2000000_S2x2000000_d0 : Shape.Concatenates [S1x2000000, S1x2000000] S2x2000000 0
  transposes_S2x64_S64x2_1_0 : S2x64.Transposes [1, 0] S64x2
  inb_S2x16000_S2x16000_0_0 : ∀ a, (![0, 0] : Fin 2 → Nat) a + S2x16000.size a ≤ S2x16000.size a
  h_S2x16000 : 0 < S2x16000.numel
  shapeCasts_S2x16000_S2x16000 : S2x16000.ShapeCasts S2x16000
  inb_S64x2_S64x2_0_0 : ∀ a, (![0, 0] : Fin 2 → Nat) a + S64x2.size a ≤ S64x2.size a
  h_S64x2 : 0 < S64x2.numel
  shapeCasts_S64x2_S64x2 : S64x2.ShapeCasts S64x2
  broadcasts_S64x1_S64x16000 : S64x1.Broadcasts S64x16000
  broadcasts_S1x1_S1x16000 : S1x1.Broadcasts S1x16000
  inb_S1x16000_S1x16000_0_0 : ∀ a, (![0, 0] : Fin 2 → Nat) a + S1x16000.size a ≤ S1x16000.size a
  h_S1x16000 : 0 < S1x16000.numel
  shapeCasts_S1x2000000_S2000000 : S1x2000000.ShapeCasts S2000000
  bcast_S_S500000 : S_.BroadcastsInDim S500000 (![] : Fin 0 → Fin S500000.rank)
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S100000 : S_.BroadcastsInDim S100000 (![] : Fin 0 → Fin S100000.rank)
  bcast_S100000_S100000x1_0 : S100000.BroadcastsInDim S100000x1 (![0] : Fin 1 → Fin S100000x1.rank)
  dot_S64x3_S3x5888_S64x5888_1_0_0_1_n_n_wf : DotDims.WF S64x3 S3x5888 S64x5888 [1] [0] [0] [1] [] []
  dot_S64x64_S64x5888_S64x5888_1_0_0_1_n_n_wf : DotDims.WF S64x64 S64x5888 S64x5888 [1] [0] [0] [1] [] []
  dot_S1x64_S64x5888_S1x5888_1_0_0_1_n_n_wf : DotDims.WF S1x64 S64x5888 S1x5888 [1] [0] [0] [1] [] []
  gather_S100000_S2000000x1_S2000000_n_0_n_n_0_1_1_wf : GatherDims.WF S100000 S2000000x1 S2000000 [] [0] [] [0] [] 1 ![1]
  gather_S4000000_S2000000x1_S2000000_n_0_n_n_0_1_1_wf : GatherDims.WF S4000000 S2000000x1 S2000000 [] [0] [] [0] [] 1 ![1]
  dot_S64x2_S2x16000_S64x16000_1_0_0_1_n_n_wf : DotDims.WF S64x2 S2x16000 S64x16000 [1] [0] [0] [1] [] []
  dot_S64x64_S64x16000_S64x16000_1_0_0_1_n_n_wf : DotDims.WF S64x64 S64x16000 S64x16000 [1] [0] [0] [1] [] []
  dot_S1x64_S64x16000_S1x16000_1_0_0_1_n_n_wf : DotDims.WF S1x64 S64x16000 S1x16000 [1] [0] [0] [1] [] []
  scatter_S500000_S2000000x1_S2000000_n_0_0_1_wf : ScatterDims.WF S500000 S2000000x1 S2000000 [] [0] [0] 1
  gather_S500000_S4000000x1_S4000000_n_0_n_n_0_1_1_wf : GatherDims.WF S500000 S4000000x1 S4000000 [] [0] [] [0] [] 1 ![1]
  scatter_S100000_S4000000x1_S4000000_n_0_0_1_wf : ScatterDims.WF S100000 S4000000x1 S4000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x5888.size a ≤ S3x100096.size a
  hwx0_0 : ∀ i : grid0.Coords, EltTy.bits .f32 = 32 ∨ (Rect.block (s := S3x100096) S3x5888.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x3.size a ≤ S64x3.size a
  hwx0_1 : ∀ i : grid0.Coords, EltTy.bits .f32 = 32 ∨ (Rect.block (s := S64x3) S64x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x5888.size a ≤ S1x100096.size a
  hwx0_7 : ∀ i : grid0.Coords, EltTy.bits .f32 = 32 ∨ (Rect.block (s := S1x100096) S1x5888.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x16000.size a ≤ S2x2000000.size a
  hwx1_0 : ∀ i : grid1.Coords, EltTy.bits .f32 = 32 ∨ (Rect.block (s := S2x2000000) S2x16000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x2.size a ≤ S64x2.size a
  hwx1_1 : ∀ i : grid1.Coords, EltTy.bits .f32 = 32 ∨ (Rect.block (s := S64x2) S64x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1.size a ≤ S1.size a
  hwx1_6 : ∀ i : grid1.Coords, EltTy.bits .f32 = 32 ∨ (Rect.block (s := S1) S1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x16000.size a ≤ S1x2000000.size a
  hwx1_7 : ∀ i : grid1.Coords, EltTy.bits .f32 = 32 ∨ (Rect.block (s := S1x2000000) S1x16000.size (cc1_transform_7 i) (hinb1_7 i)).WholeWords (EltTy.packing .f32)

variable [Facts₀]

def dot_S64x3_S3x5888_S64x5888_1_0_0_1_n_n : DotDims S64x3 S3x5888 S64x5888 where
  lhsContracting := [1]
  rhsContracting := [0]
  lhsNonContracting := [0]
  rhsNonContracting := [1]
  lhsBatch := []
  rhsBatch := []
  wf := dot_S64x3_S3x5888_S64x5888_1_0_0_1_n_n_wf
def dot_S64x64_S64x5888_S64x5888_1_0_0_1_n_n : DotDims S64x64 S64x5888 S64x5888 where
  lhsContracting := [1]
  rhsContracting := [0]
  lhsNonContracting := [0]
  rhsNonContracting := [1]
  lhsBatch := []
  rhsBatch := []
  wf := dot_S64x64_S64x5888_S64x5888_1_0_0_1_n_n_wf
def dot_S1x64_S64x5888_S1x5888_1_0_0_1_n_n : DotDims S1x64 S64x5888 S1x5888 where
  lhsContracting := [1]
  rhsContracting := [0]
  lhsNonContracting := [0]
  rhsNonContracting := [1]
  lhsBatch := []
  rhsBatch := []
  wf := dot_S1x64_S64x5888_S1x5888_1_0_0_1_n_n_wf
def gather_S100000_S2000000x1_S2000000_n_0_n_n_0_1_1 : GatherDims S100000 S2000000x1 S2000000 where
  offsetDims := []
  collapsedSliceDims := [0]
  operandBatchingDims := []
  startIndicesBatchingDims := []
  startIndexMap := [0]
  indexVectorDim := 1
  sliceSizes := ![1]
  wf := gather_S100000_S2000000x1_S2000000_n_0_n_n_0_1_1_wf
def gather_S4000000_S2000000x1_S2000000_n_0_n_n_0_1_1 : GatherDims S4000000 S2000000x1 S2000000 where
  offsetDims := []
  collapsedSliceDims := [0]
  operandBatchingDims := []
  startIndicesBatchingDims := []
  startIndexMap := [0]
  indexVectorDim := 1
  sliceSizes := ![1]
  wf := gather_S4000000_S2000000x1_S2000000_n_0_n_n_0_1_1_wf
def dot_S64x2_S2x16000_S64x16000_1_0_0_1_n_n : DotDims S64x2 S2x16000 S64x16000 where
  lhsContracting := [1]
  rhsContracting := [0]
  lhsNonContracting := [0]
  rhsNonContracting := [1]
  lhsBatch := []
  rhsBatch := []
  wf := dot_S64x2_S2x16000_S64x16000_1_0_0_1_n_n_wf
def dot_S64x64_S64x16000_S64x16000_1_0_0_1_n_n : DotDims S64x64 S64x16000 S64x16000 where
  lhsContracting := [1]
  rhsContracting := [0]
  lhsNonContracting := [0]
  rhsNonContracting := [1]
  lhsBatch := []
  rhsBatch := []
  wf := dot_S64x64_S64x16000_S64x16000_1_0_0_1_n_n_wf
def dot_S1x64_S64x16000_S1x16000_1_0_0_1_n_n : DotDims S1x64 S64x16000 S1x16000 where
  lhsContracting := [1]
  rhsContracting := [0]
  lhsNonContracting := [0]
  rhsNonContracting := [1]
  lhsBatch := []
  rhsBatch := []
  wf := dot_S1x64_S64x16000_S1x16000_1_0_0_1_n_n_wf
def scatter_S500000_S2000000x1_S2000000_n_0_0_1 : ScatterDims S500000 S2000000x1 S2000000 where
  updateWindowDims := []
  insertedWindowDims := [0]
  scatterDimsToOperandDims := [0]
  indexVectorDim := 1
  wf := scatter_S500000_S2000000x1_S2000000_n_0_0_1_wf
def gather_S500000_S4000000x1_S4000000_n_0_n_n_0_1_1 : GatherDims S500000 S4000000x1 S4000000 where
  offsetDims := []
  collapsedSliceDims := [0]
  operandBatchingDims := []
  startIndicesBatchingDims := []
  startIndexMap := [0]
  indexVectorDim := 1
  sliceSizes := ![1]
  wf := gather_S500000_S4000000x1_S4000000_n_0_n_n_0_1_1_wf
def scatter_S100000_S4000000x1_S4000000_n_0_0_1 : ScatterDims S100000 S4000000x1 S4000000 where
  updateWindowDims := []
  insertedWindowDims := [0]
  scatterDimsToOperandDims := [0]
  indexVectorDim := 1
  wf := scatter_S100000_S4000000x1_S4000000_n_0_0_1_wf

abbrev win0_0 : Pipeline.Window sig grid0 :=
  Pipeline.Window.ofSpec (Memref.whole main_v10) S3x5888.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S64x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg11) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg13) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg15) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x5888.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v34) S2x16000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S64x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v38) S1x16000.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x5 : Shape := ⟨2, ![100000, 5]⟩
abbrev S100000x2 : Shape := ⟨2, ![100000, 2]⟩
abbrev S4000000 : Shape := ⟨1, ![4000000]⟩
abbrev S500000 : Shape := ⟨1, ![500000]⟩
abbrev S2x64 : Shape := ⟨2, ![2, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S3x64 : Shape := ⟨2, ![3, 64]⟩
abbrev S2000000 : Shape := ⟨1, ![2000000]⟩
abbrev S100000x1 : Shape := ⟨2, ![100000, 1]⟩
abbrev S100000 : Shape := ⟨1, ![100000]⟩
abbrev S100000x3 : Shape := ⟨2, ![100000, 3]⟩
abbrev S100000x64 : Shape := ⟨2, ![100000, 64]⟩
abbrev S1x64 : Shape := ⟨2, ![1, 64]⟩
abbrev S1x1 : Shape := ⟨2, ![1, 1]⟩
abbrev S_ : Shape := ⟨0, ![]⟩
abbrev S2000000x1 : Shape := ⟨2, ![2000000, 1]⟩
abbrev S2000000x2 : Shape := ⟨2, ![2000000, 2]⟩
abbrev S2000000x64 : Shape := ⟨2, ![2000000, 64]⟩
abbrev S4000000x1 : Shape := ⟨2, ![4000000, 1]⟩

abbrev nBuf : Space → Nat
  | .hbm => 115
  | .vmem => 0
  | .smem => 0
  | _ => 0

abbrev bufTy : (tb : Table) → Fin (tcTables nBuf tb) → BufTy
  | .hbm, ⟨0, _⟩ => ⟨S100000x5, .f32⟩
  | .hbm, ⟨1, _⟩ => ⟨S100000x2, .f32⟩
  | .hbm, ⟨2, _⟩ => ⟨S4000000, .f32⟩
  | .hbm, ⟨3, _⟩ => ⟨S500000, .f32⟩
  | .hbm, ⟨4, _⟩ => ⟨S2x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S3x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x1, .f32⟩
  | .hbm, ⟨15, _⟩ => ⟨S1, .f32⟩
  | .hbm, ⟨16, _⟩ => ⟨S2000000, .i32⟩
  | .hbm, ⟨17, _⟩ => ⟨S2000000, .i32⟩
  | .hbm, ⟨18, _⟩ => ⟨S2000000, .i32⟩
  | .hbm, ⟨19, _⟩ => ⟨S4000000, .i32⟩
  | .hbm, ⟨20, _⟩ => ⟨S4000000, .i32⟩
  | .hbm, ⟨21, _⟩ => ⟨S100000x1, .f32⟩
  | .hbm, ⟨22, _⟩ => ⟨S100000, .f32⟩
  | .hbm, ⟨23, _⟩ => ⟨S100000x1, .f32⟩
  | .hbm, ⟨24, _⟩ => ⟨S100000x3, .f32⟩
  | .hbm, ⟨25, _⟩ => ⟨S100000x64, .f32⟩
  | .hbm, ⟨26, _⟩ => ⟨S1x64, .f32⟩
  | .hbm, ⟨27, _⟩ => ⟨S100000x64, .f32⟩
  | .hbm, ⟨28, _⟩ => ⟨S100000x64, .f32⟩
  | .hbm, ⟨29, _⟩ => ⟨S100000x64, .f32⟩
  | .hbm, ⟨30, _⟩ => ⟨S100000x64, .f32⟩
  | .hbm, ⟨31, _⟩ => ⟨S1x64, .f32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S100000x1, .f32⟩
  | .hbm, ⟨36, _⟩ => ⟨S1x1, .f32⟩
  | .hbm, ⟨37, _⟩ => ⟨S100000x1, .f32⟩
  | .hbm, ⟨38, _⟩ => ⟨S100000x1, .f32⟩
  | .hbm, ⟨39, _⟩ => ⟨S100000, .f32⟩
  | .hbm, ⟨40, _⟩ => ⟨S_, .i32⟩
  | .hbm, ⟨41, _⟩ => ⟨S2000000, .i32⟩
  | .hbm, ⟨42, _⟩ => ⟨S2000000, .i1⟩
  | .hbm, ⟨43, _⟩ => ⟨S_, .i32⟩
  | .hbm, ⟨44, _⟩ => ⟨S2000000, .i32⟩
  | .hbm, ⟨45, _⟩ => ⟨S2000000, .i32⟩
  | .hbm, ⟨46, _⟩ => ⟨S2000000, .i32⟩
  | .hbm, ⟨47, _⟩ => ⟨S2000000x1, .i32⟩
  | .hbm, ⟨48, _⟩ => ⟨S2000000, .f32⟩
  | .hbm, ⟨49, _⟩ => ⟨S_, .i32⟩
  | .hbm, ⟨50, _⟩ => ⟨S2000000, .i32⟩
  | .hbm, ⟨51, _⟩ => ⟨S2000000, .i1⟩
  | .hbm, ⟨52, _⟩ => ⟨S_, .i32⟩
  | .hbm, ⟨53, _⟩ => ⟨S2000000, .i32⟩
  | .hbm, ⟨54, _⟩ => ⟨S2000000, .i32⟩
  | .hbm, ⟨55, _⟩ => ⟨S2000000, .i32⟩
  | .hbm, ⟨56, _⟩ => ⟨S2000000x1, .i32⟩
  | .hbm, ⟨57, _⟩ => ⟨S2000000, .f32⟩
  | .hbm, ⟨58, _⟩ => ⟨S2000000, .f32⟩
  | .hbm, ⟨59, _⟩ => ⟨S2000000x1, .f32⟩
  | .hbm, ⟨60, _⟩ => ⟨S2000000x1, .f32⟩
  | .hbm, ⟨61, _⟩ => ⟨S2000000x2, .f32⟩
  | .hbm, ⟨62, _⟩ => ⟨S2000000x64, .f32⟩
  | .hbm, ⟨63, _⟩ => ⟨S1x64, .f32⟩
  | .hbm, ⟨64, _⟩ => ⟨S2000000x64, .f32⟩
  | .hbm, ⟨65, _⟩ => ⟨S2000000x64, .f32⟩
  | .hbm, ⟨66, _⟩ => ⟨S2000000x64, .f32⟩
  | .hbm, ⟨67, _⟩ => ⟨S2000000x64, .f32⟩
  | .hbm, ⟨68, _⟩ => ⟨S1x64, .f32⟩
  | .hbm, ⟨69, _⟩ => ⟨S2000000x64, .f32⟩
  | .hbm, ⟨70, _⟩ => ⟨S2000000x64, .f32⟩
  | .hbm, ⟨71, _⟩ => ⟨S2000000x64, .f32⟩
  | .hbm, ⟨72, _⟩ => ⟨S2000000x1, .f32⟩
  | .hbm, ⟨73, _⟩ => ⟨S1x1, .f32⟩
  | .hbm, ⟨74, _⟩ => ⟨S2000000x1, .f32⟩
  | .hbm, ⟨75, _⟩ => ⟨S2000000x1, .f32⟩
  | .hbm, ⟨76, _⟩ => ⟨S2000000, .f32⟩
  | .hbm, ⟨77, _⟩ => ⟨S_, .f32⟩
  | .hbm, ⟨78, _⟩ => ⟨S500000, .f32⟩
  | .hbm, ⟨79, _⟩ => ⟨S2000000x1, .i32⟩
  | .hbm, ⟨80, _⟩ => ⟨S500000, .f32⟩
  | .hbm, ⟨81, _⟩ => ⟨S_, .f32⟩
  | .hbm, ⟨82, _⟩ => ⟨S500000, .f32⟩
  | .hbm, ⟨83, _⟩ => ⟨S500000, .f32⟩
  | .hbm, ⟨84, _⟩ => ⟨S_, .f32⟩
  | .hbm, ⟨85, _⟩ => ⟨S500000, .f32⟩
  | .hbm, ⟨86, _⟩ => ⟨S500000, .f32⟩
  | .hbm, ⟨87, _⟩ => ⟨S500000, .f32⟩
  | .hbm, ⟨88, _⟩ => ⟨S500000, .f32⟩
  | .hbm, ⟨89, _⟩ => ⟨S500000, .i1⟩
  | .hbm, ⟨90, _⟩ => ⟨S500000, .f32⟩
  | .hbm, ⟨91, _⟩ => ⟨S500000, .f32⟩
  | .hbm, ⟨92, _⟩ => ⟨S500000, .f32⟩
  | .hbm, ⟨93, _⟩ => ⟨S500000, .f32⟩
  | .hbm, ⟨94, _⟩ => ⟨S500000, .f32⟩
  | .hbm, ⟨95, _⟩ => ⟨S500000, .f32⟩
  | .hbm, ⟨96, _⟩ => ⟨S500000, .f32⟩
  | .hbm, ⟨97, _⟩ => ⟨S500000, .f32⟩
  | .hbm, ⟨98, _⟩ => ⟨S500000, .f32⟩
  | .hbm, ⟨99, _⟩ => ⟨S_, .i32⟩
  | .hbm, ⟨100, _⟩ => ⟨S4000000, .i32⟩
  | .hbm, ⟨101, _⟩ => ⟨S4000000, .i1⟩
  | .hbm, ⟨102, _⟩ => ⟨S_, .i32⟩
  | .hbm, ⟨103, _⟩ => ⟨S4000000, .i32⟩
  | .hbm, ⟨104, _⟩ => ⟨S4000000, .i32⟩
  | .hbm, ⟨105, _⟩ => ⟨S4000000, .i32⟩
  | .hbm, ⟨106, _⟩ => ⟨S4000000x1, .i32⟩
  | .hbm, ⟨107, _⟩ => ⟨S4000000, .f32⟩
  | .hbm, ⟨108, _⟩ => ⟨S4000000, .f32⟩
  | .hbm, ⟨109, _⟩ => ⟨S_, .f32⟩
  | .hbm, ⟨110, _⟩ => ⟨S100000, .f32⟩
  | .hbm, ⟨111, _⟩ => ⟨S4000000x1, .i32⟩
  | .hbm, ⟨112, _⟩ => ⟨S100000, .f32⟩
  | .hbm, ⟨113, _⟩ => ⟨S100000, .f32⟩
  | .hbm, ⟨114, _⟩ => ⟨S100000x1, .f32⟩
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c : Ref sig .tc := ⟨.hbm, 40, rfl⟩
abbrev main_v19 : Ref sig .tc := ⟨.hbm, 41, rfl⟩
abbrev main_v20 : Ref sig .tc := ⟨.hbm, 42, rfl⟩
abbrev main_c_0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_1 : Ref sig .tc := ⟨.hbm, 49, rfl⟩
abbrev main_v26 : Ref sig .tc := ⟨.hbm, 50, rfl⟩
abbrev main_v27 : Ref sig .tc := ⟨.hbm, 51, rfl⟩
abbrev main_c_2 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_3 : Ref sig .tc := ⟨.hbm, 81, rfl⟩
abbrev main_v55 : Ref sig .tc := ⟨.hbm, 82, rfl⟩
abbrev main_v56 : Ref sig .tc := ⟨.hbm, 83, rfl⟩
abbrev main_call0_cst : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_call0_v5 : Ref sig .tc := ⟨.hbm, 90, rfl⟩
abbrev main_call0_v6 : Ref sig .tc := ⟨.hbm, 91, rfl⟩
abbrev main_call0_v7 : Ref sig .tc := ⟨.hbm, 92, rfl⟩
abbrev main_call0_v8 : Ref sig .tc := ⟨.hbm, 93, rfl⟩
abbrev main_call0_v9 : Ref sig .tc := ⟨.hbm, 94, rfl⟩
abbrev main_call0_v10 : Ref sig .tc := ⟨.hbm, 95, rfl⟩
abbrev main_call0_v11 : Ref sig .tc := ⟨.hbm, 96, rfl⟩
abbrev main_v57 : Ref sig .tc := ⟨.hbm, 97, rfl⟩
abbrev main_v58 : Ref sig .tc := ⟨.hbm, 98, rfl⟩
abbrev main_c_4 : Ref sig .tc := ⟨.hbm, 99, rfl⟩
abbrev main_v59 : Ref sig .tc := ⟨.hbm, 100, rfl⟩
abbrev main_v60 : Ref sig .tc := ⟨.hbm, 101, rfl⟩
abbrev main_c_5 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_6 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩

abbrev nD : Nat := 1
abbrev τ : Topo := Topo.v7x

variable {F : FTy → Type} [FloatOps F]

class Facts₀ : Prop where
  slices_S100000x5_S100000x1_0_3 : S100000x5.Slices ![0, 3] S100000x1
  shapeCasts_S100000x1_S100000 : S100000x1.ShapeCasts S100000
  bcast_S100000_S100000x1_0 : S100000.BroadcastsInDim S100000x1 (![0] : Fin 1 → Fin S100000x1.rank)
  concatenates_S100000x1_S100000x2_S100000x3_d1 : Shape.Concatenates [S100000x1, S100000x2] S100000x3 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x2_d1 : Shape.Concatenates [S2000000x1, S2000000x1] S2000000x2 1
  bcast_S1x64_S2000000x64_0_1 : S1x64.BroadcastsInDim S2000000x64 (![0, 1] : Fin 2 → Fin S2000000x64.rank)
  bcast_S1x1_S2000000x1_0_1 : S1x1.BroadcastsInDim S2000000x1 (![0, 1] : Fin 2 → Fin S2000000x1.rank)
  shapeCasts_S2000000x1_S2000000 : S2000000x1.ShapeCasts S2000000
  bcast_S_S500000 : S_.BroadcastsInDim S500000 (![] : Fin 0 → Fin S500000.rank)
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S100000 : S_.BroadcastsInDim S100000 (![] : Fin 0 → Fin S100000.rank)
  dot_S100000x3_S3x64_S100000x64_1_0_0_1_n_n_wf : DotDims.WF S100000x3 S3x64 S100000x64 [1] [0] [0] [1] [] []
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []
  gather_S100000_S2000000x1_S2000000_n_0_n_n_0_1_1_wf : GatherDims.WF S100000 S2000000x1 S2000000 [] [0] [] [0] [] 1 ![1]
  gather_S4000000_S2000000x1_S2000000_n_0_n_n_0_1_1_wf : GatherDims.WF S4000000 S2000000x1 S2000000 [] [0] [] [0] [] 1 ![1]
  dot_S2000000x2_S2x64_S2000000x64_1_0_0_1_n_n_wf : DotDims.WF S2000000x2 S2x64 S2000000x64 [1] [0] [0] [1] [] []
  dot_S2000000x64_S64x64_S2000000x64_1_0_0_1_n_n_wf : DotDims.WF S2000000x64 S64x64 S2000000x64 [1] [0] [0] [1] [] []
  dot_S2000000x64_S64x1_S2000000x1_1_0_0_1_n_n_wf : DotDims.WF S2000000x64 S64x1 S2000000x1 [1] [0] [0] [1] [] []
  scatter_S500000_S2000000x1_S2000000_n_0_0_1_wf : ScatterDims.WF S500000 S2000000x1 S2000000 [] [0] [0] 1
  gather_S500000_S4000000x1_S4000000_n_0_n_n_0_1_1_wf : GatherDims.WF S500000 S4000000x1 S4000000 [] [0] [] [0] [] 1 ![1]
  scatter_S100000_S4000000x1_S4000000_n_0_0_1_wf : ScatterDims.WF S100000 S4000000x1 S4000000 [] [0] [0] 1

variable [Facts₀]

def dot_S100000x3_S3x64_S100000x64_1_0_0_1_n_n : DotDims S100000x3 S3x64 S100000x64 where
  lhsContracting := [1]
  rhsContracting := [0]
  lhsNonContracting := [0]
  rhsNonContracting := [1]
  lhsBatch := []
  rhsBatch := []
  wf := dot_S100000x3_S3x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000_S2000000x1_S2000000_n_0_n_n_0_1_1 : GatherDims S100000 S2000000x1 S2000000 where
  offsetDims := []
  collapsedSliceDims := [0]
  operandBatchingDims := []
  startIndicesBatchingDims := []
  startIndexMap := [0]
  indexVectorDim := 1
  sliceSizes := ![1]
  wf := gather_S100000_S2000000x1_S2000000_n_0_n_n_0_1_1_wf
def gather_S4000000_S2000000x1_S2000000_n_0_n_n_0_1_1 : GatherDims S4000000 S2000000x1 S2000000 where
  offsetDims := []
  collapsedSliceDims := [0]
  operandBatchingDims := []
  startIndicesBatchingDims := []
  startIndexMap := [0]
  indexVectorDim := 1
  sliceSizes := ![1]
  wf := gather_S4000000_S2000000x1_S2000000_n_0_n_n_0_1_1_wf
def dot_S2000000x2_S2x64_S2000000x64_1_0_0_1_n_n : DotDims S2000000x2 S2x64 S2000000x64 where
  lhsContracting := [1]
  rhsContracting := [0]
  lhsNonContracting := [0]
  rhsNonContracting := [1]
  lhsBatch := []
  rhsBatch := []
  wf := dot_S2000000x2_S2x64_S2000000x64_1_0_0_1_n_n_wf
def dot_S2000000x64_S64x64_S2000000x64_1_0_0_1_n_n : DotDims S2000000x64 S64x64 S2000000x64 where
  lhsContracting := [1]
  rhsContracting := [0]
  lhsNonContracting := [0]
  rhsNonContracting := [1]
  lhsBatch := []
  rhsBatch := []
  wf := dot_S2000000x64_S64x64_S2000000x64_1_0_0_1_n_n_wf
def dot_S2000000x64_S64x1_S2000000x1_1_0_0_1_n_n : DotDims S2000000x64 S64x1 S2000000x1 where
  lhsContracting := [1]
  rhsContracting := [0]
  lhsNonContracting := [0]
  rhsNonContracting := [1]
  lhsBatch := []
  rhsBatch := []
  wf := dot_S2000000x64_S64x1_S2000000x1_1_0_0_1_n_n_wf
def scatter_S500000_S2000000x1_S2000000_n_0_0_1 : ScatterDims S500000 S2000000x1 S2000000 where
  updateWindowDims := []
  insertedWindowDims := [0]
  scatterDimsToOperandDims := [0]
  indexVectorDim := 1
  wf := scatter_S500000_S2000000x1_S2000000_n_0_0_1_wf
def gather_S500000_S4000000x1_S4000000_n_0_n_n_0_1_1 : GatherDims S500000 S4000000x1 S4000000 where
  offsetDims := []
  collapsedSliceDims := [0]
  operandBatchingDims := []
  startIndicesBatchingDims := []
  startIndexMap := [0]
  indexVectorDim := 1
  sliceSizes := ![1]
  wf := gather_S500000_S4000000x1_S4000000_n_0_n_n_0_1_1_wf
def scatter_S100000_S4000000x1_S4000000_n_0_0_1 : ScatterDims S100000 S4000000x1 S4000000 where
  updateWindowDims := []
  insertedWindowDims := [0]
  scatterDimsToOperandDims := [0]
  indexVectorDim := 1
  wf := scatter_S100000_S4000000x1_S4000000_n_0_0_1_wf

class Facts : Prop extends Facts₀ where

variable [Facts]
-- ==== Proof.BitsNodeRegion.lean ====
/-
  The node MLP's pallas_call (region 0 of the program): seven input windows (the padded 3 × 100096 feature array cut in
  17 column blocks of 5888, and the six weight and bias arrays whole) and one output window (the 1 × 100096 result, cut
  the same way). At any entry contents `V` of the core's buffers: the block of each window at a grid point, what one run
  of the body leaves in the output block — the body's single store of its three-layer payload, computed from the seven
  blocks it loads —, the body's Hoare triple, the pipeline's proof data over those blocks and the body obligation of the
  launch theorem at every grid point.
-/
import proofs.«106456_j29411936043039_1_alg».proof.Proof.Gen.Kernel.Launch
import proofs.«106456_j29411936043039_1_alg».proof.Proof.Gen.Kernel.Skeleton
import proofs.«106456_j29411936043039_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the entry contents at every grid point, whether the
    point fetches it or keeps the earlier copy (the block index has not moved since the last fetch). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block of the entry contents at every grid point, whether the
    point fetches it or keeps the earlier copy (the block index has not moved since the last fetch). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block of the entry contents at every grid point, whether the
    point fetches it or keeps the earlier copy (the block index has not moved since the last fetch). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block of the entry contents at every grid point, whether the
    point fetches it or keeps the earlier copy (the block index has not moved since the last fetch). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block of the entry contents at every grid point, whether the
    point fetches it or keeps the earlier copy (the block index has not moved since the last fetch). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block of the entry contents at every grid point, whether the
    point fetches it or keeps the earlier copy (the block index has not moved since the last fetch). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block of the entry contents at every grid point, whether the
    point fetches it or keeps the earlier copy (the block index has not moved since the last fetch). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole block -/

abbrev r0_0 : Rect S3x5888 := Rect.unit (s := S3x5888) ![0, 0] S3x5888.size inb_S3x5888_S3x5888_0_0
abbrev r0_1 : Rect S64x3 := Rect.unit (s := S64x3) ![0, 0] S64x3.size inb_S64x3_S64x3_0_0
abbrev r0_2 : Rect S64 := Rect.unit (s := S64) ![0] S64.size inb_S64_S64_0
abbrev r0_3 : Rect S64x64 := Rect.unit (s := S64x64) ![0, 0] S64x64.size inb_S64x64_S64x64_0_0
abbrev r0_4 : Rect S64 := Rect.unit (s := S64) ![0] S64.size inb_S64_S64_0
abbrev r0_5 : Rect S1x64 := Rect.unit (s := S1x64) ![0, 0] S1x64.size inb_S1x64_S1x64_0_0
abbrev r0_6 : Rect S1 := Rect.unit (s := S1) ![0] S1.size inb_S1_S1_0
abbrev r0_7 : Rect S1x5888 := Rect.unit (s := S1x5888) ![0, 0] S1x5888.size inb_S1x5888_S1x5888_0_0

/-! ## What the body leaves in the output block -/

/-- The output block after the body: its one store, of the three-layer payload of the seven loaded blocks. -/
def out0_7 (x0 : Vec F S3x5888 .f32) (x1 : Vec F S64x3 .f32) (x2 : Vec F S64 .f32) (x3 : Vec F S64x64 .f32) (x4 : Vec F S64 .f32) (x5 : Vec F S1x64 .f32) (x6 : Vec F S1 .f32) : Vec F S1x5888 .f32 :=
  View.canon [⟨r0_7, k0_pay1 (View.ld x0 r0_0) (View.ld x1 r0_1) (View.ld x2 r0_2) (View.ld x3 r0_3) (View.ld x4 r0_4) (View.ld x5 r0_5) (View.ld x6 r0_6)⟩]

/-- The store covers the whole output block. -/
theorem cover0_7 (p0 : Vec F S1x5888 .f32) (y : S1x5888.Idx) :
    ∃ pc ∈ ([⟨r0_7, p0⟩] : List (View.Piece (Elt F) S1x5888 .f32)), y ∈ pc.1.set :=
  View.cover_of_tiled [⟨r0_7, p0⟩] S1x5888.size (by rfl) y

/-! ## The body's triple -/

set_option maxHeartbeats 1000000 in
/-- The body on whole staging buffers, the inputs' at contents `x0 … x6` and the output's at anything, runs without a fault
    to a state with the inputs' buffers unchanged and the output's at `out0_7` of the inputs. -/
theorem sound_kernel0 (c : Dev nD) (E : Set ℕ) (i : grid0.Coords) (arg1 : Memref sig .tc .vmem S3x5888 .f32) (harg1 : arg1.IsWhole) (arg2 : Memref sig .tc .vmem S64x3 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S1x64 .f32) (harg6 : arg6.IsWhole) (arg7 : Memref sig .tc .vmem S1 .f32) (harg7 : arg7.IsWhole) (arg8 : Memref sig .tc .vmem S1x5888 .f32) (harg8 : arg8.IsWhole)
    (x0 : Vec F S3x5888 .f32) (x1 : Vec F S64x3 .f32) (x2 : Vec F S64 .f32) (x3 : Vec F S64x64 .f32) (x4 : Vec F S64 .f32) (x5 : Vec F S1x64 .f32) (x6 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of the node MLP's pipeline on core `c`: the arrays as the region finds them; after the body at grid
    point `t` each input's buffer still at its block and the output's at `out0_7` of the seven input blocks; nothing
    owed, full shares, the invariant that of a body which touches nothing but its blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every grid point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic grid point -/

/-- What the body is called with at grid point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any grid point: the inputs' buffers hold their blocks, so `sound_kernel0` applies; the invariant and what
    the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch theorem's body obligation, at every grid point. -/
theorem body_obligation0 (c : Dev nD) : BodyObligation (dat0 (F := F) V c) (defs₀ (F := F)) Variants.none () Set.univ := fun t => by
  rw [bigSep_W0, bigSep_W0]
  exact sound_body0 V c t

end Cert.Kernel.Regions

end
-- ==== Proof.BitsEdgeRegion.lean ====
/-
  The edge MLP's pallas_call (region 1 of the program): seven input windows (the 2 × 2000000 feature array cut in 125
  column blocks of 16000, and the six weight and bias arrays whole) and one output window (the 1 × 2000000 result, cut
  the same way). At any entry contents `V` of the core's buffers: the block of each window at a grid point, what one run
  of the body leaves in the output block — the body's single store of its three-layer payload, computed from the seven
  blocks it loads —, the body's Hoare triple, the pipeline's proof data over those blocks and the body obligation of the
  launch theorem at every grid point.
-/
import proofs.«106456_j29411936043039_1_alg».proof.Proof.Gen.Kernel.Launch
import proofs.«106456_j29411936043039_1_alg».proof.Proof.Gen.Kernel.Skeleton
import proofs.«106456_j29411936043039_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the entry contents at every grid point, whether the
    point fetches it or keeps the earlier copy (the block index has not moved since the last fetch). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block of the entry contents at every grid point, whether the
    point fetches it or keeps the earlier copy (the block index has not moved since the last fetch). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block of the entry contents at every grid point, whether the
    point fetches it or keeps the earlier copy (the block index has not moved since the last fetch). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block of the entry contents at every grid point, whether the
    point fetches it or keeps the earlier copy (the block index has not moved since the last fetch). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block of the entry contents at every grid point, whether the
    point fetches it or keeps the earlier copy (the block index has not moved since the last fetch). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block of the entry contents at every grid point, whether the
    point fetches it or keeps the earlier copy (the block index has not moved since the last fetch). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block of the entry contents at every grid point, whether the
    point fetches it or keeps the earlier copy (the block index has not moved since the last fetch). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole block -/

abbrev r1_0 : Rect S2x16000 := Rect.unit (s := S2x16000) ![0, 0] S2x16000.size inb_S2x16000_S2x16000_0_0
abbrev r1_1 : Rect S64x2 := Rect.unit (s := S64x2) ![0, 0] S64x2.size inb_S64x2_S64x2_0_0
abbrev r1_2 : Rect S64 := Rect.unit (s := S64) ![0] S64.size inb_S64_S64_0
abbrev r1_3 : Rect S64x64 := Rect.unit (s := S64x64) ![0, 0] S64x64.size inb_S64x64_S64x64_0_0
abbrev r1_4 : Rect S64 := Rect.unit (s := S64) ![0] S64.size inb_S64_S64_0
abbrev r1_5 : Rect S1x64 := Rect.unit (s := S1x64) ![0, 0] S1x64.size inb_S1x64_S1x64_0_0
abbrev r1_6 : Rect S1 := Rect.unit (s := S1) ![0] S1.size inb_S1_S1_0
abbrev r1_7 : Rect S1x16000 := Rect.unit (s := S1x16000) ![0, 0] S1x16000.size inb_S1x16000_S1x16000_0_0

/-! ## What the body leaves in the output block -/

/-- The output block after the body: its one store, of the three-layer payload of the seven loaded blocks. -/
def out1_7 (x0 : Vec F S2x16000 .f32) (x1 : Vec F S64x2 .f32) (x2 : Vec F S64 .f32) (x3 : Vec F S64x64 .f32) (x4 : Vec F S64 .f32) (x5 : Vec F S1x64 .f32) (x6 : Vec F S1 .f32) : Vec F S1x16000 .f32 :=
  View.canon [⟨r1_7, k1_pay1 (View.ld x0 r1_0) (View.ld x1 r1_1) (View.ld x2 r1_2) (View.ld x3 r1_3) (View.ld x4 r1_4) (View.ld x5 r1_5) (View.ld x6 r1_6)⟩]

/-- The store covers the whole output block. -/
theorem cover1_7 (p0 : Vec F S1x16000 .f32) (y : S1x16000.Idx) :
    ∃ pc ∈ ([⟨r1_7, p0⟩] : List (View.Piece (Elt F) S1x16000 .f32)), y ∈ pc.1.set :=
  View.cover_of_tiled [⟨r1_7, p0⟩] S1x16000.size (by rfl) y

/-! ## The body's triple -/

set_option maxHeartbeats 1000000 in
/-- The body on whole staging buffers, the inputs' at contents `x0 … x6` and the output's at anything, runs without a fault
    to a state with the inputs' buffers unchanged and the output's at `out1_7` of the inputs. -/
theorem sound_kernel1 (c : Dev nD) (E : Set ℕ) (i : grid1.Coords) (arg1 : Memref sig .tc .vmem S2x16000 .f32) (harg1 : arg1.IsWhole) (arg2 : Memref sig .tc .vmem S64x2 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S1x64 .f32) (harg6 : arg6.IsWhole) (arg7 : Memref sig .tc .vmem S1 .f32) (harg7 : arg7.IsWhole) (arg8 : Memref sig .tc .vmem S1x16000 .f32) (harg8 : arg8.IsWhole)
    (x0 : Vec F S2x16000 .f32) (x1 : Vec F S64x2 .f32) (x2 : Vec F S64 .f32) (x3 : Vec F S64x64 .f32) (x4 : Vec F S64 .f32) (x5 : Vec F S1x64 .f32) (x6 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__mlp_kernel i arg1 harg1 arg2 harg2 arg3 harg3 arg4 harg4 arg5 harg5 arg6 harg6 arg7 harg7 arg8 harg8) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of the edge MLP's pipeline on core `c`: the arrays as the region finds them; after the body at grid
    point `t` each input's buffer still at its block and the output's at `out1_7` of the seven input blocks; nothing
    owed, full shares, the invariant that of a body which touches nothing but its blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every grid point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic grid point -/

/-- What the body is called with at grid point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any grid point: the inputs' buffers hold their blocks, so `sound_kernel1` applies; the invariant and what
    the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch theorem's body obligation, at every grid point. -/
theorem body_obligation1 (c : Dev nD) : BodyObligation (dat1 (F := F) V c) (defs₀ (F := F)) Variants.none () Set.univ := fun t => by
  rw [bigSep_W1, bigSep_W1]
  exact sound_body1 V c t

end Cert.Kernel.Regions

end
-- ==== Proof.BitsSegments.lean ====
/-
  The whole run of the program as nine items in @main's order — three stretches of host operations, the node MLP's
  pallas_call, a stretch, the edge MLP's pallas_call, three stretches — over the contents of the core's unscoped buffers
  between items: the launch memory, then each stretch's operations applied, then at a region's exit its output array at
  what the pipeline's write-backs leave and every other buffer as entered. The result: every weakly fair execution
  terminates without a fault, and the final memory holds every unscoped buffer at the last contents of that fold.
-/
import proofs.«106456_j29411936043039_1_alg».proof.Proof.Gen.Kernel.Regions
import proofs.«106456_j29411936043039_1_alg».proof.Proof.BitsNodeRegion
import proofs.«106456_j29411936043039_1_alg».proof.Proof.BitsEdgeRegion

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two regions leave in their output arrays -/

/-- The buffers as the node MLP's region finds them, read at the TensorCore's references. -/
abbrev nodeEntry : (c : Dev nD) → (b : Ref sig .tc) → Buf (Elt F) ((c : Thread nD τ).loc b) := fun c b => V3 m c b

/-- The node MLP's output array after its 17 write-backs. -/
def nodeOut (c : Dev nD) : Buf (Elt F) ((c : Thread nD τ).loc main_v14) := (dat0 (nodeEntry m) c).arrAt 7 cfg0.N

/-- The regions' unknown output contents with only the node MLP's filled in (what the edge MLP's entry contents read). -/
def outsNode : Outs (F := F) := fun _ r c => Function.update (V0 m c) main_v14 (nodeOut m c) r

/-- The buffers as the edge MLP's region finds them. -/
abbrev edgeEntry : (c : Dev nD) → (b : Ref sig .tc) → Buf (Elt F) ((c : Thread nD τ).loc b) := fun c b => V5 m (outsNode m) c b

/-- The edge MLP's output array after its 125 write-backs. -/
def edgeOut (c : Dev nD) : Buf (Elt F) ((c : Thread nD τ).loc main_v38) := (dat1 (edgeEntry m) c).arrAt 7 cfg1.N

/-- Both regions' output contents. -/
def outsBoth : Outs (F := F) := fun _ r c => Function.update (Function.update (V0 m c) main_v14 (nodeOut m c)) main_v38 (edgeOut m c) r

theorem outsNode_v14 (J : ℕ) (c : Dev nD) : outsNode m J main_v14 c = nodeOut m c := by
  unfold outsNode; exact Function.update_self ..
theorem outsBoth_v14 (J : ℕ) (c : Dev nD) : outsBoth m J main_v14 c = nodeOut m c := by
  unfold outsBoth
  rw [Function.update_of_ne (StableHlo.devRef_ne_of_ne (by decide) : (Proc.devRef .tc main_v14 : DevRef τ sig) ≠ Proc.devRef .tc main_v38)]
  exact Function.update_self ..
theorem outsBoth_v38 (J : ℕ) (c : Dev nD) : outsBoth m J main_v38 c = edgeOut m c := by
  unfold outsBoth; exact Function.update_self ..

/-- The edge MLP's entry contents read only the node MLP's output among the unknowns. -/
theorem V5_outsBoth (c : Dev nD) : V5 m (outsBoth m) c = V5 m (outsNode m) c := by
  show StableHlo.after hostOps1 (Function.update (V3 m c) main_v14 (outsBoth m 4 main_v14 c))
    = StableHlo.after hostOps1 (Function.update (V3 m c) main_v14 (outsNode m 4 main_v14 c))
  rw [outsBoth_v14, outsNode_v14]

/-- A region's exit contents at its output array are the unknown for it. -/
theorem V4_v14 (outs : Outs (F := F)) (c : Dev nD) : V4 m outs c main_v14 = outs 4 main_v14 c := Function.update_self ..
theorem V6_v38 (outs : Outs (F := F)) (c : Dev nD) : V6 m outs c main_v38 = outs 6 main_v38 c := Function.update_self ..

/-- The contents at each region's exit, read at the TensorCore's references. -/
abbrev nodeExit : (c : Dev nD) → (b : Ref sig .tc) → Buf (Elt F) ((c : Thread nD τ).loc b) := fun c b => V4 m (outsBoth m) c b
abbrev edgeExit : (c : Dev nD) → (b : Ref sig .tc) → Buf (Elt F) ((c : Thread nD τ).loc b) := fun c b => V6 m (outsBoth m) c b

/-! ## Each region's arrays at its exit -/

/-- Each region's output array at its exit holds the pipeline's write-backs. -/
theorem nodeOut_exit (c : Dev nD) : nodeOut m c = nodeExit m c main_v14 :=
  ((V4_v14 m (outsBoth m) c).trans (outsBoth_v14 m 4 c)).symm
theorem edgeOut_exit (c : Dev nD) : edgeOut m c = edgeExit m c main_v38 :=
  ((V6_v38 m (outsBoth m) c).trans (outsBoth_v38 m 6 c)).symm

/-- At the node MLP's exit each of its windows' arrays holds what the pipeline leaves: an input array as entered, the
    output array its write-backs. -/
theorem nodeArrays (c : Dev nD) (w : Fin cfg0.W) : (dat0 (nodeEntry m) c).arrAt w cfg0.N = nodeExit m c (Pipeline.arrRef spec0 w) := by
  match w with
  | ⟨0, _⟩ => exact (((dat0 (nodeEntry m) c).arrAt_in 0 rfl _).trans (A_eq0 (nodeEntry m) c 0)).trans (V4_of m (outsBoth m) c _ (by decide)).symm
  | ⟨1, _⟩ => exact (((dat0 (nodeEntry m) c).arrAt_in 1 rfl _).trans (A_eq0 (nodeEntry m) c 1)).trans (V4_of m (outsBoth m) c _ (by decide)).symm
  | ⟨2, _⟩ => exact (((dat0 (nodeEntry m) c).arrAt_in 2 rfl _).trans (A_eq0 (nodeEntry m) c 2)).trans (V4_of m (outsBoth m) c _ (by decide)).symm
  | ⟨3, _⟩ => exact (((dat0 (nodeEntry m) c).arrAt_in 3 rfl _).trans (A_eq0 (nodeEntry m) c 3)).trans (V4_of m (outsBoth m) c _ (by decide)).symm
  | ⟨4, _⟩ => exact (((dat0 (nodeEntry m) c).arrAt_in 4 rfl _).trans (A_eq0 (nodeEntry m) c 4)).trans (V4_of m (outsBoth m) c _ (by decide)).symm
  | ⟨5, _⟩ => exact (((dat0 (nodeEntry m) c).arrAt_in 5 rfl _).trans (A_eq0 (nodeEntry m) c 5)).trans (V4_of m (outsBoth m) c _ (by decide)).symm
  | ⟨6, _⟩ => exact (((dat0 (nodeEntry m) c).arrAt_in 6 rfl _).trans (A_eq0 (nodeEntry m) c 6)).trans (V4_of m (outsBoth m) c _ (by decide)).symm
  | ⟨7, _⟩ => exact nodeOut_exit m c
/-- Every buffer that is no array of the node MLP's windows is as entered. -/
theorem nodeRest (c : Dev nD) : ∀ b, b ∉ Finset.univ.image (Pipeline.arrRef spec0) → nodeExit m c b = nodeEntry m c b :=
  fun b hb => V4_of m (outsBoth m) c b (by
    intro h; rw [List.mem_singleton] at h; subst h
    exact hb (Finset.mem_image.mpr ⟨7, Finset.mem_univ _, rfl⟩))

/-- The edge MLP's entry contents, stated over both unknowns. -/
theorem edgeEntry_eq (c : Dev nD) (b : Ref sig .tc) : edgeEntry m c b = V5 m (outsBoth m) c b :=
  (congrFun (V5_outsBoth m c) (Proc.devRef .tc b)).symm

theorem edgeIn0 (c : Dev nD) : (dat1 (edgeEntry m) c).arrAt 0 cfg1.N = edgeExit m c (Pipeline.arrRef spec1 0) :=
  ((((dat1 (edgeEntry m) c).arrAt_in 0 rfl _).trans (A_eq1 (edgeEntry m) c 0)).trans (edgeEntry_eq m c (Pipeline.arrRef spec1 0))).trans
    (V6_of m (outsBoth m) c (Pipeline.arrRef spec1 0) (by decide)).symm
theorem edgeIn1 (c : Dev nD) : (dat1 (edgeEntry m) c).arrAt 1 cfg1.N = edgeExit m c (Pipeline.arrRef spec1 1) :=
  ((((dat1 (edgeEntry m) c).arrAt_in 1 rfl _).trans (A_eq1 (edgeEntry m) c 1)).trans (edgeEntry_eq m c (Pipeline.arrRef spec1 1))).trans
    (V6_of m (outsBoth m) c (Pipeline.arrRef spec1 1) (by decide)).symm
theorem edgeIn2 (c : Dev nD) : (dat1 (edgeEntry m) c).arrAt 2 cfg1.N = edgeExit m c (Pipeline.arrRef spec1 2) :=
  ((((dat1 (edgeEntry m) c).arrAt_in 2 rfl _).trans (A_eq1 (edgeEntry m) c 2)).trans (edgeEntry_eq m c (Pipeline.arrRef spec1 2))).trans
    (V6_of m (outsBoth m) c (Pipeline.arrRef spec1 2) (by decide)).symm
theorem edgeIn3 (c : Dev nD) : (dat1 (edgeEntry m) c).arrAt 3 cfg1.N = edgeExit m c (Pipeline.arrRef spec1 3) :=
  ((((dat1 (edgeEntry m) c).arrAt_in 3 rfl _).trans (A_eq1 (edgeEntry m) c 3)).trans (edgeEntry_eq m c (Pipeline.arrRef spec1 3))).trans
    (V6_of m (outsBoth m) c (Pipeline.arrRef spec1 3) (by decide)).symm
theorem edgeIn4 (c : Dev nD) : (dat1 (edgeEntry m) c).arrAt 4 cfg1.N = edgeExit m c (Pipeline.arrRef spec1 4) :=
  ((((dat1 (edgeEntry m) c).arrAt_in 4 rfl _).trans (A_eq1 (edgeEntry m) c 4)).trans (edgeEntry_eq m c (Pipeline.arrRef spec1 4))).trans
    (V6_of m (outsBoth m) c (Pipeline.arrRef spec1 4) (by decide)).symm
theorem edgeIn5 (c : Dev nD) : (dat1 (edgeEntry m) c).arrAt 5 cfg1.N = edgeExit m c (Pipeline.arrRef spec1 5) :=
  ((((dat1 (edgeEntry m) c).arrAt_in 5 rfl _).trans (A_eq1 (edgeEntry m) c 5)).trans (edgeEntry_eq m c (Pipeline.arrRef spec1 5))).trans
    (V6_of m (outsBoth m) c (Pipeline.arrRef spec1 5) (by decide)).symm
theorem edgeIn6 (c : Dev nD) : (dat1 (edgeEntry m) c).arrAt 6 cfg1.N = edgeExit m c (Pipeline.arrRef spec1 6) :=
  ((((dat1 (edgeEntry m) c).arrAt_in 6 rfl _).trans (A_eq1 (edgeEntry m) c 6)).trans (edgeEntry_eq m c (Pipeline.arrRef spec1 6))).trans
    (V6_of m (outsBoth m) c (Pipeline.arrRef spec1 6) (by decide)).symm
/-- At the edge MLP's exit each of its windows' arrays holds what the pipeline leaves: an input array as entered, the
    output array its write-backs. -/
theorem edgeArrays (c : Dev nD) (w : Fin cfg1.W) : (dat1 (edgeEntry m) c).arrAt w cfg1.N = edgeExit m c (Pipeline.arrRef spec1 w) := by
  match w with
  | ⟨0, _⟩ => exact edgeIn0 m c
  | ⟨1, _⟩ => exact edgeIn1 m c
  | ⟨2, _⟩ => exact edgeIn2 m c
  | ⟨3, _⟩ => exact edgeIn3 m c
  | ⟨4, _⟩ => exact edgeIn4 m c
  | ⟨5, _⟩ => exact edgeIn5 m c
  | ⟨6, _⟩ => exact edgeIn6 m c
  | ⟨7, _⟩ => exact edgeOut_exit m c
theorem edgeRest (c : Dev nD) : ∀ b, b ∉ Finset.univ.image (Pipeline.arrRef spec1) → edgeExit m c b = edgeEntry m c b :=
  fun b hb => (V6_of m (outsBoth m) c b (by
    intro h; rw [List.mem_singleton] at h; subst h
    exact hb (Finset.mem_image.mpr ⟨7, Finset.mem_univ _, rfl⟩))).trans (edgeEntry_eq m c b).symm

/-! ## The proof data family and what rides beside the buffers -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (nodeEntry m) c
  | ⟨1, _⟩ => fun c => dat1 (edgeEntry m) c
abbrev 𝒱₀ : Variants := Variants.none
/-- No core owes another anything. -/
abbrev L : GSem nD τ sig → Finset Unit := fun _ => ∅
abbrev lv : GSem nD τ sig → Unit → ℕ := fun _ _ => 0
/-- Beside the buffers through every item: the core's generator register at some state, and the core owing nothing. -/
abbrev rider (c : Dev nD) : sProp 𝕄 := iprop((∃ r, prngReg c r) ∗ ∃ W, owes (c : Thread nD τ) (0 : CellTallies nD τ sig Unit) W)

/-! ## The regions as segments -/

-- unification against the pinned pipeline configuration has to unfold plain definitions in a metavariable's type
set_option backward.isDefEq.respectTransparency.types false in
/-- Region 0 as a segment of the run: entered with every unscoped buffer at the contents before it, left with them at the
    contents after it. Its windows' arrays are split out of the unscoped buffers on entry and put back, at what the
    pipeline's write-backs leave, on exit; the generator register goes into the body's invariant and comes back; nothing is
    owed and the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (nodeEntry m) c).loose
  hwaits := Pipeline.hwaits_of_owed_zero _ _ _ _ L lv 0 fun _ _ => rfl
  pre c := iprop(StableHlo.held (c : Thread nD τ) (Pipeline.ucRefs τ sig) (V3 m c) ∗ rider c)
  post c := iprop(StableHlo.held (c : Thread nD τ) (Pipeline.ucRefs τ sig) (V4 m (outsBoth m) c) ∗ rider c)
  X c := iprop(∃ r, prngReg c r)
  Y c := iprop(∃ r, prngReg c r)
  Z c := Pipeline.unscopedRest (Ix := Unit) (Name := ℕ) (U := UR sig nD τ) (Lvl := ℕ) spec0 c (nodeEntry m c)
  hentry c := by
    rw [Pipeline.ownSems0_none]
    have hsplit := Pipeline.arrays_of_unscopedBufs (p := 0) (pcfgs (F := F)) adm (pdats m) launch0.win launch0.arr_whole c
      ((pdats m 0 c).share_full fun _ => rfl) (nodeEntry m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (nodeEntry m c) (nodeExit m c) ((pdats m 0 c).arrAt · cfg0.N) (nodeArrays m c) (nodeRest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification against the pinned pipeline configuration has to unfold plain definitions in a metavariable's type
set_option backward.isDefEq.respectTransparency.types false in
/-- Region 1 as a segment of the run: entered with every unscoped buffer at the contents before it, left with them at the
    contents after it. Its windows' arrays are split out of the unscoped buffers on entry and put back, at what the
    pipeline's write-backs leave, on exit; the generator register goes into the body's invariant and comes back; nothing is
    owed and the kernel has no semaphore of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (edgeEntry m) c).loose
  hwaits := Pipeline.hwaits_of_owed_zero _ _ _ _ L lv 1 fun _ _ => rfl
  pre c := iprop(StableHlo.held (c : Thread nD τ) (Pipeline.ucRefs τ sig) (V5 m (outsNode m) c) ∗ rider c)
  post c := iprop(StableHlo.held (c : Thread nD τ) (Pipeline.ucRefs τ sig) (V6 m (outsBoth m) c) ∗ rider c)
  X c := iprop(∃ r, prngReg c r)
  Y c := iprop(∃ r, prngReg c r)
  Z c := Pipeline.unscopedRest (Ix := Unit) (Name := ℕ) (U := UR sig nD τ) (Lvl := ℕ) spec1 c (edgeEntry m c)
  hentry c := by
    rw [Pipeline.ownSems0_none]
    have hsplit := Pipeline.arrays_of_unscopedBufs (p := 1) (pcfgs (F := F)) adm (pdats m) launch1.win launch1.arr_whole c
      ((pdats m 1 c).share_full fun _ => rfl) (edgeEntry m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (edgeEntry m c) (edgeExit m c) ((pdats m 1 c).arrAt · cfg1.N) (edgeArrays m c) (edgeRest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The nine items as segments, the host stretches over the fold's contents with the rider beside them. -/
abbrev items : List (Seg (pcfgs (F := F)) adm (pdats m) () defs₀ 𝒱₀ L lv) :=
  segs m (outsBoth m) 𝒱₀ L lv (fun _ => rider) () (pdats m) (reg0 m) (reg1 m) (0 : Dev nD)

set_option backward.isDefEq.respectTransparency.types false in
/-- Every weakly fair execution of @main from memory `m` with zero counters terminates, nothing faulting, and the final
    memory holds every unscoped buffer of every core at the last contents of the fold. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V9 m (outsBoth m) c b) :=
  Pipeline.θ_run_regions_kit (pcfgs (F := F)) adm (pdats m) () cellOf_inj emb₁ defs₀ 𝒱₀ L lv m ρ main (items m)
    (fun c Q => by
      rewrite [main_chain c, Seg.run_eq_chain,
        show (items m).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (by simp only [items, segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rider c))
    (Tₙ := fun c => iprop(StableHlo.held (c : Thread nD τ) (Pipeline.ucRefs τ sig) (V9 m (outsBoth m) c) ∗ ∃ r, prngReg c r))
    (hch := ⟨fun _ => .rfl, fun _ => .rfl, fun _ => .rfl, fun _ => .rfl, fun _ => .rfl,
      fun c => by
        show iprop(StableHlo.held (c : Thread nD τ) (Pipeline.ucRefs τ sig) (V5 m (outsBoth m) c) ∗ rider c)
          ⊢ iprop(StableHlo.held (c : Thread nD τ) (Pipeline.ucRefs τ sig) (V5 m (outsNode m) c) ∗ rider c)
        rw [V5_outsBoth m c],
      fun _ => .rfl, fun _ => .rfl, fun _ => .rfl,
      fun c => by
        show iprop(StableHlo.held (c : Thread nD τ) (Pipeline.ucRefs τ sig) (V9 m (outsBoth m) c) ∗ rider c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V9 m (outsBoth m) c b)
    (hfin := fun c s' => by
      iintro ⟨⟨Hh, -⟩, HSI⟩
      unfold StableHlo.held
      imodintro
      iapply (pointsTo_read_all (Pipeline.ucRefs τ sig) (fun b => (((c : Thread nD τ)).1, b)) (V9 m (outsBoth m) c) s')
      isplitl [Hh] <;> iassumption)
    (hQ := fun s h c => h c)

/-- The frame: every argument array ends holding its launch contents (no host stretch writes an argument, and no region
    may change one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c _ (mem_uc main_arg0 (by decide))).trans (V9_main_arg0 m (outsBoth m) c),
    (h c _ (mem_uc main_arg1 (by decide))).trans (V9_main_arg1 m (outsBoth m) c),
    (h c _ (mem_uc main_arg2 (by decide))).trans (V9_main_arg2 m (outsBoth m) c),
    (h c _ (mem_uc main_arg3 (by decide))).trans (V9_main_arg3 m (outsBoth m) c),
    (h c _ (mem_uc main_arg4 (by decide))).trans (V9_main_arg4 m (outsBoth m) c),
    (h c _ (mem_uc main_arg5 (by decide))).trans (V9_main_arg5 m (outsBoth m) c),
    (h c _ (mem_uc main_arg6 (by decide))).trans (V9_main_arg6 m (outsBoth m) c),
    (h c _ (mem_uc main_arg7 (by decide))).trans (V9_main_arg7 m (outsBoth m) c),
    (h c _ (mem_uc main_arg8 (by decide))).trans (V9_main_arg8 m (outsBoth m) c),
    (h c _ (mem_uc main_arg9 (by decide))).trans (V9_main_arg9 m (outsBoth m) c),
    (h c _ (mem_uc main_arg10 (by decide))).trans (V9_main_arg10 m (outsBoth m) c),
    (h c _ (mem_uc main_arg11 (by decide))).trans (V9_main_arg11 m (outsBoth m) c),
    (h c _ (mem_uc main_arg12 (by decide))).trans (V9_main_arg12 m (outsBoth m) c),
    (h c _ (mem_uc main_arg13 (by decide))).trans (V9_main_arg13 m (outsBoth m) c),
    (h c _ (mem_uc main_arg14 (by decide))).trans (V9_main_arg14 m (outsBoth m) c),
    (h c _ (mem_uc main_arg15 (by decide))).trans (V9_main_arg15 m (outsBoth m) c),
    (h c _ (mem_uc main_arg16 (by decide))).trans (V9_main_arg16 m (outsBoth m) c),
    (h c _ (mem_uc main_arg17 (by decide))).trans (V9_main_arg17 m (outsBoth m) c),
    (h c _ (mem_uc main_arg18 (by decide))).trans (V9_main_arg18 m (outsBoth m) c),
    (h c _ (mem_uc main_arg19 (by decide))).trans (V9_main_arg19 m (outsBoth m) c),
    (h c _ (mem_uc main_arg20 (by decide))).trans (V9_main_arg20 m (outsBoth m) c)⟩) (run_all m ρ)

end Cert.Kernel.Regions

end
-- ==== Proof.NodeRegion.lean ====
/-
  The node MLP's pallas_call (region 0 of the program): seven input windows (the padded 3 × 100096 feature array cut in
  17 column blocks of 5888, and the six weight and bias arrays whole) and one output window (the 1 × 100096 result, cut
  the same way). At any entry contents `V` of the core's buffers: the block of each window at a grid point, what one run
  of the body leaves in the output block — the body's single store of its three-layer payload, computed from the seven
  blocks it loads —, the body's Hoare triple, the pipeline's proof data over those blocks and the body obligation of the
  launch theorem at every grid point.
-/
import proofs.«106456_j29411936043039_1_alg».proof.Proof.Gen.KernelIdeal.Launch
import proofs.«106456_j29411936043039_1_alg».proof.Proof.Gen.KernelIdeal.Skeleton
import proofs.«106456_j29411936043039_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the entry contents at every grid point, whether the
    point fetches it or keeps the earlier copy (the block index has not moved since the last fetch). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block of the entry contents at every grid point, whether the
    point fetches it or keeps the earlier copy (the block index has not moved since the last fetch). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block of the entry contents at every grid point, whether the
    point fetches it or keeps the earlier copy (the block index has not moved since the last fetch). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block of the entry contents at every grid point, whether the
    point fetches it or keeps the earlier copy (the block index has not moved since the last fetch). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block of the entry contents at every grid point, whether the
    point fetches it or keeps the earlier copy (the block index has not moved since the last fetch). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block of the entry contents at every grid point, whether the
    point fetches it or keeps the earlier copy (the block index has not moved since the last fetch). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block of the entry contents at every grid point, whether the
    point fetches it or keeps the earlier copy (the block index has not moved since the last fetch). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole block -/

abbrev r0_0 : Rect S3x5888 := Rect.unit (s := S3x5888) ![0, 0] S3x5888.size inb_S3x5888_S3x5888_0_0
abbrev r0_1 : Rect S64x3 := Rect.unit (s := S64x3) ![0, 0] S64x3.size inb_S64x3_S64x3_0_0
abbrev r0_2 : Rect S64 := Rect.unit (s := S64) ![0] S64.size inb_S64_S64_0
abbrev r0_3 : Rect S64x64 := Rect.unit (s := S64x64) ![0, 0] S64x64.size inb_S64x64_S64x64_0_0
abbrev r0_4 : Rect S64 := Rect.unit (s := S64) ![0] S64.size inb_S64_S64_0
abbrev r0_5 : Rect S1x64 := Rect.unit (s := S1x64) ![0, 0] S1x64.size inb_S1x64_S1x64_0_0
abbrev r0_6 : Rect S1 := Rect.unit (s := S1) ![0] S1.size inb_S1_S1_0
abbrev r0_7 : Rect S1x5888 := Rect.unit (s := S1x5888) ![0, 0] S1x5888.size inb_S1x5888_S1x5888_0_0

/-! ## What the body leaves in the output block -/

/-- The output block after the body: its one store, of the three-layer payload of the seven loaded blocks. -/
def out0_7 (x0 : Vec F S3x5888 .f32) (x1 : Vec F S64x3 .f32) (x2 : Vec F S64 .f32) (x3 : Vec F S64x64 .f32) (x4 : Vec F S64 .f32) (x5 : Vec F S1x64 .f32) (x6 : Vec F S1 .f32) : Vec F S1x5888 .f32 :=
  View.canon [⟨r0_7, k0_pay1 (View.ld x0 r0_0) (View.ld x1 r0_1) (View.ld x2 r0_2) (View.ld x3 r0_3) (View.ld x4 r0_4) (View.ld x5 r0_5) (View.ld x6 r0_6)⟩]

/-- The store covers the whole output block. -/
theorem cover0_7 (p0 : Vec F S1x5888 .f32) (y : S1x5888.Idx) :
    ∃ pc ∈ ([⟨r0_7, p0⟩] : List (View.Piece (Elt F) S1x5888 .f32)), y ∈ pc.1.set :=
  View.cover_of_tiled [⟨r0_7, p0⟩] S1x5888.size (by rfl) y

/-! ## The body's triple -/

set_option maxHeartbeats 1000000 in
/-- The body on whole staging buffers, the inputs' at contents `x0 … x6` and the output's at anything, runs without a fault
    to a state with the inputs' buffers unchanged and the output's at `out0_7` of the inputs. -/
theorem sound_kernel0 (c : Dev nD) (E : Set ℕ) (i : grid0.Coords) (arg1 : Memref sig .tc .vmem S3x5888 .f32) (harg1 : arg1.IsWhole) (arg2 : Memref sig .tc .vmem S64x3 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S1x64 .f32) (harg6 : arg6.IsWhole) (arg7 : Memref sig .tc .vmem S1 .f32) (harg7 : arg7.IsWhole) (arg8 : Memref sig .tc .vmem S1x5888 .f32) (harg8 : arg8.IsWhole)
    (x0 : Vec F S3x5888 .f32) (x1 : Vec F S64x3 .f32) (x2 : Vec F S64 .f32) (x3 : Vec F S64x64 .f32) (x4 : Vec F S64 .f32) (x5 : Vec F S1x64 .f32) (x6 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of the node MLP's pipeline on core `c`: the arrays as the region finds them; after the body at grid
    point `t` each input's buffer still at its block and the output's at `out0_7` of the seven input blocks; nothing
    owed, full shares, the invariant that of a body which touches nothing but its blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every grid point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic grid point -/

/-- What the body is called with at grid point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any grid point: the inputs' buffers hold their blocks, so `sound_kernel0` applies; the invariant and what
    the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch theorem's body obligation, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Regions

end
-- ==== Proof.EdgeRegion.lean ====
/-
  The edge MLP's pallas_call (region 1 of the program): seven input windows (the 2 × 2000000 feature array cut in 125
  column blocks of 16000, and the six weight and bias arrays whole) and one output window (the 1 × 2000000 result, cut
  the same way). At any entry contents `V` of the core's buffers: the block of each window at a grid point, what one run
  of the body leaves in the output block — the body's single store of its three-layer payload, computed from the seven
  blocks it loads —, the body's Hoare triple, the pipeline's proof data over those blocks and the body obligation of the
  launch theorem at every grid point.
-/
import proofs.«106456_j29411936043039_1_alg».proof.Proof.Gen.KernelIdeal.Launch
import proofs.«106456_j29411936043039_1_alg».proof.Proof.Gen.KernelIdeal.Skeleton
import proofs.«106456_j29411936043039_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the entry contents at every grid point, whether the
    point fetches it or keeps the earlier copy (the block index has not moved since the last fetch). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block of the entry contents at every grid point, whether the
    point fetches it or keeps the earlier copy (the block index has not moved since the last fetch). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block of the entry contents at every grid point, whether the
    point fetches it or keeps the earlier copy (the block index has not moved since the last fetch). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block of the entry contents at every grid point, whether the
    point fetches it or keeps the earlier copy (the block index has not moved since the last fetch). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block of the entry contents at every grid point, whether the
    point fetches it or keeps the earlier copy (the block index has not moved since the last fetch). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block of the entry contents at every grid point, whether the
    point fetches it or keeps the earlier copy (the block index has not moved since the last fetch). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block of the entry contents at every grid point, whether the
    point fetches it or keeps the earlier copy (the block index has not moved since the last fetch). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole block -/

abbrev r1_0 : Rect S2x16000 := Rect.unit (s := S2x16000) ![0, 0] S2x16000.size inb_S2x16000_S2x16000_0_0
abbrev r1_1 : Rect S64x2 := Rect.unit (s := S64x2) ![0, 0] S64x2.size inb_S64x2_S64x2_0_0
abbrev r1_2 : Rect S64 := Rect.unit (s := S64) ![0] S64.size inb_S64_S64_0
abbrev r1_3 : Rect S64x64 := Rect.unit (s := S64x64) ![0, 0] S64x64.size inb_S64x64_S64x64_0_0
abbrev r1_4 : Rect S64 := Rect.unit (s := S64) ![0] S64.size inb_S64_S64_0
abbrev r1_5 : Rect S1x64 := Rect.unit (s := S1x64) ![0, 0] S1x64.size inb_S1x64_S1x64_0_0
abbrev r1_6 : Rect S1 := Rect.unit (s := S1) ![0] S1.size inb_S1_S1_0
abbrev r1_7 : Rect S1x16000 := Rect.unit (s := S1x16000) ![0, 0] S1x16000.size inb_S1x16000_S1x16000_0_0

/-! ## What the body leaves in the output block -/

/-- The output block after the body: its one store, of the three-layer payload of the seven loaded blocks. -/
def out1_7 (x0 : Vec F S2x16000 .f32) (x1 : Vec F S64x2 .f32) (x2 : Vec F S64 .f32) (x3 : Vec F S64x64 .f32) (x4 : Vec F S64 .f32) (x5 : Vec F S1x64 .f32) (x6 : Vec F S1 .f32) : Vec F S1x16000 .f32 :=
  View.canon [⟨r1_7, k1_pay1 (View.ld x0 r1_0) (View.ld x1 r1_1) (View.ld x2 r1_2) (View.ld x3 r1_3) (View.ld x4 r1_4) (View.ld x5 r1_5) (View.ld x6 r1_6)⟩]

/-- The store covers the whole output block. -/
theorem cover1_7 (p0 : Vec F S1x16000 .f32) (y : S1x16000.Idx) :
    ∃ pc ∈ ([⟨r1_7, p0⟩] : List (View.Piece (Elt F) S1x16000 .f32)), y ∈ pc.1.set :=
  View.cover_of_tiled [⟨r1_7, p0⟩] S1x16000.size (by rfl) y

/-! ## The body's triple -/

set_option maxHeartbeats 1000000 in
/-- The body on whole staging buffers, the inputs' at contents `x0 … x6` and the output's at anything, runs without a fault
    to a state with the inputs' buffers unchanged and the output's at `out1_7` of the inputs. -/
theorem sound_kernel1 (c : Dev nD) (E : Set ℕ) (i : grid1.Coords) (arg1 : Memref sig .tc .vmem S2x16000 .f32) (harg1 : arg1.IsWhole) (arg2 : Memref sig .tc .vmem S64x2 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S1x64 .f32) (harg6 : arg6.IsWhole) (arg7 : Memref sig .tc .vmem S1 .f32) (harg7 : arg7.IsWhole) (arg8 : Memref sig .tc .vmem S1x16000 .f32) (harg8 : arg8.IsWhole)
    (x0 : Vec F S2x16000 .f32) (x1 : Vec F S64x2 .f32) (x2 : Vec F S64 .f32) (x3 : Vec F S64x64 .f32) (x4 : Vec F S64 .f32) (x5 : Vec F S1x64 .f32) (x6 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__mlp_kernel i arg1 harg1 arg2 harg2 arg3 harg3 arg4 harg4 arg5 harg5 arg6 harg6 arg7 harg7 arg8 harg8) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of the edge MLP's pipeline on core `c`: the arrays as the region finds them; after the body at grid
    point `t` each input's buffer still at its block and the output's at `out1_7` of the seven input blocks; nothing
    owed, full shares, the invariant that of a body which touches nothing but its blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every grid point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic grid point -/

/-- What the body is called with at grid point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any grid point: the inputs' buffers hold their blocks, so `sound_kernel1` applies; the invariant and what
    the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch theorem's body obligation, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Regions

end
-- ==== Proof.Segments.lean ====
/-
  The whole run of the program as nine items in @main's order — three stretches of host operations, the node MLP's
  pallas_call, a stretch, the edge MLP's pallas_call, three stretches — over the contents of the core's unscoped buffers
  between items: the launch memory, then each stretch's operations applied, then at a region's exit its output array at
  what the pipeline's write-backs leave and every other buffer as entered. The result: every weakly fair execution
  terminates without a fault, and the final memory holds every unscoped buffer at the last contents of that fold.
-/
import proofs.«106456_j29411936043039_1_alg».proof.Proof.Gen.KernelIdeal.Regions
import proofs.«106456_j29411936043039_1_alg».proof.Proof.NodeRegion
import proofs.«106456_j29411936043039_1_alg».proof.Proof.EdgeRegion

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two regions leave in their output arrays -/

/-- The buffers as the node MLP's region finds them, read at the TensorCore's references. -/
abbrev nodeEntry : (c : Dev nD) → (b : Ref sig .tc) → Buf (Elt F) ((c : Thread nD τ).loc b) := fun c b => V3 m c b

/-- The node MLP's output array after its 17 write-backs. -/
def nodeOut (c : Dev nD) : Buf (Elt F) ((c : Thread nD τ).loc main_v14) := (dat0 (nodeEntry m) c).arrAt 7 cfg0.N

/-- The regions' unknown output contents with only the node MLP's filled in (what the edge MLP's entry contents read). -/
def outsNode : Outs (F := F) := fun _ r c => Function.update (V0 m c) main_v14 (nodeOut m c) r

/-- The buffers as the edge MLP's region finds them. -/
abbrev edgeEntry : (c : Dev nD) → (b : Ref sig .tc) → Buf (Elt F) ((c : Thread nD τ).loc b) := fun c b => V5 m (outsNode m) c b

/-- The edge MLP's output array after its 125 write-backs. -/
def edgeOut (c : Dev nD) : Buf (Elt F) ((c : Thread nD τ).loc main_v38) := (dat1 (edgeEntry m) c).arrAt 7 cfg1.N

/-- Both regions' output contents. -/
def outsBoth : Outs (F := F) := fun _ r c => Function.update (Function.update (V0 m c) main_v14 (nodeOut m c)) main_v38 (edgeOut m c) r

theorem outsNode_v14 (J : ℕ) (c : Dev nD) : outsNode m J main_v14 c = nodeOut m c := by
  unfold outsNode; exact Function.update_self ..
theorem outsBoth_v14 (J : ℕ) (c : Dev nD) : outsBoth m J main_v14 c = nodeOut m c := by
  unfold outsBoth
  rw [Function.update_of_ne (StableHlo.devRef_ne_of_ne (by decide) : (Proc.devRef .tc main_v14 : DevRef τ sig) ≠ Proc.devRef .tc main_v38)]
  exact Function.update_self ..
theorem outsBoth_v38 (J : ℕ) (c : Dev nD) : outsBoth m J main_v38 c = edgeOut m c := by
  unfold outsBoth; exact Function.update_self ..

/-- The edge MLP's entry contents read only the node MLP's output among the unknowns. -/
theorem V5_outsBoth (c : Dev nD) : V5 m (outsBoth m) c = V5 m (outsNode m) c := by
  show StableHlo.after hostOps1 (Function.update (V3 m c) main_v14 (outsBoth m 4 main_v14 c))
    = StableHlo.after hostOps1 (Function.update (V3 m c) main_v14 (outsNode m 4 main_v14 c))
  rw [outsBoth_v14, outsNode_v14]

/-- A region's exit contents at its output array are the unknown for it. -/
theorem V4_v14 (outs : Outs (F := F)) (c : Dev nD) : V4 m outs c main_v14 = outs 4 main_v14 c := Function.update_self ..
theorem V6_v38 (outs : Outs (F := F)) (c : Dev nD) : V6 m outs c main_v38 = outs 6 main_v38 c := Function.update_self ..

/-- The contents at each region's exit, read at the TensorCore's references. -/
abbrev nodeExit : (c : Dev nD) → (b : Ref sig .tc) → Buf (Elt F) ((c : Thread nD τ).loc b) := fun c b => V4 m (outsBoth m) c b
abbrev edgeExit : (c : Dev nD) → (b : Ref sig .tc) → Buf (Elt F) ((c : Thread nD τ).loc b) := fun c b => V6 m (outsBoth m) c b

/-! ## Each region's arrays at its exit -/

/-- Each region's output array at its exit holds the pipeline's write-backs. -/
theorem nodeOut_exit (c : Dev nD) : nodeOut m c = nodeExit m c main_v14 :=
  ((V4_v14 m (outsBoth m) c).trans (outsBoth_v14 m 4 c)).symm
theorem edgeOut_exit (c : Dev nD) : edgeOut m c = edgeExit m c main_v38 :=
  ((V6_v38 m (outsBoth m) c).trans (outsBoth_v38 m 6 c)).symm

/-- At the node MLP's exit each of its windows' arrays holds what the pipeline leaves: an input array as entered, the
    output array its write-backs. -/
theorem nodeArrays (c : Dev nD) (w : Fin cfg0.W) : (dat0 (nodeEntry m) c).arrAt w cfg0.N = nodeExit m c (Pipeline.arrRef spec0 w) := by
  match w with
  | ⟨0, _⟩ => exact (((dat0 (nodeEntry m) c).arrAt_in 0 rfl _).trans (A_eq0 (nodeEntry m) c 0)).trans (V4_of m (outsBoth m) c _ (by decide)).symm
  | ⟨1, _⟩ => exact (((dat0 (nodeEntry m) c).arrAt_in 1 rfl _).trans (A_eq0 (nodeEntry m) c 1)).trans (V4_of m (outsBoth m) c _ (by decide)).symm
  | ⟨2, _⟩ => exact (((dat0 (nodeEntry m) c).arrAt_in 2 rfl _).trans (A_eq0 (nodeEntry m) c 2)).trans (V4_of m (outsBoth m) c _ (by decide)).symm
  | ⟨3, _⟩ => exact (((dat0 (nodeEntry m) c).arrAt_in 3 rfl _).trans (A_eq0 (nodeEntry m) c 3)).trans (V4_of m (outsBoth m) c _ (by decide)).symm
  | ⟨4, _⟩ => exact (((dat0 (nodeEntry m) c).arrAt_in 4 rfl _).trans (A_eq0 (nodeEntry m) c 4)).trans (V4_of m (outsBoth m) c _ (by decide)).symm
  | ⟨5, _⟩ => exact (((dat0 (nodeEntry m) c).arrAt_in 5 rfl _).trans (A_eq0 (nodeEntry m) c 5)).trans (V4_of m (outsBoth m) c _ (by decide)).symm
  | ⟨6, _⟩ => exact (((dat0 (nodeEntry m) c).arrAt_in 6 rfl _).trans (A_eq0 (nodeEntry m) c 6)).trans (V4_of m (outsBoth m) c _ (by decide)).symm
  | ⟨7, _⟩ => exact nodeOut_exit m c
/-- Every buffer that is no array of the node MLP's windows is as entered. -/
theorem nodeRest (c : Dev nD) : ∀ b, b ∉ Finset.univ.image (Pipeline.arrRef spec0) → nodeExit m c b = nodeEntry m c b :=
  fun b hb => V4_of m (outsBoth m) c b (by
    intro h; rw [List.mem_singleton] at h; subst h
    exact hb (Finset.mem_image.mpr ⟨7, Finset.mem_univ _, rfl⟩))

/-- The edge MLP's entry contents, stated over both unknowns. -/
theorem edgeEntry_eq (c : Dev nD) (b : Ref sig .tc) : edgeEntry m c b = V5 m (outsBoth m) c b :=
  (congrFun (V5_outsBoth m c) (Proc.devRef .tc b)).symm

theorem edgeIn0 (c : Dev nD) : (dat1 (edgeEntry m) c).arrAt 0 cfg1.N = edgeExit m c (Pipeline.arrRef spec1 0) :=
  ((((dat1 (edgeEntry m) c).arrAt_in 0 rfl _).trans (A_eq1 (edgeEntry m) c 0)).trans (edgeEntry_eq m c (Pipeline.arrRef spec1 0))).trans
    (V6_of m (outsBoth m) c (Pipeline.arrRef spec1 0) (by decide)).symm
theorem edgeIn1 (c : Dev nD) : (dat1 (edgeEntry m) c).arrAt 1 cfg1.N = edgeExit m c (Pipeline.arrRef spec1 1) :=
  ((((dat1 (edgeEntry m) c).arrAt_in 1 rfl _).trans (A_eq1 (edgeEntry m) c 1)).trans (edgeEntry_eq m c (Pipeline.arrRef spec1 1))).trans
    (V6_of m (outsBoth m) c (Pipeline.arrRef spec1 1) (by decide)).symm
theorem edgeIn2 (c : Dev nD) : (dat1 (edgeEntry m) c).arrAt 2 cfg1.N = edgeExit m c (Pipeline.arrRef spec1 2) :=
  ((((dat1 (edgeEntry m) c).arrAt_in 2 rfl _).trans (A_eq1 (edgeEntry m) c 2)).trans (edgeEntry_eq m c (Pipeline.arrRef spec1 2))).trans
    (V6_of m (outsBoth m) c (Pipeline.arrRef spec1 2) (by decide)).symm
theorem edgeIn3 (c : Dev nD) : (dat1 (edgeEntry m) c).arrAt 3 cfg1.N = edgeExit m c (Pipeline.arrRef spec1 3) :=
  ((((dat1 (edgeEntry m) c).arrAt_in 3 rfl _).trans (A_eq1 (edgeEntry m) c 3)).trans (edgeEntry_eq m c (Pipeline.arrRef spec1 3))).trans
    (V6_of m (outsBoth m) c (Pipeline.arrRef spec1 3) (by decide)).symm
theorem edgeIn4 (c : Dev nD) : (dat1 (edgeEntry m) c).arrAt 4 cfg1.N = edgeExit m c (Pipeline.arrRef spec1 4) :=
  ((((dat1 (edgeEntry m) c).arrAt_in 4 rfl _).trans (A_eq1 (edgeEntry m) c 4)).trans (edgeEntry_eq m c (Pipeline.arrRef spec1 4))).trans
    (V6_of m (outsBoth m) c (Pipeline.arrRef spec1 4) (by decide)).symm
theorem edgeIn5 (c : Dev nD) : (dat1 (edgeEntry m) c).arrAt 5 cfg1.N = edgeExit m c (Pipeline.arrRef spec1 5) :=
  ((((dat1 (edgeEntry m) c).arrAt_in 5 rfl _).trans (A_eq1 (edgeEntry m) c 5)).trans (edgeEntry_eq m c (Pipeline.arrRef spec1 5))).trans
    (V6_of m (outsBoth m) c (Pipeline.arrRef spec1 5) (by decide)).symm
theorem edgeIn6 (c : Dev nD) : (dat1 (edgeEntry m) c).arrAt 6 cfg1.N = edgeExit m c (Pipeline.arrRef spec1 6) :=
  ((((dat1 (edgeEntry m) c).arrAt_in 6 rfl _).trans (A_eq1 (edgeEntry m) c 6)).trans (edgeEntry_eq m c (Pipeline.arrRef spec1 6))).trans
    (V6_of m (outsBoth m) c (Pipeline.arrRef spec1 6) (by decide)).symm
/-- At the edge MLP's exit each of its windows' arrays holds what the pipeline leaves: an input array as entered, the
    output array its write-backs. -/
theorem edgeArrays (c : Dev nD) (w : Fin cfg1.W) : (dat1 (edgeEntry m) c).arrAt w cfg1.N = edgeExit m c (Pipeline.arrRef spec1 w) := by
  match w with
  | ⟨0, _⟩ => exact edgeIn0 m c
  | ⟨1, _⟩ => exact edgeIn1 m c
  | ⟨2, _⟩ => exact edgeIn2 m c
  | ⟨3, _⟩ => exact edgeIn3 m c
  | ⟨4, _⟩ => exact edgeIn4 m c
  | ⟨5, _⟩ => exact edgeIn5 m c
  | ⟨6, _⟩ => exact edgeIn6 m c
  | ⟨7, _⟩ => exact edgeOut_exit m c
theorem edgeRest (c : Dev nD) : ∀ b, b ∉ Finset.univ.image (Pipeline.arrRef spec1) → edgeExit m c b = edgeEntry m c b :=
  fun b hb => (V6_of m (outsBoth m) c b (by
    intro h; rw [List.mem_singleton] at h; subst h
    exact hb (Finset.mem_image.mpr ⟨7, Finset.mem_univ _, rfl⟩))).trans (edgeEntry_eq m c b).symm

/-! ## The proof data family and what rides beside the buffers -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (nodeEntry m) c
  | ⟨1, _⟩ => fun c => dat1 (edgeEntry m) c
abbrev 𝒱₀ : Variants := Variants.none
/-- No core owes another anything. -/
abbrev L : GSem nD τ sig → Finset Unit := fun _ => ∅
abbrev lv : GSem nD τ sig → Unit → ℕ := fun _ _ => 0
/-- Beside the buffers through every item: the core's generator register at some state, and the core owing nothing. -/
abbrev rider (c : Dev nD) : sProp 𝕄 := iprop((∃ r, prngReg c r) ∗ ∃ W, owes (c : Thread nD τ) (0 : CellTallies nD τ sig Unit) W)

/-! ## The regions as segments -/

-- unification against the pinned pipeline configuration has to unfold plain definitions in a metavariable's type
set_option backward.isDefEq.respectTransparency.types false in
/-- Region 0 as a segment of the run: entered with every unscoped buffer at the contents before it, left with them at the
    contents after it. Its windows' arrays are split out of the unscoped buffers on entry and put back, at what the
    pipeline's write-backs leave, on exit; the generator register goes into the body's invariant and comes back; nothing is
    owed and the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (nodeEntry m) c).loose
  hwaits := Pipeline.hwaits_of_owed_zero _ _ _ _ L lv 0 fun _ _ => rfl
  pre c := iprop(StableHlo.held (c : Thread nD τ) (Pipeline.ucRefs τ sig) (V3 m c) ∗ rider c)
  post c := iprop(StableHlo.held (c : Thread nD τ) (Pipeline.ucRefs τ sig) (V4 m (outsBoth m) c) ∗ rider c)
  X c := iprop(∃ r, prngReg c r)
  Y c := iprop(∃ r, prngReg c r)
  Z c := Pipeline.unscopedRest (Ix := Unit) (Name := ℕ) (U := UR sig nD τ) (Lvl := ℕ) spec0 c (nodeEntry m c)
  hentry c := by
    rw [Pipeline.ownSems0_none]
    have hsplit := Pipeline.arrays_of_unscopedBufs (p := 0) (pcfgs (F := F)) adm (pdats m) launch0.win launch0.arr_whole c
      ((pdats m 0 c).share_full fun _ => rfl) (nodeEntry m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (nodeEntry m c) (nodeExit m c) ((pdats m 0 c).arrAt · cfg0.N) (nodeArrays m c) (nodeRest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification against the pinned pipeline configuration has to unfold plain definitions in a metavariable's type
set_option backward.isDefEq.respectTransparency.types false in
/-- Region 1 as a segment of the run: entered with every unscoped buffer at the contents before it, left with them at the
    contents after it. Its windows' arrays are split out of the unscoped buffers on entry and put back, at what the
    pipeline's write-backs leave, on exit; the generator register goes into the body's invariant and comes back; nothing is
    owed and the kernel has no semaphore of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (edgeEntry m) c).loose
  hwaits := Pipeline.hwaits_of_owed_zero _ _ _ _ L lv 1 fun _ _ => rfl
  pre c := iprop(StableHlo.held (c : Thread nD τ) (Pipeline.ucRefs τ sig) (V5 m (outsNode m) c) ∗ rider c)
  post c := iprop(StableHlo.held (c : Thread nD τ) (Pipeline.ucRefs τ sig) (V6 m (outsBoth m) c) ∗ rider c)
  X c := iprop(∃ r, prngReg c r)
  Y c := iprop(∃ r, prngReg c r)
  Z c := Pipeline.unscopedRest (Ix := Unit) (Name := ℕ) (U := UR sig nD τ) (Lvl := ℕ) spec1 c (edgeEntry m c)
  hentry c := by
    rw [Pipeline.ownSems0_none]
    have hsplit := Pipeline.arrays_of_unscopedBufs (p := 1) (pcfgs (F := F)) adm (pdats m) launch1.win launch1.arr_whole c
      ((pdats m 1 c).share_full fun _ => rfl) (edgeEntry m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (edgeEntry m c) (edgeExit m c) ((pdats m 1 c).arrAt · cfg1.N) (edgeArrays m c) (edgeRest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The nine items as segments, the host stretches over the fold's contents with the rider beside them. -/
abbrev items : List (Seg (pcfgs (F := F)) adm (pdats m) () defs₀ 𝒱₀ L lv) :=
  segs m (outsBoth m) 𝒱₀ L lv (fun _ => rider) () (pdats m) (reg0 m) (reg1 m) (0 : Dev nD)

set_option backward.isDefEq.respectTransparency.types false in
/-- Every weakly fair execution of @main from memory `m` with zero counters terminates, nothing faulting, and the final
    memory holds every unscoped buffer of every core at the last contents of the fold. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V9 m (outsBoth m) c b) :=
  Pipeline.θ_run_regions_kit (pcfgs (F := F)) adm (pdats m) () cellOf_inj emb₁ defs₀ 𝒱₀ L lv m ρ main (items m)
    (fun c Q => by
      rewrite [main_chain c, Seg.run_eq_chain,
        show (items m).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (by simp only [items, segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rider c))
    (Tₙ := fun c => iprop(StableHlo.held (c : Thread nD τ) (Pipeline.ucRefs τ sig) (V9 m (outsBoth m) c) ∗ ∃ r, prngReg c r))
    (hch := ⟨fun _ => .rfl, fun _ => .rfl, fun _ => .rfl, fun _ => .rfl, fun _ => .rfl,
      fun c => by
        show iprop(StableHlo.held (c : Thread nD τ) (Pipeline.ucRefs τ sig) (V5 m (outsBoth m) c) ∗ rider c)
          ⊢ iprop(StableHlo.held (c : Thread nD τ) (Pipeline.ucRefs τ sig) (V5 m (outsNode m) c) ∗ rider c)
        rw [V5_outsBoth m c],
      fun _ => .rfl, fun _ => .rfl, fun _ => .rfl,
      fun c => by
        show iprop(StableHlo.held (c : Thread nD τ) (Pipeline.ucRefs τ sig) (V9 m (outsBoth m) c) ∗ rider c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V9 m (outsBoth m) c b)
    (hfin := fun c s' => by
      iintro ⟨⟨Hh, -⟩, HSI⟩
      unfold StableHlo.held
      imodintro
      iapply (pointsTo_read_all (Pipeline.ucRefs τ sig) (fun b => (((c : Thread nD τ)).1, b)) (V9 m (outsBoth m) c) s')
      isplitl [Hh] <;> iassumption)
    (hQ := fun s h c => h c)

/-- The frame: every argument array ends holding its launch contents (no host stretch writes an argument, and no region
    may change one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c _ (mem_uc main_arg0 (by decide))).trans (V9_main_arg0 m (outsBoth m) c),
    (h c _ (mem_uc main_arg1 (by decide))).trans (V9_main_arg1 m (outsBoth m) c),
    (h c _ (mem_uc main_arg2 (by decide))).trans (V9_main_arg2 m (outsBoth m) c),
    (h c _ (mem_uc main_arg3 (by decide))).trans (V9_main_arg3 m (outsBoth m) c),
    (h c _ (mem_uc main_arg4 (by decide))).trans (V9_main_arg4 m (outsBoth m) c),
    (h c _ (mem_uc main_arg5 (by decide))).trans (V9_main_arg5 m (outsBoth m) c),
    (h c _ (mem_uc main_arg6 (by decide))).trans (V9_main_arg6 m (outsBoth m) c),
    (h c _ (mem_uc main_arg7 (by decide))).trans (V9_main_arg7 m (outsBoth m) c),
    (h c _ (mem_uc main_arg8 (by decide))).trans (V9_main_arg8 m (outsBoth m) c),
    (h c _ (mem_uc main_arg9 (by decide))).trans (V9_main_arg9 m (outsBoth m) c),
    (h c _ (mem_uc main_arg10 (by decide))).trans (V9_main_arg10 m (outsBoth m) c),
    (h c _ (mem_uc main_arg11 (by decide))).trans (V9_main_arg11 m (outsBoth m) c),
    (h c _ (mem_uc main_arg12 (by decide))).trans (V9_main_arg12 m (outsBoth m) c),
    (h c _ (mem_uc main_arg13 (by decide))).trans (V9_main_arg13 m (outsBoth m) c),
    (h c _ (mem_uc main_arg14 (by decide))).trans (V9_main_arg14 m (outsBoth m) c),
    (h c _ (mem_uc main_arg15 (by decide))).trans (V9_main_arg15 m (outsBoth m) c),
    (h c _ (mem_uc main_arg16 (by decide))).trans (V9_main_arg16 m (outsBoth m) c),
    (h c _ (mem_uc main_arg17 (by decide))).trans (V9_main_arg17 m (outsBoth m) c),
    (h c _ (mem_uc main_arg18 (by decide))).trans (V9_main_arg18 m (outsBoth m) c),
    (h c _ (mem_uc main_arg19 (by decide))).trans (V9_main_arg19 m (outsBoth m) c),
    (h c _ (mem_uc main_arg20 (by decide))).trans (V9_main_arg20 m (outsBoth m) c)⟩) (run_all m ρ)

end Cert.KernelIdeal.Regions

end
-- ==== Proof.MlpSpec.lean ====
/-
  The three-layer perceptron both programs compute for one sample, over the extended reals.

  For a feature vector `x` of length `n`, weights `W0` (n × 64), `W1` (64 × 64), `W2` (64 × 1) and biases `b0`, `b1`,
  `b2`:   out = Σ_a tanh( Σ_b tanh( Σ_f x_f · W0_{f,b} + b0_b ) · W1_{b,a} + b1_a ) · W2_a  +  b2.
  The reference multiplies a row of samples by each weight matrix on the right; the kernel keeps the samples along the
  columns and multiplies the transposed weight matrix on the left, so every product appears with its two factors
  swapped. Multiplication of extended reals is commutative, so the two are the same number — no finiteness is needed.
-/
import Idealize.ShloMosaic.PureOps.Ideal.Laws

noncomputable section

namespace Cert.Mlp

open Idealize.ShloMosaic

/-- The perceptron's output for one sample, the sample's features on the left of every product. -/
def mlp3 {n : ℕ} (x : Fin n → EReal) (W0 : Fin n → Fin 64 → EReal) (b0 : Fin 64 → EReal) (W1 : Fin 64 → Fin 64 → EReal)
    (b1 : Fin 64 → EReal) (W2 : Fin 64 → EReal) (b2 : EReal) : EReal :=
  (∑ a : Fin 64, Ideal.tanh ((∑ b : Fin 64, Ideal.tanh ((∑ f : Fin n, x f * W0 f b) + b0 b) * W1 b a) + b1 a) * W2 a) + b2

/-- The same number with the weights on the left of every product (the transposed layout). -/
theorem mlp3_weights_left {n : ℕ} (x : Fin n → EReal) (W0 : Fin n → Fin 64 → EReal) (b0 : Fin 64 → EReal)
    (W1 : Fin 64 → Fin 64 → EReal) (b1 : Fin 64 → EReal) (W2 : Fin 64 → EReal) (b2 : EReal) :
    (∑ a : Fin 64, W2 a * Ideal.tanh ((∑ b : Fin 64, W1 b a * Ideal.tanh ((∑ f : Fin n, W0 f b * x f) + b0 b)) + b1 a)) + b2
      = mlp3 x W0 b0 W1 b1 W2 b2 := by
  unfold mlp3
  refine congrArg (· + b2) (Finset.sum_congr rfl fun a _ => ?_)
  rw [mul_comm]
  refine congrArg (fun z => Ideal.tanh (z + b1 a) * W2 a) (Finset.sum_congr rfl fun b _ => ?_)
  rw [mul_comm]
  exact congrArg (fun z => Ideal.tanh (z + b0 b) * W1 b a) (Finset.sum_congr rfl fun f _ => mul_comm _ _)

end Cert.Mlp

end
-- ==== Proof.LibColRow.lean ====
/-
  Column and row broadcasts of small rank, and a vector viewed as a column, read at an index.

  • A column `[R, 1]` spread over `C` columns reads, at `(p, q)`, the column's entry `(p, 0)`.
  • A row `[1, C]` repeated over `R` rows reads, at `(p, q)`, the row's entry `(0, q)`.
  • A vector `[R]` viewed as a column `[R, 1]` reads, at `(p, 0)`, the vector's entry `p`; a vector `[C]` viewed as a
    row `[1, C]` reads, at `(0, q)`, the vector's entry `q`.
  General in the extents and the element type.
-/
import Idealize.ShloMosaic.Lib.ValueIdx
import Idealize.ShloMosaic.Lib.Pipeline.Value

noncomputable section

namespace Cert.LibColRow

open Idealize.ShloMosaic Idealize.ShloMosaic.ValueIdx

variable {α : Type}

/-- A column `[R, 1]` broadcast to `[R, C]`, at `(p, q)`: the column at `(p, 0)`. -/
theorem bcastTo_col_apply {R C : Nat} (h : (⟨2, ![R, 1]⟩ : Shape).Broadcasts ⟨2, ![R, C]⟩)
    (x : (⟨2, ![R, 1]⟩ : Shape).Idx → α) (p : Fin R) (q : Fin C) :
    broadcastTo ⟨2, ![R, C]⟩ x h (ix2 p q) = x (ix2 p (0 : Fin 1)) := by
  refine broadcastTo_apply x h (ix2 p q) (ix2 p (0 : Fin 1)) fun a => ?_
  match a with
  | ⟨0, _⟩ =>
    show p.val = if R = 1 then 0 else p.val
    split
    · next h1 => have := p.isLt; omega
    · rfl
  | ⟨1, _⟩ =>
    show 0 = if (1 : Nat) = 1 then 0 else q.val
    rw [if_pos rfl]

/-- A row `[1, C]` broadcast to `[R, C]`, at `(p, q)`: the row at `(0, q)`. -/
theorem bcastTo_row_apply {R C : Nat} (h : (⟨2, ![1, C]⟩ : Shape).Broadcasts ⟨2, ![R, C]⟩)
    (x : (⟨2, ![1, C]⟩ : Shape).Idx → α) (p : Fin R) (q : Fin C) :
    broadcastTo ⟨2, ![R, C]⟩ x h (ix2 p q) = x (ix2 (0 : Fin 1) q) := by
  refine broadcastTo_apply x h (ix2 p q) (ix2 (0 : Fin 1) q) fun a => ?_
  match a with
  | ⟨0, _⟩ =>
    show 0 = if (1 : Nat) = 1 then 0 else p.val
    rw [if_pos rfl]
  | ⟨1, _⟩ =>
    show q.val = if C = 1 then 0 else q.val
    split
    · next h1 => have := q.isLt; omega
    · rfl

/-- A vector `[R]` viewed as a column `[R, 1]`, at `(p, z)`: the vector at `p`. -/
theorem shapeCast_col_apply {R : Nat} (h : (⟨1, ![R]⟩ : Shape).ShapeCasts ⟨2, ![R, 1]⟩)
    (x : (⟨1, ![R]⟩ : Shape).Idx → α) (p : Fin R) (z : Fin 1) :
    shapeCast ⟨2, ![R, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- A vector `[C]` viewed as a row `[1, C]`, at `(z, q)`: the vector at `q`. -/
theorem shapeCast_row_apply {C : Nat} (h : (⟨1, ![C]⟩ : Shape).ShapeCasts ⟨2, ![1, C]⟩)
    (x : (⟨1, ![C]⟩ : Shape).Idx → α) (z : Fin 1) (q : Fin C) :
    shapeCast ⟨2, ![1, C]⟩ x h (ix2 z q) = x (ix1 q) := by
  refine shapeCast_apply x h (ix2 z q) (ix1 q) ?_
  rw [Shape.rowMajor_val_one, Shape.rowMajor_val_two]
  show q.val = z.val * C + q.val
  have := z.isLt
  have hz : z.val = 0 := by omega
  rw [hz, Nat.zero_mul, Nat.zero_add]

end Cert.LibColRow

end
-- ==== Proof.NodePayload.lean ====
/-
  The node MLP's payload: what its body stores at column `j` of a block, as the three-layer perceptron of column `j` of the
  feature block. The body holds the samples along the columns: each layer is the transposed weight matrix times the
  activations (a matrix product into a zero accumulator — a plain sum of products over the extended reals), plus the
  bias spread along the columns, through tanh; the roundings to the 16-bit format on the way into each product are the
  identity over the extended reals.
-/
import proofs.«106456_j29411936043039_1_alg».proof.Proof.Gen.KernelIdeal.Skeleton
import proofs.«106456_j29411936043039_1_alg».proof.Proof.MlpSpec
import proofs.«106456_j29411936043039_1_alg».proof.Proof.LibColRow
import Idealize.ShloMosaic.Lib.ValueIdx
import Idealize.ShloMosaic.Lib.Pipeline.Value
import Idealize.ShloMosaic.PureOps.Ideal.Laws

noncomputable section

namespace Cert.KernelIdeal.NodePayload

open Cert.KernelIdeal Cert.KernelIdeal.Gen Idealize.ShloMosaic Idealize.ShloMosaic.ValueIdx Cert.Mlp Cert.LibColRow

/-! ## The three matrix products at an index -/

theorem first_lhs0 (i : S64x5888.Idx) (q : dot_S64x3_S3x5888_S64x5888_1_0_0_1_n_n.contr.Idx) : (dot_S64x3_S3x5888_S64x5888_1_0_0_1_n_n.lhsIdx i q 0).val = (i 0).val := by
  unfold DotDims.lhsIdx
  rw [dif_neg (show ¬(0 : Fin S64x3.rank) ∈ dot_S64x3_S3x5888_S64x5888_1_0_0_1_n_n.lhsBatch by decide), dif_pos (show (0 : Fin S64x3.rank) ∈ dot_S64x3_S3x5888_S64x5888_1_0_0_1_n_n.lhsNonContracting by decide)]
  rfl
theorem first_lhs1 (i : S64x5888.Idx) (q : dot_S64x3_S3x5888_S64x5888_1_0_0_1_n_n.contr.Idx) : (dot_S64x3_S3x5888_S64x5888_1_0_0_1_n_n.lhsIdx i q 1).val = (q ⟨0, by decide⟩).val :=
  dot_S64x3_S3x5888_S64x5888_1_0_0_1_n_n.lhsIdx_val_of_single rfl i q
theorem first_rhs0 (i : S64x5888.Idx) (q : dot_S64x3_S3x5888_S64x5888_1_0_0_1_n_n.contr.Idx) : (dot_S64x3_S3x5888_S64x5888_1_0_0_1_n_n.rhsIdx i q 0).val = (q ⟨0, by decide⟩).val :=
  dot_S64x3_S3x5888_S64x5888_1_0_0_1_n_n.rhsIdx_val_of_single rfl i q
theorem first_rhs1 (i : S64x5888.Idx) (q : dot_S64x3_S3x5888_S64x5888_1_0_0_1_n_n.contr.Idx) : (dot_S64x3_S3x5888_S64x5888_1_0_0_1_n_n.rhsIdx i q 1).val = (i 1).val := by
  unfold DotDims.rhsIdx
  rw [dif_neg (show ¬(1 : Fin S3x5888.rank) ∈ dot_S64x3_S3x5888_S64x5888_1_0_0_1_n_n.rhsBatch by decide), dif_pos (show (1 : Fin S3x5888.rank) ∈ dot_S64x3_S3x5888_S64x5888_1_0_0_1_n_n.rhsNonContracting by decide)]
  rfl
/-- The first layer's product, (64 × 3) · (3 × 5888), at (p, j): the sum over the 3 features. -/
theorem first_apply {φ₁ φ₂ : FTy} (l : FVec Ideal S64x3 φ₁) (r : FVec Ideal S3x5888 φ₂) (p : Fin 64) (j : Fin 5888) :
    matmul dot_S64x3_S3x5888_S64x5888_1_0_0_1_n_n none l r (constant S64x5888 .f32 0x00000000#32) (ix2 p j) = ∑ k : Fin 3, l (ix2 p k) * r (ix2 k j) := by
  refine (Ideal.matmul_constant_zero_apply dot_S64x3_S3x5888_S64x5888_1_0_0_1_n_n none l r (ix2 p j)).trans ?_
  rw [← Equiv.sum_comp (contrEquiv1 dot_S64x3_S3x5888_S64x5888_1_0_0_1_n_n 3 rfl rfl).symm]
  refine Finset.sum_congr rfl fun k _ => ?_
  have hk := contrEquiv1_symm_val dot_S64x3_S3x5888_S64x5888_1_0_0_1_n_n 3 rfl rfl k
  have el : dot_S64x3_S3x5888_S64x5888_1_0_0_1_n_n.lhsIdx (ix2 p j) ((contrEquiv1 dot_S64x3_S3x5888_S64x5888_1_0_0_1_n_n 3 rfl rfl).symm k) = ix2 p k := funext fun a => Fin.ext (by
    match a with
    | ⟨0, _⟩ => exact first_lhs0 _ _
    | ⟨1, _⟩ => exact (first_lhs1 _ _).trans hk)
  have er : dot_S64x3_S3x5888_S64x5888_1_0_0_1_n_n.rhsIdx (ix2 p j) ((contrEquiv1 dot_S64x3_S3x5888_S64x5888_1_0_0_1_n_n 3 rfl rfl).symm k) = ix2 k j := funext fun a => Fin.ext (by
    match a with
    | ⟨0, _⟩ => exact (first_rhs0 _ _).trans hk
    | ⟨1, _⟩ => exact first_rhs1 _ _)
  rw [el, er]

theorem second_lhs0 (i : S64x5888.Idx) (q : dot_S64x64_S64x5888_S64x5888_1_0_0_1_n_n.contr.Idx) : (dot_S64x64_S64x5888_S64x5888_1_0_0_1_n_n.lhsIdx i q 0).val = (i 0).val := by
  unfold DotDims.lhsIdx
  rw [dif_neg (show ¬(0 : Fin S64x64.rank) ∈ dot_S64x64_S64x5888_S64x5888_1_0_0_1_n_n.lhsBatch by decide), dif_pos (show (0 : Fin S64x64.rank) ∈ dot_S64x64_S64x5888_S64x5888_1_0_0_1_n_n.lhsNonContracting by decide)]
  rfl
theorem second_lhs1 (i : S64x5888.Idx) (q : dot_S64x64_S64x5888_S64x5888_1_0_0_1_n_n.contr.Idx) : (dot_S64x64_S64x5888_S64x5888_1_0_0_1_n_n.lhsIdx i q 1).val = (q ⟨0, by decide⟩).val :=
  dot_S64x64_S64x5888_S64x5888_1_0_0_1_n_n.lhsIdx_val_of_single rfl i q
theorem second_rhs0 (i : S64x5888.Idx) (q : dot_S64x64_S64x5888_S64x5888_1_0_0_1_n_n.contr.Idx) : (dot_S64x64_S64x5888_S64x5888_1_0_0_1_n_n.rhsIdx i q 0).val = (q ⟨0, by decide⟩).val :=
  dot_S64x64_S64x5888_S64x5888_1_0_0_1_n_n.rhsIdx_val_of_single rfl i q
theorem second_rhs1 (i : S64x5888.Idx) (q : dot_S64x64_S64x5888_S64x5888_1_0_0_1_n_n.contr.Idx) : (dot_S64x64_S64x5888_S64x5888_1_0_0_1_n_n.rhsIdx i q 1).val = (i 1).val := by
  unfold DotDims.rhsIdx
  rw [dif_neg (show ¬(1 : Fin S64x5888.rank) ∈ dot_S64x64_S64x5888_S64x5888_1_0_0_1_n_n.rhsBatch by decide), dif_pos (show (1 : Fin S64x5888.rank) ∈ dot_S64x64_S64x5888_S64x5888_1_0_0_1_n_n.rhsNonContracting by decide)]
  rfl
/-- The second layer's product, (64 × 64) · (64 × 5888), at (p, j): the sum over the 64 hidden units. -/
theorem second_apply {φ₁ φ₂ : FTy} (l : FVec Ideal S64x64 φ₁) (r : FVec Ideal S64x5888 φ₂) (p : Fin 64) (j : Fin 5888) :
    matmul dot_S64x64_S64x5888_S64x5888_1_0_0_1_n_n none l r (constant S64x5888 .f32 0x00000000#32) (ix2 p j) = ∑ k : Fin 64, l (ix2 p k) * r (ix2 k j) := by
  refine (Ideal.matmul_constant_zero_apply dot_S64x64_S64x5888_S64x5888_1_0_0_1_n_n none l r (ix2 p j)).trans ?_
  rw [← Equiv.sum_comp (contrEquiv1 dot_S64x64_S64x5888_S64x5888_1_0_0_1_n_n 64 rfl rfl).symm]
  refine Finset.sum_congr rfl fun k _ => ?_
  have hk := contrEquiv1_symm_val dot_S64x64_S64x5888_S64x5888_1_0_0_1_n_n 64 rfl rfl k
  have el : dot_S64x64_S64x5888_S64x5888_1_0_0_1_n_n.lhsIdx (ix2 p j) ((contrEquiv1 dot_S64x64_S64x5888_S64x5888_1_0_0_1_n_n 64 rfl rfl).symm k) = ix2 p k := funext fun a => Fin.ext (by
    match a with
    | ⟨0, _⟩ => exact second_lhs0 _ _
    | ⟨1, _⟩ => exact (second_lhs1 _ _).trans hk)
  have er : dot_S64x64_S64x5888_S64x5888_1_0_0_1_n_n.rhsIdx (ix2 p j) ((contrEquiv1 dot_S64x64_S64x5888_S64x5888_1_0_0_1_n_n 64 rfl rfl).symm k) = ix2 k j := funext fun a => Fin.ext (by
    match a with
    | ⟨0, _⟩ => exact (second_rhs0 _ _).trans hk
    | ⟨1, _⟩ => exact second_rhs1 _ _)
  rw [el, er]

theorem third_lhs0 (i : S1x5888.Idx) (q : dot_S1x64_S64x5888_S1x5888_1_0_0_1_n_n.contr.Idx) : (dot_S1x64_S64x5888_S1x5888_1_0_0_1_n_n.lhsIdx i q 0).val = (i 0).val := by
  unfold DotDims.lhsIdx
  rw [dif_neg (show ¬(0 : Fin S1x64.rank) ∈ dot_S1x64_S64x5888_S1x5888_1_0_0_1_n_n.lhsBatch by decide), dif_pos (show (0 : Fin S1x64.rank) ∈ dot_S1x64_S64x5888_S1x5888_1_0_0_1_n_n.lhsNonContracting by decide)]
  rfl
theorem third_lhs1 (i : S1x5888.Idx) (q : dot_S1x64_S64x5888_S1x5888_1_0_0_1_n_n.contr.Idx) : (dot_S1x64_S64x5888_S1x5888_1_0_0_1_n_n.lhsIdx i q 1).val = (q ⟨0, by decide⟩).val :=
  dot_S1x64_S64x5888_S1x5888_1_0_0_1_n_n.lhsIdx_val_of_single rfl i q
theorem third_rhs0 (i : S1x5888.Idx) (q : dot_S1x64_S64x5888_S1x5888_1_0_0_1_n_n.contr.Idx) : (dot_S1x64_S64x5888_S1x5888_1_0_0_1_n_n.rhsIdx i q 0).val = (q ⟨0, by decide⟩).val :=
  dot_S1x64_S64x5888_S1x5888_1_0_0_1_n_n.rhsIdx_val_of_single rfl i q
theorem third_rhs1 (i : S1x5888.Idx) (q : dot_S1x64_S64x5888_S1x5888_1_0_0_1_n_n.contr.Idx) : (dot_S1x64_S64x5888_S1x5888_1_0_0_1_n_n.rhsIdx i q 1).val = (i 1).val := by
  unfold DotDims.rhsIdx
  rw [dif_neg (show ¬(1 : Fin S64x5888.rank) ∈ dot_S1x64_S64x5888_S1x5888_1_0_0_1_n_n.rhsBatch by decide), dif_pos (show (1 : Fin S64x5888.rank) ∈ dot_S1x64_S64x5888_S1x5888_1_0_0_1_n_n.rhsNonContracting by decide)]
  rfl
/-- The output layer's product, (1 × 64) · (64 × 5888), at (p, j): the sum over the 64 hidden units. -/
theorem third_apply {φ₁ φ₂ : FTy} (l : FVec Ideal S1x64 φ₁) (r : FVec Ideal S64x5888 φ₂) (p : Fin 1) (j : Fin 5888) :
    matmul dot_S1x64_S64x5888_S1x5888_1_0_0_1_n_n none l r (constant S1x5888 .f32 0x00000000#32) (ix2 p j) = ∑ k : Fin 64, l (ix2 p k) * r (ix2 k j) := by
  refine (Ideal.matmul_constant_zero_apply dot_S1x64_S64x5888_S1x5888_1_0_0_1_n_n none l r (ix2 p j)).trans ?_
  rw [← Equiv.sum_comp (contrEquiv1 dot_S1x64_S64x5888_S1x5888_1_0_0_1_n_n 64 rfl rfl).symm]
  refine Finset.sum_congr rfl fun k _ => ?_
  have hk := contrEquiv1_symm_val dot_S1x64_S64x5888_S1x5888_1_0_0_1_n_n 64 rfl rfl k
  have el : dot_S1x64_S64x5888_S1x5888_1_0_0_1_n_n.lhsIdx (ix2 p j) ((contrEquiv1 dot_S1x64_S64x5888_S1x5888_1_0_0_1_n_n 64 rfl rfl).symm k) = ix2 p k := funext fun a => Fin.ext (by
    match a with
    | ⟨0, _⟩ => exact third_lhs0 _ _
    | ⟨1, _⟩ => exact (third_lhs1 _ _).trans hk)
  have er : dot_S1x64_S64x5888_S1x5888_1_0_0_1_n_n.rhsIdx (ix2 p j) ((contrEquiv1 dot_S1x64_S64x5888_S1x5888_1_0_0_1_n_n 64 rfl rfl).symm k) = ix2 k j := funext fun a => Fin.ext (by
    match a with
    | ⟨0, _⟩ => exact (third_rhs0 _ _).trans hk
    | ⟨1, _⟩ => exact third_rhs1 _ _)
  rw [el, er]

/-! ## The biases spread along the columns -/

/-- A hidden layer's bias, viewed as a column and spread over the 5888 columns, at (p, j): the bias of unit `p`. -/
theorem hiddenBias_apply (v : Vec Ideal S64 .f32) (p : Fin 64) (j : Fin 5888) :
    broadcastTo S64x5888 (shapeCast S64x1 v shapeCasts_S64_S64x1) broadcasts_S64x1_S64x5888 (ix2 p j) = v (ix1 p) :=
  (bcastTo_col_apply broadcasts_S64x1_S64x5888 _ p j).trans (shapeCast_col_apply shapeCasts_S64_S64x1 v p (0 : Fin 1))

/-- The output bias, viewed as a 1 × 1 array and spread over the 5888 columns, at (p, j): the one bias. -/
theorem outBias_apply (v : Vec Ideal S1 .f32) (p : Fin 1) (j : Fin 5888) :
    broadcastTo S1x5888 (shapeCast S1x1 v shapeCasts_S1_S1x1) broadcasts_S1x1_S1x5888 (ix2 p j) = v (ix1 p) :=
  (bcastTo_col_apply broadcasts_S1x1_S1x5888 _ p j).trans (shapeCast_col_apply shapeCasts_S1_S1x1 v p (0 : Fin 1))

/-! ## The payload at a column -/

/-- The body's stored value at column `j`: the perceptron of column `j` of the feature block, with the weight blocks read
    transposed (the body is handed the transposed weights). -/
theorem payload_apply (x0 : Vec Ideal S3x5888 .f32) (x1 : Vec Ideal S64x3 .f32) (x2 : Vec Ideal S64 .f32) (x3 : Vec Ideal S64x64 .f32)
    (x4 : Vec Ideal S64 .f32) (x5 : Vec Ideal S1x64 .f32) (x6 : Vec Ideal S1 .f32) (j : Fin 5888) :
    k0_pay1 x0 x1 x2 x3 x4 x5 x6 (ix2 (0 : Fin 1) j)
      = mlp3 (fun f : Fin 3 => x0 (ix2 f j)) (fun f b => x1 (ix2 b f)) (fun b => x2 (ix1 b)) (fun b a => x3 (ix2 a b))
          (fun a => x4 (ix1 a)) (fun a => x5 (ix2 (0 : Fin 1) a)) (x6 (ix1 (0 : Fin 1))) := by
  refine Eq.trans ?_ (mlp3_weights_left (fun f : Fin 3 => x0 (ix2 f j)) (fun f b => x1 (ix2 b f)) (fun b => x2 (ix1 b)) (fun b a => x3 (ix2 a b))
          (fun a => x4 (ix1 a)) (fun a => x5 (ix2 (0 : Fin 1) a)) (x6 (ix1 (0 : Fin 1))))
  unfold k0_pay1
  refine (congrArg₂ (· + ·) (third_apply _ _ (0 : Fin 1) j) (outBias_apply x6 (0 : Fin 1) j)).trans ?_
  refine congrArg (· + x6 (ix1 (0 : Fin 1))) (Finset.sum_congr rfl fun a _ => ?_)
  refine congrArg₂ (· * ·) (congrFun (shapeCast_self x5 _) _) ?_
  refine congrArg Ideal.tanh ?_
  refine (congrArg₂ (· + ·) (second_apply _ _ a j) (hiddenBias_apply x4 a j)).trans ?_
  refine congrArg (· + x4 (ix1 a)) (Finset.sum_congr rfl fun b _ => ?_)
  refine congrArg₂ (· * ·) (congrFun (shapeCast_self x3 _) _) ?_
  refine congrArg Ideal.tanh ?_
  refine (congrArg₂ (· + ·) (first_apply _ _ b j) (hiddenBias_apply x2 b j)).trans ?_
  refine congrArg (· + x2 (ix1 b)) (Finset.sum_congr rfl fun f _ => ?_)
  exact congrArg₂ (· * ·) (congrFun (shapeCast_self x1 _) _) (congrFun (shapeCast_self x0 _) _)

end Cert.KernelIdeal.NodePayload

end
-- ==== Proof.NodeArray.lean ====
/-
  The node MLP's region: its output array after the run, as ONE function of its seven input arrays. Column `n` of
  the 1 × 100096 output is the three-layer perceptron of column `n` of the 3 × 100096 feature array: grid point `t`
  loads columns 5888·t … 5888·t + 5887 of the features and the six weight and bias arrays whole, writes back columns
  5888·t … 5888·t + 5887 of the output, and the 17 points' blocks tile the output.
-/
import proofs.«106456_j29411936043039_1_alg».proof.Proof.NodeRegion
import proofs.«106456_j29411936043039_1_alg».proof.Proof.NodePayload
import Idealize.ShloMosaic.Lib.Pipeline.Value
import Idealize.ShloMosaic.Lib.ValueIdx

set_option maxRecDepth 16384

noncomputable section

namespace Cert.KernelIdeal.NodeArray

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Regions Cert.Mlp

/-- The output array as a function of the input arrays: at column `n`, the perceptron of the features' column `n` under
    the transposed weights the region is handed. -/
def wholeOut (X : S3x100096.Idx → EReal) (w0 : S64x3.Idx → EReal) (b0 : S64.Idx → EReal) (w1 : S64x64.Idx → EReal)
    (b1 : S64.Idx → EReal) (w2 : S1x64.Idx → EReal) (b2 : S1.Idx → EReal) : S1x100096.Idx → EReal := fun i =>
  mlp3 (fun f : Fin 3 => X (ix2 f (⟨(i 1).val, idx2_lt1 i⟩ : Fin 100096))) (fun f b => w0 (ix2 b f)) (fun b => b0 (ix1 b))
    (fun b a => w1 (ix2 a b)) (fun a => b1 (ix1 a)) (fun a => w2 (ix2 (0 : Fin 1) a)) (b2 (ix1 (0 : Fin 1)))

theorem hz2 : (![0, 0] : Fin 2 → Nat) = fun _ => 0 := funext fun a => by fin_cases a <;> rfl
theorem hz1 : (![0] : Fin 1 → Nat) = fun _ => 0 := funext fun a => by fin_cases a <;> rfl

/-- The windows' block indices over the grid: the feature and output windows move one block of columns per grid point,
    the weight and bias windows stay on their one block. -/
theorem grid_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = t.val :=
  (by decide +kernel : ∀ t : Fin grid0.N, _)

theorem grid_size : cfg0.N = 17 := N_0

variable (V : (c : Dev nD) → (b : Ref sig .tc) → Buf (Elt Ideal) ((c : Thread nD τ).loc b))

/-! ## The input blocks, read off the arrays -/

/-- Row `f`, column `q` of the feature block at grid point `t` is row `f`, column 5888·t + q of the feature array. -/
theorem feat_block (c : Dev nD) (t : Fin cfg0.N) (f : Fin 3) (q : Fin 5888) :
    iblk0 V c 0 t (ix2 f q) = V c main_v10 (ix2 f (⟨t.val * 5888 + q.val, by
      have h1 := lt_of_lt_of_eq t.isLt grid_size; have h2 := q.isLt; omega⟩ : Fin 100096)) := by
  obtain ⟨ea, eb, -⟩ := grid_facts t
  show V c main_v10 (((cfg0.win 0).blk t).view.emb (ix2 f q)) = _
  refine congrArg (V c main_v10) (funext fun a => Fin.ext ?_)
  match a with
  | ⟨0, _⟩ => show win0_0.index t (0 : Fin 2) * 3 + 1 * f.val = f.val; rw [ea]; omega
  | ⟨1, _⟩ => show win0_0.index t (1 : Fin 2) * 5888 + 1 * q.val = t.val * 5888 + q.val; rw [eb]; omega

/-- The first layer's (transposed) weights are loaded whole at every grid point. -/
theorem w0_block (c : Dev nD) (t : Fin cfg0.N) : (iblk0 V c 1 t : S64x3.Idx → EReal) = V c main_v11 := by
  obtain ⟨-, -, ea, eb, -⟩ := grid_facts t
  funext y
  show V c main_v11 (((cfg0.win 1).blk t).view.emb y) = V c main_v11 y
  refine congrArg (V c main_v11) (funext fun a => Fin.ext ?_)
  match a with
  | ⟨0, _⟩ => show win0_1.index t (0 : Fin 2) * 64 + 1 * (y 0).val = (y 0).val; rw [ea]; omega
  | ⟨1, _⟩ => show win0_1.index t (1 : Fin 2) * 3 + 1 * (y 1).val = (y 1).val; rw [eb]; omega
/-- The first layer's bias is loaded whole. -/
theorem b0_block (c : Dev nD) (t : Fin cfg0.N) : (iblk0 V c 2 t : S64.Idx → EReal) = V c main_arg11 := by
  obtain ⟨-, -, -, -, ea, -⟩ := grid_facts t
  funext y
  show V c main_arg11 (((cfg0.win 2).blk t).view.emb y) = V c main_arg11 y
  refine congrArg (V c main_arg11) (funext fun a => Fin.ext ?_)
  match a with
  | ⟨0, _⟩ => show win0_2.index t (0 : Fin 1) * 64 + 1 * (y 0).val = (y 0).val; rw [ea]; omega
/-- The second layer's (transposed) weights are loaded whole. -/
theorem w1_block (c : Dev nD) (t : Fin cfg0.N) : (iblk0 V c 3 t : S64x64.Idx → EReal) = V c main_v12 := by
  obtain ⟨-, -, -, -, -, ea, eb, -⟩ := grid_facts t
  funext y
  show V c main_v12 (((cfg0.win 3).blk t).view.emb y) = V c main_v12 y
  refine congrArg (V c main_v12) (funext fun a => Fin.ext ?_)
  match a with
  | ⟨0, _⟩ => show win0_3.index t (0 : Fin 2) * 64 + 1 * (y 0).val = (y 0).val; rw [ea]; omega
  | ⟨1, _⟩ => show win0_3.index t (1 : Fin 2) * 64 + 1 * (y 1).val = (y 1).val; rw [eb]; omega
/-- The second layer's bias is loaded whole. -/
theorem b1_block (c : Dev nD) (t : Fin cfg0.N) : (iblk0 V c 4 t : S64.Idx → EReal) = V c main_arg13 := by
  obtain ⟨-, -, -, -, -, -, -, ea, -⟩ := grid_facts t
  funext y
  show V c main_arg13 (((cfg0.win 4).blk t).view.emb y) = V c main_arg13 y
  refine congrArg (V c main_arg13) (funext fun a => Fin.ext ?_)
  match a with
  | ⟨0, _⟩ => show win0_4.index t (0 : Fin 1) * 64 + 1 * (y 0).val = (y 0).val; rw [ea]; omega
/-- The output layer's (transposed) weights are loaded whole. -/
theorem w2_block (c : Dev nD) (t : Fin cfg0.N) : (iblk0 V c 5 t : S1x64.Idx → EReal) = V c main_v13 := by
  obtain ⟨-, -, -, -, -, -, -, -, ea, eb, -⟩ := grid_facts t
  funext y
  show V c main_v13 (((cfg0.win 5).blk t).view.emb y) = V c main_v13 y
  refine congrArg (V c main_v13) (funext fun a => Fin.ext ?_)
  match a with
  | ⟨0, _⟩ => show win0_5.index t (0 : Fin 2) * 1 + 1 * (y 0).val = (y 0).val; rw [ea]; omega
  | ⟨1, _⟩ => show win0_5.index t (1 : Fin 2) * 64 + 1 * (y 1).val = (y 1).val; rw [eb]; omega
/-- The output bias is loaded whole. -/
theorem b2_block (c : Dev nD) (t : Fin cfg0.N) : (iblk0 V c 6 t : S1.Idx → EReal) = V c main_arg15 := by
  obtain ⟨-, -, -, -, -, -, -, -, -, -, ea, -⟩ := grid_facts t
  funext y
  show V c main_arg15 (((cfg0.win 6).blk t).view.emb y) = V c main_arg15 y
  refine congrArg (V c main_arg15) (funext fun a => Fin.ext ?_)
  match a with
  | ⟨0, _⟩ => show win0_6.index t (0 : Fin 1) * 1 + 1 * (y 0).val = (y 0).val; rw [ea]; omega

/-! ## What a grid point writes back -/

/-- Grid point `t` writes back block `t` of `wholeOut` of the arrays as the region finds them. -/
theorem flushed_eq (c : Dev nD) (t : Fin cfg0.N) :
    (dat0 V c).flushed 7 t = ((cfg0.win 7).blk t).view.read (Elt Ideal)
      (wholeOut (V c main_v10) (V c main_v11) (V c main_arg11) (V c main_v12) (V c main_arg13) (V c main_v13) (V c main_arg15)) := by
  show (cfg0.win 7).cut (grid0.coords t) ((dat0 V c).after 7 t) = _
  rw [after0_7]
  unfold out0_7
  rw [View.canon_unit_zero hz2]
  simp only [View.ld_unit_zero (S := S3x5888) hz2, View.ld_unit_zero (S := S64x3) hz2, View.ld_unit_zero (S := S64) hz1,
    View.ld_unit_zero (S := S64x64) hz2, View.ld_unit_zero (S := S1x64) hz2, View.ld_unit_zero (S := S1) hz1]
  funext (y : S1x5888.Idx)
  obtain ⟨p, q, rfl⟩ : ∃ (p : Fin 1) (q : Fin 5888), y = ix2 p q := ⟨y 0, y 1, eq_ix2 y⟩
  obtain rfl : p = 0 := Subsingleton.elim _ _
  refine (NodePayload.payload_apply _ _ _ _ _ _ _ q).trans ?_
  obtain ⟨-, -, -, -, -, -, -, -, -, -, -, ea, eb⟩ := grid_facts t
  show _ = wholeOut _ _ _ _ _ _ _ (((cfg0.win 7).blk t).view.emb (ix2 (0 : Fin 1) q))
  unfold wholeOut
  have hcol : (⟨((((cfg0.win 7).blk t).view.emb (ix2 (0 : Fin 1) q)) 1).val, idx2_lt1 _⟩ : Fin 100096)
      = ⟨t.val * 5888 + q.val, by have h1 := lt_of_lt_of_eq t.isLt grid_size; have h2 := q.isLt; omega⟩ :=
    Fin.ext (by show win0_7.index t (1 : Fin 2) * 5888 + 1 * q.val = t.val * 5888 + q.val; rw [eb]; omega)
  rw [hcol]
  simp only [feat_block V c t, w0_block V c t, b0_block V c t, w1_block V c t, b1_block V c t, w2_block V c t, b2_block V c t]

/-! ## The blocks tile the output -/

/-- An index of the output array is in grid point `t`'s block iff each coordinate is in the block's range. -/
theorem mem_blk (t : Fin cfg0.N) (i : S1x100096.Idx) :
    i ∈ ((cfg0.win 7).blk t).view.set ↔ ∀ a : Fin 2, win0_7.index t a * S1x5888.size a ≤ (i a).val ∧ (i a).val < win0_7.index t a * S1x5888.size a + S1x5888.size a := by
  show i ∈ ((View.whole main_v14).slice (win0_7.rect t)).set ↔ _
  rw [View.set_slice_whole, Rect.mem_set_unit]
  exact Iff.rfl

/-- Column `n` of the output is written back by grid point `n / 5888`. -/
theorem cover (i : S1x100096.Idx) : ∃ t : Fin cfg0.N, (cfg0.win 7).flush t = true ∧ i ∈ ((cfg0.win 7).blk t).view.set := by
  have hi0 : (i 0).val < 1 := (i 0).isLt
  have hi1 : (i 1).val < 100096 := (i 1).isLt
  have hlt : (i 1).val / 5888 < cfg0.N := by rw [grid_size]; omega
  refine ⟨⟨(i 1).val / 5888, hlt⟩, flush0_7 _, ?_⟩
  rw [mem_blk]
  obtain ⟨-, -, -, -, -, -, -, -, -, -, -, ea, eb⟩ := grid_facts ⟨(i 1).val / 5888, hlt⟩
  intro a
  match a with
  | ⟨0, _⟩ =>
    show win0_7.index ⟨(i 1).val / 5888, hlt⟩ (0 : Fin 2) * 1 ≤ (i 0).val ∧ (i 0).val < win0_7.index ⟨(i 1).val / 5888, hlt⟩ (0 : Fin 2) * 1 + 1
    rw [ea]; omega
  | ⟨1, _⟩ =>
    show win0_7.index ⟨(i 1).val / 5888, hlt⟩ (1 : Fin 2) * 5888 ≤ (i 1).val ∧ (i 1).val < win0_7.index ⟨(i 1).val / 5888, hlt⟩ (1 : Fin 2) * 5888 + 5888
    rw [eb]; show (i 1).val / 5888 * 5888 ≤ (i 1).val ∧ (i 1).val < (i 1).val / 5888 * 5888 + 5888; omega

/-- The output array after the region's run is `wholeOut` of the arrays as the region finds them. -/
theorem final (c : Dev nD) : (dat0 V c).arrAt 7 cfg0.N
    = wholeOut (V c main_v10) (V c main_v11) (V c main_arg11) (V c main_v12) (V c main_arg13) (V c main_v13) (V c main_arg15) :=
  (dat0 V c).arrAt_eq_of_cover 7 _ (fun t _ => flushed_eq V c t) cover

end Cert.KernelIdeal.NodeArray

end
-- ==== Proof.EdgePayload.lean ====
/-
  The edge MLP's payload: what its body stores at column `j` of a block, as the three-layer perceptron of column `j` of the
  feature block. The body holds the samples along the columns: each layer is the transposed weight matrix times the
  activations (a matrix product into a zero accumulator — a plain sum of products over the extended reals), plus the
  bias spread along the columns, through tanh; the roundings to the 16-bit format on the way into each product are the
  identity over the extended reals.
-/
import proofs.«106456_j29411936043039_1_alg».proof.Proof.Gen.KernelIdeal.Skeleton
import proofs.«106456_j29411936043039_1_alg».proof.Proof.MlpSpec
import proofs.«106456_j29411936043039_1_alg».proof.Proof.LibColRow
import Idealize.ShloMosaic.Lib.ValueIdx
import Idealize.ShloMosaic.Lib.Pipeline.Value
import Idealize.ShloMosaic.PureOps.Ideal.Laws

noncomputable section

namespace Cert.KernelIdeal.EdgePayload

open Cert.KernelIdeal Cert.KernelIdeal.Gen Idealize.ShloMosaic Idealize.ShloMosaic.ValueIdx Cert.Mlp Cert.LibColRow

/-! ## The three matrix products at an index -/

theorem first_lhs0 (i : S64x16000.Idx) (q : dot_S64x2_S2x16000_S64x16000_1_0_0_1_n_n.contr.Idx) : (dot_S64x2_S2x16000_S64x16000_1_0_0_1_n_n.lhsIdx i q 0).val = (i 0).val := by
  unfold DotDims.lhsIdx
  rw [dif_neg (show ¬(0 : Fin S64x2.rank) ∈ dot_S64x2_S2x16000_S64x16000_1_0_0_1_n_n.lhsBatch by decide), dif_pos (show (0 : Fin S64x2.rank) ∈ dot_S64x2_S2x16000_S64x16000_1_0_0_1_n_n.lhsNonContracting by decide)]
  rfl
theorem first_lhs1 (i : S64x16000.Idx) (q : dot_S64x2_S2x16000_S64x16000_1_0_0_1_n_n.contr.Idx) : (dot_S64x2_S2x16000_S64x16000_1_0_0_1_n_n.lhsIdx i q 1).val = (q ⟨0, by decide⟩).val :=
  dot_S64x2_S2x16000_S64x16000_1_0_0_1_n_n.lhsIdx_val_of_single rfl i q
theorem first_rhs0 (i : S64x16000.Idx) (q : dot_S64x2_S2x16000_S64x16000_1_0_0_1_n_n.contr.Idx) : (dot_S64x2_S2x16000_S64x16000_1_0_0_1_n_n.rhsIdx i q 0).val = (q ⟨0, by decide⟩).val :=
  dot_S64x2_S2x16000_S64x16000_1_0_0_1_n_n.rhsIdx_val_of_single rfl i q
theorem first_rhs1 (i : S64x16000.Idx) (q : dot_S64x2_S2x16000_S64x16000_1_0_0_1_n_n.contr.Idx) : (dot_S64x2_S2x16000_S64x16000_1_0_0_1_n_n.rhsIdx i q 1).val = (i 1).val := by
  unfold DotDims.rhsIdx
  rw [dif_neg (show ¬(1 : Fin S2x16000.rank) ∈ dot_S64x2_S2x16000_S64x16000_1_0_0_1_n_n.rhsBatch by decide), dif_pos (show (1 : Fin S2x16000.rank) ∈ dot_S64x2_S2x16000_S64x16000_1_0_0_1_n_n.rhsNonContracting by decide)]
  rfl
/-- The first layer's product, (64 × 2) · (2 × 16000), at (p, j): the sum over the 2 features. -/
theorem first_apply {φ₁ φ₂ : FTy} (l : FVec Ideal S64x2 φ₁) (r : FVec Ideal S2x16000 φ₂) (p : Fin 64) (j : Fin 16000) :
    matmul dot_S64x2_S2x16000_S64x16000_1_0_0_1_n_n none l r (constant S64x16000 .f32 0x00000000#32) (ix2 p j) = ∑ k : Fin 2, l (ix2 p k) * r (ix2 k j) := by
  refine (Ideal.matmul_constant_zero_apply dot_S64x2_S2x16000_S64x16000_1_0_0_1_n_n none l r (ix2 p j)).trans ?_
  rw [← Equiv.sum_comp (contrEquiv1 dot_S64x2_S2x16000_S64x16000_1_0_0_1_n_n 2 rfl rfl).symm]
  refine Finset.sum_congr rfl fun k _ => ?_
  have hk := contrEquiv1_symm_val dot_S64x2_S2x16000_S64x16000_1_0_0_1_n_n 2 rfl rfl k
  have el : dot_S64x2_S2x16000_S64x16000_1_0_0_1_n_n.lhsIdx (ix2 p j) ((contrEquiv1 dot_S64x2_S2x16000_S64x16000_1_0_0_1_n_n 2 rfl rfl).symm k) = ix2 p k := funext fun a => Fin.ext (by
    match a with
    | ⟨0, _⟩ => exact first_lhs0 _ _
    | ⟨1, _⟩ => exact (first_lhs1 _ _).trans hk)
  have er : dot_S64x2_S2x16000_S64x16000_1_0_0_1_n_n.rhsIdx (ix2 p j) ((contrEquiv1 dot_S64x2_S2x16000_S64x16000_1_0_0_1_n_n 2 rfl rfl).symm k) = ix2 k j := funext fun a => Fin.ext (by
    match a with
    | ⟨0, _⟩ => exact (first_rhs0 _ _).trans hk
    | ⟨1, _⟩ => exact first_rhs1 _ _)
  rw [el, er]

theorem second_lhs0 (i : S64x16000.Idx) (q : dot_S64x64_S64x16000_S64x16000_1_0_0_1_n_n.contr.Idx) : (dot_S64x64_S64x16000_S64x16000_1_0_0_1_n_n.lhsIdx i q 0).val = (i 0).val := by
  unfold DotDims.lhsIdx
  rw [dif_neg (show ¬(0 : Fin S64x64.rank) ∈ dot_S64x64_S64x16000_S64x16000_1_0_0_1_n_n.lhsBatch by decide), dif_pos (show (0 : Fin S64x64.rank) ∈ dot_S64x64_S64x16000_S64x16000_1_0_0_1_n_n.lhsNonContracting by decide)]
  rfl
theorem second_lhs1 (i : S64x16000.Idx) (q : dot_S64x64_S64x16000_S64x16000_1_0_0_1_n_n.contr.Idx) : (dot_S64x64_S64x16000_S64x16000_1_0_0_1_n_n.lhsIdx i q 1).val = (q ⟨0, by decide⟩).val :=
  dot_S64x64_S64x16000_S64x16000_1_0_0_1_n_n.lhsIdx_val_of_single rfl i q
theorem second_rhs0 (i : S64x16000.Idx) (q : dot_S64x64_S64x16000_S64x16000_1_0_0_1_n_n.contr.Idx) : (dot_S64x64_S64x16000_S64x16000_1_0_0_1_n_n.rhsIdx i q 0).val = (q ⟨0, by decide⟩).val :=
  dot_S64x64_S64x16000_S64x16000_1_0_0_1_n_n.rhsIdx_val_of_single rfl i q
theorem second_rhs1 (i : S64x16000.Idx) (q : dot_S64x64_S64x16000_S64x16000_1_0_0_1_n_n.contr.Idx) : (dot_S64x64_S64x16000_S64x16000_1_0_0_1_n_n.rhsIdx i q 1).val = (i 1).val := by
  unfold DotDims.rhsIdx
  rw [dif_neg (show ¬(1 : Fin S64x16000.rank) ∈ dot_S64x64_S64x16000_S64x16000_1_0_0_1_n_n.rhsBatch by decide), dif_pos (show (1 : Fin S64x16000.rank) ∈ dot_S64x64_S64x16000_S64x16000_1_0_0_1_n_n.rhsNonContracting by decide)]
  rfl
/-- The second layer's product, (64 × 64) · (64 × 16000), at (p, j): the sum over the 64 hidden units. -/
theorem second_apply {φ₁ φ₂ : FTy} (l : FVec Ideal S64x64 φ₁) (r : FVec Ideal S64x16000 φ₂) (p : Fin 64) (j : Fin 16000) :
    matmul dot_S64x64_S64x16000_S64x16000_1_0_0_1_n_n none l r (constant S64x16000 .f32 0x00000000#32) (ix2 p j) = ∑ k : Fin 64, l (ix2 p k) * r (ix2 k j) := by
  refine (Ideal.matmul_constant_zero_apply dot_S64x64_S64x16000_S64x16000_1_0_0_1_n_n none l r (ix2 p j)).trans ?_
  rw [← Equiv.sum_comp (contrEquiv1 dot_S64x64_S64x16000_S64x16000_1_0_0_1_n_n 64 rfl rfl).symm]
  refine Finset.sum_congr rfl fun k _ => ?_
  have hk := contrEquiv1_symm_val dot_S64x64_S64x16000_S64x16000_1_0_0_1_n_n 64 rfl rfl k
  have el : dot_S64x64_S64x16000_S64x16000_1_0_0_1_n_n.lhsIdx (ix2 p j) ((contrEquiv1 dot_S64x64_S64x16000_S64x16000_1_0_0_1_n_n 64 rfl rfl).symm k) = ix2 p k := funext fun a => Fin.ext (by
    match a with
    | ⟨0, _⟩ => exact second_lhs0 _ _
    | ⟨1, _⟩ => exact (second_lhs1 _ _).trans hk)
  have er : dot_S64x64_S64x16000_S64x16000_1_0_0_1_n_n.rhsIdx (ix2 p j) ((contrEquiv1 dot_S64x64_S64x16000_S64x16000_1_0_0_1_n_n 64 rfl rfl).symm k) = ix2 k j := funext fun a => Fin.ext (by
    match a with
    | ⟨0, _⟩ => exact (second_rhs0 _ _).trans hk
    | ⟨1, _⟩ => exact second_rhs1 _ _)
  rw [el, er]

theorem third_lhs0 (i : S1x16000.Idx) (q : dot_S1x64_S64x16000_S1x16000_1_0_0_1_n_n.contr.Idx) : (dot_S1x64_S64x16000_S1x16000_1_0_0_1_n_n.lhsIdx i q 0).val = (i 0).val := by
  unfold DotDims.lhsIdx
  rw [dif_neg (show ¬(0 : Fin S1x64.rank) ∈ dot_S1x64_S64x16000_S1x16000_1_0_0_1_n_n.lhsBatch by decide), dif_pos (show (0 : Fin S1x64.rank) ∈ dot_S1x64_S64x16000_S1x16000_1_0_0_1_n_n.lhsNonContracting by decide)]
  rfl
theorem third_lhs1 (i : S1x16000.Idx) (q : dot_S1x64_S64x16000_S1x16000_1_0_0_1_n_n.contr.Idx) : (dot_S1x64_S64x16000_S1x16000_1_0_0_1_n_n.lhsIdx i q 1).val = (q ⟨0, by decide⟩).val :=
  dot_S1x64_S64x16000_S1x16000_1_0_0_1_n_n.lhsIdx_val_of_single rfl i q
theorem third_rhs0 (i : S1x16000.Idx) (q : dot_S1x64_S64x16000_S1x16000_1_0_0_1_n_n.contr.Idx) : (dot_S1x64_S64x16000_S1x16000_1_0_0_1_n_n.rhsIdx i q 0).val = (q ⟨0, by decide⟩).val :=
  dot_S1x64_S64x16000_S1x16000_1_0_0_1_n_n.rhsIdx_val_of_single rfl i q
theorem third_rhs1 (i : S1x16000.Idx) (q : dot_S1x64_S64x16000_S1x16000_1_0_0_1_n_n.contr.Idx) : (dot_S1x64_S64x16000_S1x16000_1_0_0_1_n_n.rhsIdx i q 1).val = (i 1).val := by
  unfold DotDims.rhsIdx
  rw [dif_neg (show ¬(1 : Fin S64x16000.rank) ∈ dot_S1x64_S64x16000_S1x16000_1_0_0_1_n_n.rhsBatch by decide), dif_pos (show (1 : Fin S64x16000.rank) ∈ dot_S1x64_S64x16000_S1x16000_1_0_0_1_n_n.rhsNonContracting by decide)]
  rfl
/-- The output layer's product, (1 × 64) · (64 × 16000), at (p, j): the sum over the 64 hidden units. -/
theorem third_apply {φ₁ φ₂ : FTy} (l : FVec Ideal S1x64 φ₁) (r : FVec Ideal S64x16000 φ₂) (p : Fin 1) (j : Fin 16000) :
    matmul dot_S1x64_S64x16000_S1x16000_1_0_0_1_n_n none l r (constant S1x16000 .f32 0x00000000#32) (ix2 p j) = ∑ k : Fin 64, l (ix2 p k) * r (ix2 k j) := by
  refine (Ideal.matmul_constant_zero_apply dot_S1x64_S64x16000_S1x16000_1_0_0_1_n_n none l r (ix2 p j)).trans ?_
  rw [← Equiv.sum_comp (contrEquiv1 dot_S1x64_S64x16000_S1x16000_1_0_0_1_n_n 64 rfl rfl).symm]
  refine Finset.sum_congr rfl fun k _ => ?_
  have hk := contrEquiv1_symm_val dot_S1x64_S64x16000_S1x16000_1_0_0_1_n_n 64 rfl rfl k
  have el : dot_S1x64_S64x16000_S1x16000_1_0_0_1_n_n.lhsIdx (ix2 p j) ((contrEquiv1 dot_S1x64_S64x16000_S1x16000_1_0_0_1_n_n 64 rfl rfl).symm k) = ix2 p k := funext fun a => Fin.ext (by
    match a with
    | ⟨0, _⟩ => exact third_lhs0 _ _
    | ⟨1, _⟩ => exact (third_lhs1 _ _).trans hk)
  have er : dot_S1x64_S64x16000_S1x16000_1_0_0_1_n_n.rhsIdx (ix2 p j) ((contrEquiv1 dot_S1x64_S64x16000_S1x16000_1_0_0_1_n_n 64 rfl rfl).symm k) = ix2 k j := funext fun a => Fin.ext (by
    match a with
    | ⟨0, _⟩ => exact (third_rhs0 _ _).trans hk
    | ⟨1, _⟩ => exact third_rhs1 _ _)
  rw [el, er]

/-! ## The biases spread along the columns -/

/-- A hidden layer's bias, viewed as a column and spread over the 16000 columns, at (p, j): the bias of unit `p`. -/
theorem hiddenBias_apply (v : Vec Ideal S64 .f32) (p : Fin 64) (j : Fin 16000) :
    broadcastTo S64x16000 (shapeCast S64x1 v shapeCasts_S64_S64x1) broadcasts_S64x1_S64x16000 (ix2 p j) = v (ix1 p) :=
  (bcastTo_col_apply broadcasts_S64x1_S64x16000 _ p j).trans (shapeCast_col_apply shapeCasts_S64_S64x1 v p (0 : Fin 1))

/-- The output bias, viewed as a 1 × 1 array and spread over the 16000 columns, at (p, j): the one bias. -/
theorem outBias_apply (v : Vec Ideal S1 .f32) (p : Fin 1) (j : Fin 16000) :
    broadcastTo S1x16000 (shapeCast S1x1 v shapeCasts_S1_S1x1) broadcasts_S1x1_S1x16000 (ix2 p j) = v (ix1 p) :=
  (bcastTo_col_apply broadcasts_S1x1_S1x16000 _ p j).trans (shapeCast_col_apply shapeCasts_S1_S1x1 v p (0 : Fin 1))

/-! ## The payload at a column -/

/-- The body's stored value at column `j`: the perceptron of column `j` of the feature block, with the weight blocks read
    transposed (the body is handed the transposed weights). -/
theorem payload_apply (x0 : Vec Ideal S2x16000 .f32) (x1 : Vec Ideal S64x2 .f32) (x2 : Vec Ideal S64 .f32) (x3 : Vec Ideal S64x64 .f32)
    (x4 : Vec Ideal S64 .f32) (x5 : Vec Ideal S1x64 .f32) (x6 : Vec Ideal S1 .f32) (j : Fin 16000) :
    k1_pay1 x0 x1 x2 x3 x4 x5 x6 (ix2 (0 : Fin 1) j)
      = mlp3 (fun f : Fin 2 => x0 (ix2 f j)) (fun f b => x1 (ix2 b f)) (fun b => x2 (ix1 b)) (fun b a => x3 (ix2 a b))
          (fun a => x4 (ix1 a)) (fun a => x5 (ix2 (0 : Fin 1) a)) (x6 (ix1 (0 : Fin 1))) := by
  refine Eq.trans ?_ (mlp3_weights_left (fun f : Fin 2 => x0 (ix2 f j)) (fun f b => x1 (ix2 b f)) (fun b => x2 (ix1 b)) (fun b a => x3 (ix2 a b))
          (fun a => x4 (ix1 a)) (fun a => x5 (ix2 (0 : Fin 1) a)) (x6 (ix1 (0 : Fin 1))))
  unfold k1_pay1
  refine (congrArg₂ (· + ·) (third_apply _ _ (0 : Fin 1) j) (outBias_apply x6 (0 : Fin 1) j)).trans ?_
  refine congrArg (· + x6 (ix1 (0 : Fin 1))) (Finset.sum_congr rfl fun a _ => ?_)
  refine congrArg₂ (· * ·) (congrFun (shapeCast_self x5 _) _) ?_
  refine congrArg Ideal.tanh ?_
  refine (congrArg₂ (· + ·) (second_apply _ _ a j) (hiddenBias_apply x4 a j)).trans ?_
  refine congrArg (· + x4 (ix1 a)) (Finset.sum_congr rfl fun b _ => ?_)
  refine congrArg₂ (· * ·) (congrFun (shapeCast_self x3 _) _) ?_
  refine congrArg Ideal.tanh ?_
  refine (congrArg₂ (· + ·) (first_apply _ _ b j) (hiddenBias_apply x2 b j)).trans ?_
  refine congrArg (· + x2 (ix1 b)) (Finset.sum_congr rfl fun f _ => ?_)
  exact congrArg₂ (· * ·) (congrFun (shapeCast_self x1 _) _) (congrFun (shapeCast_self x0 _) _)

end Cert.KernelIdeal.EdgePayload

end
-- ==== Proof.EdgeArray.lean ====
/-
  The edge MLP's region: its output array after the run, as ONE function of its seven input arrays. Column `n` of
  the 1 × 2000000 output is the three-layer perceptron of column `n` of the 2 × 2000000 feature array: grid point `t`
  loads columns 16000·t … 16000·t + 15999 of the features and the six weight and bias arrays whole, writes back columns
  16000·t … 16000·t + 15999 of the output, and the 125 points' blocks tile the output.
-/
import proofs.«106456_j29411936043039_1_alg».proof.Proof.EdgeRegion
import proofs.«106456_j29411936043039_1_alg».proof.Proof.EdgePayload
import Idealize.ShloMosaic.Lib.Pipeline.Value
import Idealize.ShloMosaic.Lib.ValueIdx

set_option maxRecDepth 16384

noncomputable section

namespace Cert.KernelIdeal.EdgeArray

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Regions Cert.Mlp

/-- The output array as a function of the input arrays: at column `n`, the perceptron of the features' column `n` under
    the transposed weights the region is handed. -/
def wholeOut (X : S2x2000000.Idx → EReal) (w0 : S64x2.Idx → EReal) (b0 : S64.Idx → EReal) (w1 : S64x64.Idx → EReal)
    (b1 : S64.Idx → EReal) (w2 : S1x64.Idx → EReal) (b2 : S1.Idx → EReal) : S1x2000000.Idx → EReal := fun i =>
  mlp3 (fun f : Fin 2 => X (ix2 f (⟨(i 1).val, idx2_lt1 i⟩ : Fin 2000000))) (fun f b => w0 (ix2 b f)) (fun b => b0 (ix1 b))
    (fun b a => w1 (ix2 a b)) (fun a => b1 (ix1 a)) (fun a => w2 (ix2 (0 : Fin 1) a)) (b2 (ix1 (0 : Fin 1)))

theorem hz2 : (![0, 0] : Fin 2 → Nat) = fun _ => 0 := funext fun a => by fin_cases a <;> rfl
theorem hz1 : (![0] : Fin 1 → Nat) = fun _ => 0 := funext fun a => by fin_cases a <;> rfl

/-- The windows' block indices over the grid: the feature and output windows move one block of columns per grid point,
    the weight and bias windows stay on their one block. -/
theorem grid_facts : ∀ t : Fin cfg1.N, win1_0.index t (0 : Fin 2) = 0 ∧ win1_0.index t (1 : Fin 2) = t.val
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = t.val :=
  (by decide +kernel : ∀ t : Fin grid1.N, _)

theorem grid_size : cfg1.N = 125 := N_1

variable (V : (c : Dev nD) → (b : Ref sig .tc) → Buf (Elt Ideal) ((c : Thread nD τ).loc b))

/-! ## The input blocks, read off the arrays -/

/-- Row `f`, column `q` of the feature block at grid point `t` is row `f`, column 16000·t + q of the feature array. -/
theorem feat_block (c : Dev nD) (t : Fin cfg1.N) (f : Fin 2) (q : Fin 16000) :
    iblk1 V c 0 t (ix2 f q) = V c main_v34 (ix2 f (⟨t.val * 16000 + q.val, by
      have h1 := lt_of_lt_of_eq t.isLt grid_size; have h2 := q.isLt; omega⟩ : Fin 2000000)) := by
  obtain ⟨ea, eb, -⟩ := grid_facts t
  show V c main_v34 (((cfg1.win 0).blk t).view.emb (ix2 f q)) = _
  refine congrArg (V c main_v34) (funext fun a => Fin.ext ?_)
  match a with
  | ⟨0, _⟩ => show win1_0.index t (0 : Fin 2) * 2 + 1 * f.val = f.val; rw [ea]; omega
  | ⟨1, _⟩ => show win1_0.index t (1 : Fin 2) * 16000 + 1 * q.val = t.val * 16000 + q.val; rw [eb]; omega

/-- The first layer's (transposed) weights are loaded whole at every grid point. -/
theorem w0_block (c : Dev nD) (t : Fin cfg1.N) : (iblk1 V c 1 t : S64x2.Idx → EReal) = V c main_v35 := by
  obtain ⟨-, -, ea, eb, -⟩ := grid_facts t
  funext y
  show V c main_v35 (((cfg1.win 1).blk t).view.emb y) = V c main_v35 y
  refine congrArg (V c main_v35) (funext fun a => Fin.ext ?_)
  match a with
  | ⟨0, _⟩ => show win1_1.index t (0 : Fin 2) * 64 + 1 * (y 0).val = (y 0).val; rw [ea]; omega
  | ⟨1, _⟩ => show win1_1.index t (1 : Fin 2) * 2 + 1 * (y 1).val = (y 1).val; rw [eb]; omega
/-- The first layer's bias is loaded whole. -/
theorem b0_block (c : Dev nD) (t : Fin cfg1.N) : (iblk1 V c 2 t : S64.Idx → EReal) = V c main_arg5 := by
  obtain ⟨-, -, -, -, ea, -⟩ := grid_facts t
  funext y
  show V c main_arg5 (((cfg1.win 2).blk t).view.emb y) = V c main_arg5 y
  refine congrArg (V c main_arg5) (funext fun a => Fin.ext ?_)
  match a with
  | ⟨0, _⟩ => show win1_2.index t (0 : Fin 1) * 64 + 1 * (y 0).val = (y 0).val; rw [ea]; omega
/-- The second layer's (transposed) weights are loaded whole. -/
theorem w1_block (c : Dev nD) (t : Fin cfg1.N) : (iblk1 V c 3 t : S64x64.Idx → EReal) = V c main_v36 := by
  obtain ⟨-, -, -, -, -, ea, eb, -⟩ := grid_facts t
  funext y
  show V c main_v36 (((cfg1.win 3).blk t).view.emb y) = V c main_v36 y
  refine congrArg (V c main_v36) (funext fun a => Fin.ext ?_)
  match a with
  | ⟨0, _⟩ => show win1_3.index t (0 : Fin 2) * 64 + 1 * (y 0).val = (y 0).val; rw [ea]; omega
  | ⟨1, _⟩ => show win1_3.index t (1 : Fin 2) * 64 + 1 * (y 1).val = (y 1).val; rw [eb]; omega
/-- The second layer's bias is loaded whole. -/
theorem b1_block (c : Dev nD) (t : Fin cfg1.N) : (iblk1 V c 4 t : S64.Idx → EReal) = V c main_arg7 := by
  obtain ⟨-, -, -, -, -, -, -, ea, -⟩ := grid_facts t
  funext y
  show V c main_arg7 (((cfg1.win 4).blk t).view.emb y) = V c main_arg7 y
  refine congrArg (V c main_arg7) (funext fun a => Fin.ext ?_)
  match a with
  | ⟨0, _⟩ => show win1_4.index t (0 : Fin 1) * 64 + 1 * (y 0).val = (y 0).val; rw [ea]; omega
/-- The output layer's (transposed) weights are loaded whole. -/
theorem w2_block (c : Dev nD) (t : Fin cfg1.N) : (iblk1 V c 5 t : S1x64.Idx → EReal) = V c main_v37 := by
  obtain ⟨-, -, -, -, -, -, -, -, ea, eb, -⟩ := grid_facts t
  funext y
  show V c main_v37 (((cfg1.win 5).blk t).view.emb y) = V c main_v37 y
  refine congrArg (V c main_v37) (funext fun a => Fin.ext ?_)
  match a with
  | ⟨0, _⟩ => show win1_5.index t (0 : Fin 2) * 1 + 1 * (y 0).val = (y 0).val; rw [ea]; omega
  | ⟨1, _⟩ => show win1_5.index t (1 : Fin 2) * 64 + 1 * (y 1).val = (y 1).val; rw [eb]; omega
/-- The output bias is loaded whole. -/
theorem b2_block (c : Dev nD) (t : Fin cfg1.N) : (iblk1 V c 6 t : S1.Idx → EReal) = V c main_arg9 := by
  obtain ⟨-, -, -, -, -, -, -, -, -, -, ea, -⟩ := grid_facts t
  funext y
  show V c main_arg9 (((cfg1.win 6).blk t).view.emb y) = V c main_arg9 y
  refine congrArg (V c main_arg9) (funext fun a => Fin.ext ?_)
  match a with
  | ⟨0, _⟩ => show win1_6.index t (0 : Fin 1) * 1 + 1 * (y 0).val = (y 0).val; rw [ea]; omega

/-! ## What a grid point writes back -/

/-- Grid point `t` writes back block `t` of `wholeOut` of the arrays as the region finds them. -/
theorem flushed_eq (c : Dev nD) (t : Fin cfg1.N) :
    (dat1 V c).flushed 7 t = ((cfg1.win 7).blk t).view.read (Elt Ideal)
      (wholeOut (V c main_v34) (V c main_v35) (V c main_arg5) (V c main_v36) (V c main_arg7) (V c main_v37) (V c main_arg9)) := by
  show (cfg1.win 7).cut (grid1.coords t) ((dat1 V c).after 7 t) = _
  rw [after1_7]
  unfold out1_7
  rw [View.canon_unit_zero hz2]
  simp only [View.ld_unit_zero (S := S2x16000) hz2, View.ld_unit_zero (S := S64x2) hz2, View.ld_unit_zero (S := S64) hz1,
    View.ld_unit_zero (S := S64x64) hz2, View.ld_unit_zero (S := S1x64) hz2, View.ld_unit_zero (S := S1) hz1]
  funext (y : S1x16000.Idx)
  obtain ⟨p, q, rfl⟩ : ∃ (p : Fin 1) (q : Fin 16000), y = ix2 p q := ⟨y 0, y 1, eq_ix2 y⟩
  obtain rfl : p = 0 := Subsingleton.elim _ _
  refine (EdgePayload.payload_apply _ _ _ _ _ _ _ q).trans ?_
  obtain ⟨-, -, -, -, -, -, -, -, -, -, -, ea, eb⟩ := grid_facts t
  show _ = wholeOut _ _ _ _ _ _ _ (((cfg1.win 7).blk t).view.emb (ix2 (0 : Fin 1) q))
  unfold wholeOut
  have hcol : (⟨((((cfg1.win 7).blk t).view.emb (ix2 (0 : Fin 1) q)) 1).val, idx2_lt1 _⟩ : Fin 2000000)
      = ⟨t.val * 16000 + q.val, by have h1 := lt_of_lt_of_eq t.isLt grid_size; have h2 := q.isLt; omega⟩ :=
    Fin.ext (by show win1_7.index t (1 : Fin 2) * 16000 + 1 * q.val = t.val * 16000 + q.val; rw [eb]; omega)
  rw [hcol]
  simp only [feat_block V c t, w0_block V c t, b0_block V c t, w1_block V c t, b1_block V c t, w2_block V c t, b2_block V c t]

/-! ## The blocks tile the output -/

/-- An index of the output array is in grid point `t`'s block iff each coordinate is in the block's range. -/
theorem mem_blk (t : Fin cfg1.N) (i : S1x2000000.Idx) :
    i ∈ ((cfg1.win 7).blk t).view.set ↔ ∀ a : Fin 2, win1_7.index t a * S1x16000.size a ≤ (i a).val ∧ (i a).val < win1_7.index t a * S1x16000.size a + S1x16000.size a := by
  show i ∈ ((View.whole main_v38).slice (win1_7.rect t)).set ↔ _
  rw [View.set_slice_whole, Rect.mem_set_unit]
  exact Iff.rfl

/-- Column `n` of the output is written back by grid point `n / 16000`. -/
theorem cover (i : S1x2000000.Idx) : ∃ t : Fin cfg1.N, (cfg1.win 7).flush t = true ∧ i ∈ ((cfg1.win 7).blk t).view.set := by
  have hi0 : (i 0).val < 1 := (i 0).isLt
  have hi1 : (i 1).val < 2000000 := (i 1).isLt
  have hlt : (i 1).val / 16000 < cfg1.N := by rw [grid_size]; omega
  refine ⟨⟨(i 1).val / 16000, hlt⟩, flush1_7 _, ?_⟩
  rw [mem_blk]
  obtain ⟨-, -, -, -, -, -, -, -, -, -, -, ea, eb⟩ := grid_facts ⟨(i 1).val / 16000, hlt⟩
  intro a
  match a with
  | ⟨0, _⟩ =>
    show win1_7.index ⟨(i 1).val / 16000, hlt⟩ (0 : Fin 2) * 1 ≤ (i 0).val ∧ (i 0).val < win1_7.index ⟨(i 1).val / 16000, hlt⟩ (0 : Fin 2) * 1 + 1
    rw [ea]; omega
  | ⟨1, _⟩ =>
    show win1_7.index ⟨(i 1).val / 16000, hlt⟩ (1 : Fin 2) * 16000 ≤ (i 1).val ∧ (i 1).val < win1_7.index ⟨(i 1).val / 16000, hlt⟩ (1 : Fin 2) * 16000 + 16000
    rw [eb]; show (i 1).val / 16000 * 16000 ≤ (i 1).val ∧ (i 1).val < (i 1).val / 16000 * 16000 + 16000; omega

/-- The output array after the region's run is `wholeOut` of the arrays as the region finds them. -/
theorem final (c : Dev nD) : (dat1 V c).arrAt 7 cfg1.N
    = wholeOut (V c main_v34) (V c main_v35) (V c main_arg5) (V c main_v36) (V c main_arg7) (V c main_v37) (V c main_arg9) :=
  (dat1 V c).arrAt_eq_of_cover 7 _ (fun t _ => flushed_eq V c t) cover

end Cert.KernelIdeal.EdgeArray

end
-- ==== Proof.Glue.lean ====
/-
  The host-side arithmetic both programs share, as plain functions of arrays (any float instance).

  • `concOf`: the concentration column, column 3 of the 100000 × 5 state array, as a vector.
  • `wrap`: an index vector with every negative entry shifted up by the extent (numpy's negative indexing), as a column
    of start indices for a gather.
  • `gatherConc`, `absGather`: the two per-edge features — the source node's concentration, and the absolute value of the
    edge's stoichiometric coefficient.
  • `nodeFeatures`, `edgeFeatures`: the two perceptrons' feature arrays in the kernel's layout, samples along the columns.
  • `tail`: from the per-edge messages and the per-node homeostasis term to the result — messages summed per reaction,
    the rate 10^log_k · softplus(sum), each (node, reaction) entry's contribution coefficient · rate summed per node, plus
    the homeostasis term, as a 100000 × 1 column.
  Both programs apply exactly these operations; the certificate never opens them.
-/
import proofs.«106456_j29411936043039_1_alg».proof.Proof.Gen.KernelIdeal

noncomputable section

namespace Cert.Glue

open Cert.KernelIdeal Cert.KernelIdeal.Gen Idealize.ShloMosaic

variable {F : FTy → Type} [FloatOps F]

/-- Column 3 of the state array, as a vector of length 100000. -/
def concOf (x : (⟨S100000x5, .f32⟩ : BufTy).Contents (Elt F)) : (⟨S100000, .f32⟩ : BufTy).Contents (Elt F) :=
  shapeCast _ (extractStridedSlice S100000x1 ![0, 3] x slices_S100000x5_S100000x1_0_3) shapeCasts_S100000x1_S100000

/-- The per-edge concentration: the concentration vector gathered at the (wrapped) source-node indices. -/
def gatherConc (conc : (⟨S100000, .f32⟩ : BufTy).Contents (Elt F)) (ix : (⟨S2000000, .i32⟩ : BufTy).Contents (Elt F)) :
    (⟨S2000000, .f32⟩ : BufTy).Contents (Elt F) :=
  Host.gather gather_S100000_S2000000x1_S2000000_n_0_n_n_0_1_1 conc
    (broadcastInDim S2000000x1 ![0] bcast_S2000000_S2000000x1_0
      (select (cmpi .slt ix (broadcastInDim S2000000 ![] bcast_S_S2000000 (constantI S_ 32 0#32)))
        (addi ix (broadcastInDim S2000000 ![] bcast_S_S2000000 (constantI S_ 32 100000#32))) ix))

/-- The per-edge absolute stoichiometric coefficient: the coefficient vector gathered at the (wrapped) indices, in
    absolute value. -/
def absGather (sto : (⟨S4000000, .f32⟩ : BufTy).Contents (Elt F)) (ix : (⟨S2000000, .i32⟩ : BufTy).Contents (Elt F)) :
    (⟨S2000000, .f32⟩ : BufTy).Contents (Elt F) :=
  Host.absf (Host.gather gather_S4000000_S2000000x1_S2000000_n_0_n_n_0_1_1 sto
    (broadcastInDim S2000000x1 ![0] bcast_S2000000_S2000000x1_0
      (select (cmpi .slt ix (broadcastInDim S2000000 ![] bcast_S_S2000000 (constantI S_ 32 0#32)))
        (addi ix (broadcastInDim S2000000 ![] bcast_S_S2000000 (constantI S_ 32 4000000#32))) ix)))

/-- The three rows of the node features before padding: the concentration and the two embedding columns, each spread
    along the columns of a one-row array. -/
def nodeRows (x : (⟨S100000x5, .f32⟩ : BufTy).Contents (Elt F)) (a : (⟨S100000x2, .f32⟩ : BufTy).Contents (Elt F)) :
    List ((s : Shape) × (s.Idx → Elt F .f32)) :=
  [⟨S1x100000, broadcastInDim S1x100000 ![1] bcast_S100000_S1x100000_1 (concOf x)⟩,
   ⟨S1x100000, broadcastInDim S1x100000 ![1] bcast_S100000_S1x100000_1
      (shapeCast _ (extractStridedSlice S100000x1 ![0, 0] a slices_S100000x2_S100000x1_0_0) shapeCasts_S100000x1_S100000)⟩,
   ⟨S1x100000, broadcastInDim S1x100000 ![1] bcast_S100000_S1x100000_1
      (shapeCast _ (extractStridedSlice S100000x1 ![0, 1] a slices_S100000x2_S100000x1_0_1) shapeCasts_S100000x1_S100000)⟩]

/-- The node MLP's features, samples along the columns: the three rows joined and padded with 96 zero columns. -/
def nodeFeatures (x : (⟨S100000x5, .f32⟩ : BufTy).Contents (Elt F)) (a : (⟨S100000x2, .f32⟩ : BufTy).Contents (Elt F)) :
    (⟨S3x100096, .f32⟩ : BufTy).Contents (Elt F) :=
  pad S3x100096 ![0, 0] ![0, 96] ![0, 0]
    (concatenate S3x100000 0 (nodeRows x a) concatenates_S1x100000_S1x100000_S1x100000_S3x100000_d0)
    (sitofp .f32 (constantI S_ 32 0#32)) pads_S3x100000_S3x100096_000_0960 h_S_

/-- The edge MLP's features, samples along the columns: the per-edge concentration and absolute coefficient as two rows. -/
def edgeFeatures (conc : (⟨S100000, .f32⟩ : BufTy).Contents (Elt F)) (sto : (⟨S4000000, .f32⟩ : BufTy).Contents (Elt F))
    (metSub subToAll : (⟨S2000000, .i32⟩ : BufTy).Contents (Elt F)) : (⟨S2x2000000, .f32⟩ : BufTy).Contents (Elt F) :=
  concatenate S2x2000000 0
    [⟨S1x2000000, broadcastInDim S1x2000000 ![1] bcast_S2000000_S1x2000000_1 (gatherConc conc metSub)⟩,
     ⟨S1x2000000, broadcastInDim S1x2000000 ![1] bcast_S2000000_S1x2000000_1 (absGather sto subToAll)⟩]
    concatenates_S1x2000000_S1x2000000_S2x2000000_d0

/-- The per-reaction sums of the messages. -/
def perReaction (msg : (⟨S2000000, .f32⟩ : BufTy).Contents (Elt F)) (rxnSub : (⟨S2000000, .i32⟩ : BufTy).Contents (Elt F)) :
    (⟨S500000, .f32⟩ : BufTy).Contents (Elt F) :=
  Host.scatterAdd scatter_S500000_S2000000x1_S2000000_n_0_0_1
    (broadcastInDim S500000 ![] bcast_S_S500000 (constant S_ .f32 0x00000000#32))
    (broadcastInDim S2000000x1 ![0] bcast_S2000000_S2000000x1_0 rxnSub) msg

/-- softplus as the host computes it (with its guard on a sum that is not a number). -/
def softplus (z : (⟨S500000, .f32⟩ : BufTy).Contents (Elt F)) : (⟨S500000, .f32⟩ : BufTy).Contents (Elt F) :=
  select
    (cmpf .une (subf z (broadcastInDim S500000 ![] bcast_S_S500000 (constant S_ .f32 0x00000000#32)))
      (subf z (broadcastInDim S500000 ![] bcast_S_S500000 (constant S_ .f32 0x00000000#32))))
    (addf z (broadcastInDim S500000 ![] bcast_S_S500000 (constant S_ .f32 0x00000000#32)))
    (addf (maximumf z (broadcastInDim S500000 ![] bcast_S_S500000 (constant S_ .f32 0x00000000#32)))
      (Host.log1p (Host.exp (Host.negf (Host.absf
        (subf z (broadcastInDim S500000 ![] bcast_S_S500000 (constant S_ .f32 0x00000000#32))))))))

/-- From the messages and the homeostasis term to the result column. -/
def tail (msg : (⟨S2000000, .f32⟩ : BufTy).Contents (Elt F)) (homeo : (⟨S100000, .f32⟩ : BufTy).Contents (Elt F))
    (sto : (⟨S4000000, .f32⟩ : BufTy).Contents (Elt F)) (logk : (⟨S500000, .f32⟩ : BufTy).Contents (Elt F))
    (rxnSub : (⟨S2000000, .i32⟩ : BufTy).Contents (Elt F)) (metAll rxnAll : (⟨S4000000, .i32⟩ : BufTy).Contents (Elt F)) :
    (⟨S100000x1, .f32⟩ : BufTy).Contents (Elt F) :=
  broadcastInDim S100000x1 ![0] bcast_S100000_S100000x1_0
    (addf
      (Host.scatterAdd scatter_S100000_S4000000x1_S4000000_n_0_0_1
        (broadcastInDim S100000 ![] bcast_S_S100000 (constant S_ .f32 0x00000000#32))
        (broadcastInDim S4000000x1 ![0] bcast_S4000000_S4000000x1_0 metAll)
        (mulf sto
          (Host.gather gather_S500000_S4000000x1_S4000000_n_0_n_n_0_1_1
            (mulf (Host.powf (broadcastInDim S500000 ![] bcast_S_S500000 (constant S_ .f32 0x41200000#32)) logk)
              (softplus (perReaction msg rxnSub)))
            (broadcastInDim S4000000x1 ![0] bcast_S4000000_S4000000x1_0
              (select (cmpi .slt rxnAll (broadcastInDim S4000000 ![] bcast_S_S4000000 (constantI S_ 32 0#32)))
                (addi rxnAll (broadcastInDim S4000000 ![] bcast_S_S4000000 (constantI S_ 32 500000#32))) rxnAll)))))
      homeo)

/-- The last stretch: from the rate's two factors and the homeostasis term to the result column. -/
def finish (p sp : (⟨S500000, .f32⟩ : BufTy).Contents (Elt F)) (homeo : (⟨S100000, .f32⟩ : BufTy).Contents (Elt F))
    (sto : (⟨S4000000, .f32⟩ : BufTy).Contents (Elt F)) (metAll rxnAll : (⟨S4000000, .i32⟩ : BufTy).Contents (Elt F)) :
    (⟨S100000x1, .f32⟩ : BufTy).Contents (Elt F) :=
  broadcastInDim S100000x1 ![0] bcast_S100000_S100000x1_0
    (addf
      (Host.scatterAdd scatter_S100000_S4000000x1_S4000000_n_0_0_1
        (broadcastInDim S100000 ![] bcast_S_S100000 (constant S_ .f32 0x00000000#32))
        (broadcastInDim S4000000x1 ![0] bcast_S4000000_S4000000x1_0 metAll)
        (mulf sto
          (Host.gather gather_S500000_S4000000x1_S4000000_n_0_n_n_0_1_1 (mulf p sp)
            (broadcastInDim S4000000x1 ![0] bcast_S4000000_S4000000x1_0
              (select (cmpi .slt rxnAll (broadcastInDim S4000000 ![] bcast_S_S4000000 (constantI S_ 32 0#32)))
                (addi rxnAll (broadcastInDim S4000000 ![] bcast_S_S4000000 (constantI S_ 32 500000#32))) rxnAll)))))
      homeo)

/-- The result column is the last stretch applied to the rate's two factors. -/
theorem tail_eq (msg : (⟨S2000000, .f32⟩ : BufTy).Contents (Elt F)) (homeo : (⟨S100000, .f32⟩ : BufTy).Contents (Elt F))
    (sto : (⟨S4000000, .f32⟩ : BufTy).Contents (Elt F)) (logk : (⟨S500000, .f32⟩ : BufTy).Contents (Elt F))
    (rxnSub : (⟨S2000000, .i32⟩ : BufTy).Contents (Elt F)) (metAll rxnAll : (⟨S4000000, .i32⟩ : BufTy).Contents (Elt F)) :
    tail msg homeo sto logk rxnSub metAll rxnAll
      = finish (Host.powf (broadcastInDim S500000 ![] bcast_S_S500000 (constant S_ .f32 0x41200000#32)) logk)
          (softplus (perReaction msg rxnSub)) homeo sto metAll rxnAll := rfl

end Cert.Glue

end
-- ==== Proof.Stages.lean ====
/-
  What the kernel program's host operations compute, stretch by stretch, from ANY contents `W` of the core's buffers:
  the padded 3 × 100096 feature array and the transposed weights the node MLP's region is handed; the 2 × 2000000
  feature array, the transposed weights and the homeostasis vector (the first 100000 entries of the node MLP's output)
  that the stretch between the two regions leaves; and the result column the last three stretches compute from the edge
  MLP's output. Each is the composition of the operations' functions, read off the operation lists.
-/
import proofs.«106456_j29411936043039_1_alg».proof.Proof.Glue
import proofs.«106456_j29411936043039_1_alg».proof.Proof.Gen.KernelIdeal.Regions
import Idealize.ShloMosaic.Lib.StableHlo.Run

noncomputable section

namespace Cert.KernelIdeal.Stages

open Cert.KernelIdeal Cert.KernelIdeal.Gen Cert.Glue Idealize.ShloMosaic Idealize.ShloMosaic.TcCoe Idealize.ShloMosaic.StableHlo

variable {F : FTy → Type} [FloatOps F]

/-- A three-operand operation's result with each operand's contents at its own reference (the library states this for four
    operands; its rewriting loop does not reach under the binder of the general form). -/
theorem nary3_result {Val : EltTy → Type} {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- Read one buffer after a literal list of operations: each operation's result at its own buffer is its function's
    value, at any other buffer what was there. -/
macro "stage_results" : tactic =>
  `(tactic| (simp only [after_cons, after_nil]
             repeat (first
               | rw [nullary_result] | rw [unary_result] | rw [binary_result] | rw [ternary_result]
               | rw [reshape_result] | rw [nary3_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

variable (W : Valuation τ sig (Elt F))

/-! ## Before the node MLP's region -/

abbrev pre (W : Valuation τ sig (Elt F)) : Valuation τ sig (Elt F) :=
  StableHlo.after hostOps0_2 (StableHlo.after hostOps0_1 (StableHlo.after hostOps0 W))

theorem pre_features : pre W (Proc.devRef .tc main_v10) = nodeFeatures (W main_arg0) (W main_arg1) := by
  show StableHlo.after hostOps0_2 _ (Proc.devRef .tc main_v10) = _
  rw [StableHlo.after_of_writes_sub hostOps0_2 _ hostOps0_2_writes (by decide)]
  show StableHlo.after hostOps0_1 _ (Proc.devRef .tc main_v10) = _
  stage_results
  rfl

/-- The concentration vector is computed by the first stretch and not written again. -/
theorem pre_conc : pre W (Proc.devRef .tc main_v1) = concOf (W main_arg0) := by
  show StableHlo.after hostOps0_2 _ (Proc.devRef .tc main_v1) = _
  rw [StableHlo.after_of_writes_sub hostOps0_2 _ hostOps0_2_writes (by decide),
    StableHlo.after_of_writes_sub hostOps0_1 _ hostOps0_1_writes (by decide)]
  stage_results
  rfl

/-- The node MLP's weights are handed to its region transposed. -/
theorem pre_w0 : pre W (Proc.devRef .tc main_v11) = transpose S64x3 [1, 0] (W main_arg10) transposes_S3x64_S64x3_1_0 := by
  show StableHlo.after hostOps0_2 _ (Proc.devRef .tc main_v11) = _
  stage_results
theorem pre_w1 : pre W (Proc.devRef .tc main_v12) = transpose S64x64 [1, 0] (W main_arg12) transposes_S64x64_S64x64_1_0 := by
  show StableHlo.after hostOps0_2 _ (Proc.devRef .tc main_v12) = _
  stage_results
theorem pre_w2 : pre W (Proc.devRef .tc main_v13) = transpose S1x64 [1, 0] (W main_arg14) transposes_S64x1_S1x64_1_0 := by
  show StableHlo.after hostOps0_2 _ (Proc.devRef .tc main_v13) = _
  stage_results

/-- A buffer the three stretches do not write is as before them. -/
theorem pre_of (r : Ref sig .tc) (h0 : r ∉ hostOps0_W) (h1 : r ∉ hostOps0_1_W) (h2 : r ∉ hostOps0_2_W) :
    pre W (Proc.devRef .tc r) = W (Proc.devRef .tc r) := by
  show StableHlo.after hostOps0_2 _ (Proc.devRef .tc r) = _
  rw [StableHlo.after_of_writes_sub hostOps0_2 _ hostOps0_2_writes h2,
    StableHlo.after_of_writes_sub hostOps0_1 _ hostOps0_1_writes h1,
    StableHlo.after_of_writes_sub hostOps0 _ hostOps0_writes h0]

/-! ## Between the two regions -/

set_option maxHeartbeats 1000000 in
theorem mid_features : StableHlo.after hostOps1 W (Proc.devRef .tc main_v34)
    = edgeFeatures (W main_v1) (W main_arg2) (W main_arg16) (W main_arg18) := by
  after_results_simp
  rfl

/-- The homeostasis vector: the first 100000 entries of the node MLP's one output row. -/
theorem mid_homeo : StableHlo.after hostOps1 W (Proc.devRef .tc main_v16)
    = shapeCast S100000 (extractStridedSlice S1x100000 ![0, 0] (W main_v14) slices_S1x100096_S1x100000_0_0) shapeCasts_S1x100000_S100000 := by
  after_results_simp
  rfl

theorem mid_w0 : StableHlo.after hostOps1 W (Proc.devRef .tc main_v35) = transpose S64x2 [1, 0] (W main_arg4) transposes_S2x64_S64x2_1_0 := by
  after_results_simp
theorem mid_w1 : StableHlo.after hostOps1 W (Proc.devRef .tc main_v36) = transpose S64x64 [1, 0] (W main_arg6) transposes_S64x64_S64x64_1_0 := by
  after_results_simp
theorem mid_w2 : StableHlo.after hostOps1 W (Proc.devRef .tc main_v37) = transpose S1x64 [1, 0] (W main_arg8) transposes_S64x1_S1x64_1_0 := by
  after_results_simp

/-! ## After the edge MLP's region -/

set_option maxHeartbeats 1000000 in
theorem last_result : StableHlo.after hostOps2_2 W (Proc.devRef .tc main_v59)
    = finish (W main_v44) (W main_v45) (W main_v16) (W main_arg2) (W main_arg19) (W main_arg20) := by
  after_results_simp
  rfl

set_option maxHeartbeats 1000000 in
theorem softplus_result : StableHlo.after hostOps2_1 W (Proc.devRef .tc main_v45) = softplus (W main_v42) := by
  after_results_simp
  rfl

set_option maxHeartbeats 1000000 in
theorem sums_result : StableHlo.after hostOps2 W (Proc.devRef .tc main_v42)
    = perReaction (shapeCast S2000000 (W main_v38) shapeCasts_S1x2000000_S2000000) (W main_arg17) := by
  after_results_simp
  rfl

theorem pow_result : StableHlo.after hostOps2 W (Proc.devRef .tc main_v44)
    = Host.powf (broadcastInDim S500000 ![] bcast_S_S500000 (constant S_ .f32 0x41200000#32)) (W main_arg3) := by
  after_results_simp

end Cert.KernelIdeal.Stages

end
-- ==== Proof.KernelValue.lean ====
/-
  The kernel program's result, read off its run: the last contents of the fold at the result buffer, followed back
  through the nine items — the last three stretches applied to the edge MLP's output array and the homeostasis vector,
  the edge MLP's output array as the perceptron of its feature columns, those features computed by the middle stretch
  from the arguments, the homeostasis vector as the first 100000 entries of the node MLP's output array, and that array
  as the perceptron of the node features the first stretches compute from the arguments.
-/
import proofs.«106456_j29411936043039_1_alg».proof.Proof.Segments
import proofs.«106456_j29411936043039_1_alg».proof.Proof.NodeArray
import proofs.«106456_j29411936043039_1_alg».proof.Proof.EdgeArray
import proofs.«106456_j29411936043039_1_alg».proof.Proof.Stages

set_option maxRecDepth 16384

noncomputable section

namespace Cert.KernelIdeal.Result

open Idealize.ShloMosaic Idealize.ShloMosaic.TcCoe Idealize.SL.Sem
open Cert.KernelIdeal Cert.KernelIdeal.Gen Cert.KernelIdeal.Regions Cert.KernelIdeal.Stages Cert.Glue

variable (m : (ℓ : Loc nD τ sig) → Buf (Elt Ideal) ℓ)

/-! ## The arguments at each stage -/

theorem arg10_at3 (c : Dev nD) : V3 m c main_arg10 = m ((c : Thread nD τ).loc main_arg10) :=
  (V3_of m c main_arg10 (by decide)).trans <| (V2_of m c main_arg10 (by decide)).trans <| (V1_of m c main_arg10 (by decide)).trans rfl
theorem arg11_at3 (c : Dev nD) : V3 m c main_arg11 = m ((c : Thread nD τ).loc main_arg11) :=
  (V3_of m c main_arg11 (by decide)).trans <| (V2_of m c main_arg11 (by decide)).trans <| (V1_of m c main_arg11 (by decide)).trans rfl
theorem arg12_at3 (c : Dev nD) : V3 m c main_arg12 = m ((c : Thread nD τ).loc main_arg12) :=
  (V3_of m c main_arg12 (by decide)).trans <| (V2_of m c main_arg12 (by decide)).trans <| (V1_of m c main_arg12 (by decide)).trans rfl
theorem arg13_at3 (c : Dev nD) : V3 m c main_arg13 = m ((c : Thread nD τ).loc main_arg13) :=
  (V3_of m c main_arg13 (by decide)).trans <| (V2_of m c main_arg13 (by decide)).trans <| (V1_of m c main_arg13 (by decide)).trans rfl
theorem arg14_at3 (c : Dev nD) : V3 m c main_arg14 = m ((c : Thread nD τ).loc main_arg14) :=
  (V3_of m c main_arg14 (by decide)).trans <| (V2_of m c main_arg14 (by decide)).trans <| (V1_of m c main_arg14 (by decide)).trans rfl
theorem arg15_at3 (c : Dev nD) : V3 m c main_arg15 = m ((c : Thread nD τ).loc main_arg15) :=
  (V3_of m c main_arg15 (by decide)).trans <| (V2_of m c main_arg15 (by decide)).trans <| (V1_of m c main_arg15 (by decide)).trans rfl
theorem arg0_at3 (c : Dev nD) : V3 m c main_arg0 = m ((c : Thread nD τ).loc main_arg0) :=
  (V3_of m c main_arg0 (by decide)).trans <| (V2_of m c main_arg0 (by decide)).trans <| (V1_of m c main_arg0 (by decide)).trans rfl
theorem arg1_at3 (c : Dev nD) : V3 m c main_arg1 = m ((c : Thread nD τ).loc main_arg1) :=
  (V3_of m c main_arg1 (by decide)).trans <| (V2_of m c main_arg1 (by decide)).trans <| (V1_of m c main_arg1 (by decide)).trans rfl
theorem arg0_at4 (c : Dev nD) : V4 m (outsNode m) c main_arg0 = m ((c : Thread nD τ).loc main_arg0) :=
  (V4_of m (outsNode m) c main_arg0 (by decide)).trans <| (V3_of m c main_arg0 (by decide)).trans <| (V2_of m c main_arg0 (by decide)).trans <| (V1_of m c main_arg0 (by decide)).trans rfl
theorem arg2_at4 (c : Dev nD) : V4 m (outsNode m) c main_arg2 = m ((c : Thread nD τ).loc main_arg2) :=
  (V4_of m (outsNode m) c main_arg2 (by decide)).trans <| (V3_of m c main_arg2 (by decide)).trans <| (V2_of m c main_arg2 (by decide)).trans <| (V1_of m c main_arg2 (by decide)).trans rfl
theorem arg4_at4 (c : Dev nD) : V4 m (outsNode m) c main_arg4 = m ((c : Thread nD τ).loc main_arg4) :=
  (V4_of m (outsNode m) c main_arg4 (by decide)).trans <| (V3_of m c main_arg4 (by decide)).trans <| (V2_of m c main_arg4 (by decide)).trans <| (V1_of m c main_arg4 (by decide)).trans rfl
theorem arg5_at4 (c : Dev nD) : V4 m (outsNode m) c main_arg5 = m ((c : Thread nD τ).loc main_arg5) :=
  (V4_of m (outsNode m) c main_arg5 (by decide)).trans <| (V3_of m c main_arg5 (by decide)).trans <| (V2_of m c main_arg5 (by decide)).trans <| (V1_of m c main_arg5 (by decide)).trans rfl
theorem arg6_at4 (c : Dev nD) : V4 m (outsNode m) c main_arg6 = m ((c : Thread nD τ).loc main_arg6) :=
  (V4_of m (outsNode m) c main_arg6 (by decide)).trans <| (V3_of m c main_arg6 (by decide)).trans <| (V2_of m c main_arg6 (by decide)).trans <| (V1_of m c main_arg6 (by decide)).trans rfl
theorem arg7_at4 (c : Dev nD) : V4 m (outsNode m) c main_arg7 = m ((c : Thread nD τ).loc main_arg7) :=
  (V4_of m (outsNode m) c main_arg7 (by decide)).trans <| (V3_of m c main_arg7 (by decide)).trans <| (V2_of m c main_arg7 (by decide)).trans <| (V1_of m c main_arg7 (by decide)).trans rfl
theorem arg8_at4 (c : Dev nD) : V4 m (outsNode m) c main_arg8 = m ((c : Thread nD τ).loc main_arg8) :=
  (V4_of m (outsNode m) c main_arg8 (by decide)).trans <| (V3_of m c main_arg8 (by decide)).trans <| (V2_of m c main_arg8 (by decide)).trans <| (V1_of m c main_arg8 (by decide)).trans rfl
theorem arg9_at4 (c : Dev nD) : V4 m (outsNode m) c main_arg9 = m ((c : Thread nD τ).loc main_arg9) :=
  (V4_of m (outsNode m) c main_arg9 (by decide)).trans <| (V3_of m c main_arg9 (by decide)).trans <| (V2_of m c main_arg9 (by decide)).trans <| (V1_of m c main_arg9 (by decide)).trans rfl
theorem arg16_at4 (c : Dev nD) : V4 m (outsNode m) c main_arg16 = m ((c : Thread nD τ).loc main_arg16) :=
  (V4_of m (outsNode m) c main_arg16 (by decide)).trans <| (V3_of m c main_arg16 (by decide)).trans <| (V2_of m c main_arg16 (by decide)).trans <| (V1_of m c main_arg16 (by decide)).trans rfl
theorem arg18_at4 (c : Dev nD) : V4 m (outsNode m) c main_arg18 = m ((c : Thread nD τ).loc main_arg18) :=
  (V4_of m (outsNode m) c main_arg18 (by decide)).trans <| (V3_of m c main_arg18 (by decide)).trans <| (V2_of m c main_arg18 (by decide)).trans <| (V1_of m c main_arg18 (by decide)).trans rfl
theorem arg5_at5 (c : Dev nD) : V5 m (outsNode m) c main_arg5 = m ((c : Thread nD τ).loc main_arg5) :=
  (V5_of m (outsNode m) c main_arg5 (by decide)).trans (arg5_at4 m c)
theorem arg7_at5 (c : Dev nD) : V5 m (outsNode m) c main_arg7 = m ((c : Thread nD τ).loc main_arg7) :=
  (V5_of m (outsNode m) c main_arg7 (by decide)).trans (arg7_at4 m c)
theorem arg9_at5 (c : Dev nD) : V5 m (outsNode m) c main_arg9 = m ((c : Thread nD τ).loc main_arg9) :=
  (V5_of m (outsNode m) c main_arg9 (by decide)).trans (arg9_at4 m c)
theorem arg3_at6 (c : Dev nD) : V6 m (outsBoth m) c main_arg3 = m ((c : Thread nD τ).loc main_arg3) :=
  (V6_of m (outsBoth m) c main_arg3 (by decide)).trans <| (V5_of m (outsBoth m) c main_arg3 (by decide)).trans <| (V4_of m (outsBoth m) c main_arg3 (by decide)).trans <| (V3_of m c main_arg3 (by decide)).trans <| (V2_of m c main_arg3 (by decide)).trans <| (V1_of m c main_arg3 (by decide)).trans rfl
theorem arg17_at6 (c : Dev nD) : V6 m (outsBoth m) c main_arg17 = m ((c : Thread nD τ).loc main_arg17) :=
  (V6_of m (outsBoth m) c main_arg17 (by decide)).trans <| (V5_of m (outsBoth m) c main_arg17 (by decide)).trans <| (V4_of m (outsBoth m) c main_arg17 (by decide)).trans <| (V3_of m c main_arg17 (by decide)).trans <| (V2_of m c main_arg17 (by decide)).trans <| (V1_of m c main_arg17 (by decide)).trans rfl
theorem arg2_at8 (c : Dev nD) : V8 m (outsBoth m) c main_arg2 = m ((c : Thread nD τ).loc main_arg2) :=
  (V8_of m (outsBoth m) c main_arg2 (by decide)).trans <| (V7_of m (outsBoth m) c main_arg2 (by decide)).trans <| (V6_of m (outsBoth m) c main_arg2 (by decide)).trans <| (V5_of m (outsBoth m) c main_arg2 (by decide)).trans <| (V4_of m (outsBoth m) c main_arg2 (by decide)).trans <| (V3_of m c main_arg2 (by decide)).trans <| (V2_of m c main_arg2 (by decide)).trans <| (V1_of m c main_arg2 (by decide)).trans rfl
theorem arg19_at8 (c : Dev nD) : V8 m (outsBoth m) c main_arg19 = m ((c : Thread nD τ).loc main_arg19) :=
  (V8_of m (outsBoth m) c main_arg19 (by decide)).trans <| (V7_of m (outsBoth m) c main_arg19 (by decide)).trans <| (V6_of m (outsBoth m) c main_arg19 (by decide)).trans <| (V5_of m (outsBoth m) c main_arg19 (by decide)).trans <| (V4_of m (outsBoth m) c main_arg19 (by decide)).trans <| (V3_of m c main_arg19 (by decide)).trans <| (V2_of m c main_arg19 (by decide)).trans <| (V1_of m c main_arg19 (by decide)).trans rfl
theorem arg20_at8 (c : Dev nD) : V8 m (outsBoth m) c main_arg20 = m ((c : Thread nD τ).loc main_arg20) :=
  (V8_of m (outsBoth m) c main_arg20 (by decide)).trans <| (V7_of m (outsBoth m) c main_arg20 (by decide)).trans <| (V6_of m (outsBoth m) c main_arg20 (by decide)).trans <| (V5_of m (outsBoth m) c main_arg20 (by decide)).trans <| (V4_of m (outsBoth m) c main_arg20 (by decide)).trans <| (V3_of m c main_arg20 (by decide)).trans <| (V2_of m c main_arg20 (by decide)).trans <| (V1_of m c main_arg20 (by decide)).trans rfl

/-! ## The two regions' output arrays, from the arguments -/

/-- The node MLP's output array is the perceptron, column by column, of the node features under the transposed node
    weights. -/
theorem nodeOut_eq (c : Dev nD) : nodeOut m c
    = NodeArray.wholeOut (nodeFeatures (m ((c : Thread nD τ).loc main_arg0)) (m ((c : Thread nD τ).loc main_arg1)))
        (transpose S64x3 [1, 0] (m ((c : Thread nD τ).loc main_arg10)) transposes_S3x64_S64x3_1_0) (m ((c : Thread nD τ).loc main_arg11))
        (transpose S64x64 [1, 0] (m ((c : Thread nD τ).loc main_arg12)) transposes_S64x64_S64x64_1_0) (m ((c : Thread nD τ).loc main_arg13))
        (transpose S1x64 [1, 0] (m ((c : Thread nD τ).loc main_arg14)) transposes_S64x1_S1x64_1_0) (m ((c : Thread nD τ).loc main_arg15)) := by
  unfold nodeOut
  rw [NodeArray.final (nodeEntry m) c]
  have e10 : nodeEntry m c main_v10 = nodeFeatures (m ((c : Thread nD τ).loc main_arg0)) (m ((c : Thread nD τ).loc main_arg1)) :=
    pre_features (V0 m c)
  have e11 : nodeEntry m c main_v11 = transpose S64x3 [1, 0] (m ((c : Thread nD τ).loc main_arg10)) transposes_S3x64_S64x3_1_0 := pre_w0 (V0 m c)
  have e12 : nodeEntry m c main_v12 = transpose S64x64 [1, 0] (m ((c : Thread nD τ).loc main_arg12)) transposes_S64x64_S64x64_1_0 := pre_w1 (V0 m c)
  have e13 : nodeEntry m c main_v13 = transpose S1x64 [1, 0] (m ((c : Thread nD τ).loc main_arg14)) transposes_S64x1_S1x64_1_0 := pre_w2 (V0 m c)
  have a11 : nodeEntry m c main_arg11 = m ((c : Thread nD τ).loc main_arg11) := arg11_at3 m c
  have a13 : nodeEntry m c main_arg13 = m ((c : Thread nD τ).loc main_arg13) := arg13_at3 m c
  have a15 : nodeEntry m c main_arg15 = m ((c : Thread nD τ).loc main_arg15) := arg15_at3 m c
  rw [e10, e11, e12, e13, a11, a13, a15]

/-- The edge MLP's output array is the perceptron, column by column, of the edge features under the transposed edge
    weights. -/
theorem edgeOut_eq (c : Dev nD) : edgeOut m c
    = EdgeArray.wholeOut (edgeFeatures (concOf (m ((c : Thread nD τ).loc main_arg0))) (m ((c : Thread nD τ).loc main_arg2))
          (m ((c : Thread nD τ).loc main_arg16)) (m ((c : Thread nD τ).loc main_arg18)))
        (transpose S64x2 [1, 0] (m ((c : Thread nD τ).loc main_arg4)) transposes_S2x64_S64x2_1_0) (m ((c : Thread nD τ).loc main_arg5))
        (transpose S64x64 [1, 0] (m ((c : Thread nD τ).loc main_arg6)) transposes_S64x64_S64x64_1_0) (m ((c : Thread nD τ).loc main_arg7))
        (transpose S1x64 [1, 0] (m ((c : Thread nD τ).loc main_arg8)) transposes_S64x1_S1x64_1_0) (m ((c : Thread nD τ).loc main_arg9)) := by
  unfold edgeOut
  rw [EdgeArray.final (edgeEntry m) c]
  have c1 : V4 m (outsNode m) c main_v1 = concOf (m ((c : Thread nD τ).loc main_arg0)) :=
    (V4_of m (outsNode m) c main_v1 (by decide)).trans (pre_conc (V0 m c))
  have e34 : edgeEntry m c main_v34 = edgeFeatures (concOf (m ((c : Thread nD τ).loc main_arg0))) (m ((c : Thread nD τ).loc main_arg2))
      (m ((c : Thread nD τ).loc main_arg16)) (m ((c : Thread nD τ).loc main_arg18)) := by
    refine (mid_features (V4 m (outsNode m) c)).trans ?_
    rw [c1, arg2_at4 m c, arg16_at4 m c, arg18_at4 m c]
  have e35 : edgeEntry m c main_v35 = transpose S64x2 [1, 0] (m ((c : Thread nD τ).loc main_arg4)) transposes_S2x64_S64x2_1_0 := by
    refine (mid_w0 (V4 m (outsNode m) c)).trans ?_; rw [arg4_at4 m c]
  have e36 : edgeEntry m c main_v36 = transpose S64x64 [1, 0] (m ((c : Thread nD τ).loc main_arg6)) transposes_S64x64_S64x64_1_0 := by
    refine (mid_w1 (V4 m (outsNode m) c)).trans ?_; rw [arg6_at4 m c]
  have e37 : edgeEntry m c main_v37 = transpose S1x64 [1, 0] (m ((c : Thread nD τ).loc main_arg8)) transposes_S64x1_S1x64_1_0 := by
    refine (mid_w2 (V4 m (outsNode m) c)).trans ?_; rw [arg8_at4 m c]
  have a5 : edgeEntry m c main_arg5 = m ((c : Thread nD τ).loc main_arg5) := arg5_at5 m c
  have a7 : edgeEntry m c main_arg7 = m ((c : Thread nD τ).loc main_arg7) := arg7_at5 m c
  have a9 : edgeEntry m c main_arg9 = m ((c : Thread nD τ).loc main_arg9) := arg9_at5 m c
  rw [e34, e35, e36, e37, a5, a7, a9]

/-! ## The result -/

/-- The homeostasis vector the last stretch adds: the first 100000 entries of the node MLP's output row. -/
theorem homeo_at8 (c : Dev nD) : V8 m (outsBoth m) c main_v16
    = shapeCast S100000 (extractStridedSlice S1x100000 ![0, 0] (nodeOut m c) slices_S1x100096_S1x100000_0_0) shapeCasts_S1x100000_S100000 := by
  refine ((V8_of m (outsBoth m) c main_v16 (by decide)).trans <| (V7_of m (outsBoth m) c main_v16 (by decide)).trans <| (V6_of m (outsBoth m) c main_v16 (by decide))).trans ?_
  refine (mid_homeo (V4 m (outsBoth m) c)).trans ?_
  rw [V4_v14 m (outsBoth m) c, outsBoth_v14 m 4 c]

/-- The result buffer at the end of the run: the shared tail of the two programs applied to the kernel program's
    messages and homeostasis vector. -/
theorem result_eq (c : Dev nD) : V9 m (outsBoth m) c main_v59
    = tail (shapeCast S2000000 (edgeOut m c) shapeCasts_S1x2000000_S2000000)
        (shapeCast S100000 (extractStridedSlice S1x100000 ![0, 0] (nodeOut m c) slices_S1x100096_S1x100000_0_0) shapeCasts_S1x100000_S100000)
        (m ((c : Thread nD τ).loc main_arg2)) (m ((c : Thread nD τ).loc main_arg3)) (m ((c : Thread nD τ).loc main_arg17))
        (m ((c : Thread nD τ).loc main_arg19)) (m ((c : Thread nD τ).loc main_arg20)) := by
  rw [tail_eq]
  refine (last_result (V8 m (outsBoth m) c)).trans ?_
  have p : V8 m (outsBoth m) c main_v44 = Host.powf (F := Ideal) (broadcastInDim S500000 ![] bcast_S_S500000 (constant (F := Ideal) S_ .f32 0x41200000#32))
      (m ((c : Thread nD τ).loc main_arg3)) := by
    refine ((V8_of m (outsBoth m) c main_v44 (by decide)).trans (pow_result (V6 m (outsBoth m) c))).trans ?_
    rw [arg3_at6 m c]
  have s : V8 m (outsBoth m) c main_v45 = softplus (perReaction (shapeCast S2000000 (edgeOut m c) shapeCasts_S1x2000000_S2000000)
      (m ((c : Thread nD τ).loc main_arg17))) := by
    refine (softplus_result (V7 m (outsBoth m) c)).trans ?_
    refine congrArg softplus ((sums_result (V6 m (outsBoth m) c)).trans ?_)
    rw [V6_v38 m (outsBoth m) c, outsBoth_v38 m 6 c, arg17_at6 m c]
  rw [p, s, homeo_at8 m c, arg2_at8 m c, arg19_at8 m c, arg20_at8 m c]

end Cert.KernelIdeal.Result

end
-- ==== Proof.KernelFeatures.lean ====
/-
  The kernel program's feature arrays and handed weights read at an entry: column `n` of the node features is the node's
  concentration and its two embedding entries; column `n` of the edge features is the edge's gathered concentration and
  absolute coefficient; a transposed weight matrix at (p, q) is the matrix at (q, p).
-/
import proofs.«106456_j29411936043039_1_alg».proof.Proof.Glue
import Idealize.ShloMosaic.Lib.ValueIdx
import Idealize.ShloMosaic.Lib.Pipeline.Value
import Idealize.ShloMosaic.Lib.KernelVsHost

noncomputable section

namespace Cert.Glue

open Cert.KernelIdeal Cert.KernelIdeal.Gen Idealize.ShloMosaic Idealize.ShloMosaic.ValueIdx

variable {F : FTy → Type} [FloatOps F]

/-- A vector spread along the columns of a one-row array, at (0, n): the vector at `n`. -/
theorem rowOf_apply {N : Nat} (h : (⟨1, ![N]⟩ : Shape).BroadcastsInDim ⟨2, ![1, N]⟩ (![1] : Fin 1 → Fin 2)) {α : Type}
    (v : (⟨1, ![N]⟩ : Shape).Idx → α) (z : Fin 1) (n : Fin N) :
    broadcastInDim ⟨2, ![1, N]⟩ ![1] h v (ix2 z n) = v (ix1 n) :=
  broadcastInDim_apply _ h v (ix2 z n) (ix1 n) (fun a => by
    match a with
    | ⟨0, _⟩ =>
      show n.val = if N = 1 then 0 else n.val
      split
      · next h1 => have := n.isLt; omega
      · rfl)

/-- Column `c` of a 100000 × 2 array, viewed as a vector, at `n`: the array at (n, c). -/
theorem column_apply {α : Type} (a : (⟨2, ![100000, 2]⟩ : Shape).Idx → α) (off : Nat) (c : Fin 2) (hoff : c.val = off)
    (hs : (⟨2, ![100000, 2]⟩ : Shape).Slices ![0, off] ⟨2, ![100000, 1]⟩)
    (hc : (⟨2, ![100000, 1]⟩ : Shape).ShapeCasts ⟨1, ![100000]⟩) (n : Fin 100000) :
    shapeCast ⟨1, ![100000]⟩ (extractStridedSlice ⟨2, ![100000, 1]⟩ ![0, off] a hs) hc (ix1 n) = a (ix2 n c) := by
  refine (shapeCast_apply _ hc (ix1 n) (ix2 n (0 : Fin 1)) (by
    rewrite [Shape.rowMajor_val_two, Shape.rowMajor_val_one]; show n.val * 1 + 0 = n.val; omega)).trans ?_
  exact extractStridedSlice_apply ![0, off] a hs (ix2 n (0 : Fin 1)) (ix2 n c) (fun b => by
    match b with
    | ⟨0, _⟩ => show n.val = 0 + n.val; omega
    | ⟨1, _⟩ => show c.val = off + 0; omega)

/-- A transposed matrix at (p, q) is the matrix at (q, p). -/
theorem transposed_apply {A B : Nat} {α : Type} (x : (⟨2, ![A, B]⟩ : Shape).Idx → α)
    (h : (⟨2, ![A, B]⟩ : Shape).Transposes [1, 0] ⟨2, ![B, A]⟩) (p : Fin B) (q : Fin A) :
    transpose ⟨2, ![B, A]⟩ [1, 0] x h (ix2 p q) = x (ix2 q p) :=
  transpose_apply [1, 0] x h (ix2 p q) (ix2 q p) (fun b => by match b with | ⟨0, _⟩ => rfl | ⟨1, _⟩ => rfl)

/-! ## The node features' columns -/

/-- Inside the unpadded columns the padded feature array is the three joined rows. -/
theorem nodeFeatures_inside (x : (⟨S100000x5, .f32⟩ : BufTy).Contents (Elt F)) (a : (⟨S100000x2, .f32⟩ : BufTy).Contents (Elt F))
    (f : Fin 3) (n : Fin 100000) :
    nodeFeatures x a (ix2 f (⟨n.val, by have := n.isLt; omega⟩ : Fin 100096))
      = concatenate S3x100000 0 (nodeRows x a) concatenates_S1x100000_S1x100000_S1x100000_S3x100000_d0 (ix2 f n) := by
  unfold nodeFeatures
  exact pad_apply_of_inside ![0, 0] ![0, 96] ![0, 0] _ _ pads_S3x100000_S3x100096_000_0960 h_S_
    (ix2 f (⟨n.val, by have := n.isLt; omega⟩ : Fin 100096)) (ix2 f n) (fun b => by
    match b with
    | ⟨0, _⟩ => show f.val = 0 + f.val * (0 + 1); omega
    | ⟨1, _⟩ => show n.val = 0 + n.val * (0 + 1); omega)

/-- Row 0 of the node features at column `n`: the concentration of node `n`. -/
theorem nodeFeatures_row0 (x : (⟨S100000x5, .f32⟩ : BufTy).Contents (Elt F)) (a : (⟨S100000x2, .f32⟩ : BufTy).Contents (Elt F)) (n : Fin 100000) :
    nodeFeatures x a (ix2 (0 : Fin 3) (⟨n.val, by have := n.isLt; omega⟩ : Fin 100096)) = concOf x (ix1 n) := by
  refine (nodeFeatures_inside x a 0 n).trans ?_
  refine (concatenate_apply_piece (t := S3x100000) (0 : Fin 2) (nodeRows x a) concatenates_S1x100000_S1x100000_S1x100000_S3x100000_d0 (ix2 (0 : Fin 3) n)
    0 (by show 0 < 3; decide) S1x100000 _ rfl rfl 0 rfl (ix2 (0 : Fin 1) n)
    (fun b hb => by match b, hb with | ⟨0, _⟩, hb => exact absurd rfl hb | ⟨1, _⟩, _ => rfl) rfl).trans ?_
  exact rowOf_apply bcast_S100000_S1x100000_1 _ 0 n

/-- Rows 1 and 2 of the node features at column `n`: the two embedding entries of node `n`. -/
theorem nodeFeatures_row1 (x : (⟨S100000x5, .f32⟩ : BufTy).Contents (Elt F)) (a : (⟨S100000x2, .f32⟩ : BufTy).Contents (Elt F)) (n : Fin 100000) :
    nodeFeatures x a (ix2 (1 : Fin 3) (⟨n.val, by have := n.isLt; omega⟩ : Fin 100096)) = a (ix2 n (0 : Fin 2)) := by
  refine (nodeFeatures_inside x a 1 n).trans ?_
  refine (concatenate_apply_piece (t := S3x100000) (0 : Fin 2) (nodeRows x a) concatenates_S1x100000_S1x100000_S1x100000_S3x100000_d0 (ix2 (1 : Fin 3) n)
    1 (by show 1 < 3; decide) S1x100000 _ rfl rfl 1 rfl (ix2 (0 : Fin 1) n)
    (fun b hb => by match b, hb with | ⟨0, _⟩, hb => exact absurd rfl hb | ⟨1, _⟩, _ => rfl) rfl).trans ?_
  exact (rowOf_apply bcast_S100000_S1x100000_1 _ 0 n).trans (column_apply a 0 0 rfl _ _ n)
theorem nodeFeatures_row2 (x : (⟨S100000x5, .f32⟩ : BufTy).Contents (Elt F)) (a : (⟨S100000x2, .f32⟩ : BufTy).Contents (Elt F)) (n : Fin 100000) :
    nodeFeatures x a (ix2 (2 : Fin 3) (⟨n.val, by have := n.isLt; omega⟩ : Fin 100096)) = a (ix2 n (1 : Fin 2)) := by
  refine (nodeFeatures_inside x a 2 n).trans ?_
  refine (concatenate_apply_piece (t := S3x100000) (0 : Fin 2) (nodeRows x a) concatenates_S1x100000_S1x100000_S1x100000_S3x100000_d0 (ix2 (2 : Fin 3) n)
    2 (by show 2 < 3; decide) S1x100000 _ rfl rfl 2 rfl (ix2 (0 : Fin 1) n)
    (fun b hb => by match b, hb with | ⟨0, _⟩, hb => exact absurd rfl hb | ⟨1, _⟩, _ => rfl) rfl).trans ?_
  exact (rowOf_apply bcast_S100000_S1x100000_1 _ 0 n).trans (column_apply a 1 1 rfl _ _ n)

/-! ## The edge features' columns -/

/-- Row 0 of the edge features at column `n`: the gathered concentration of edge `n`. -/
theorem edgeFeatures_row0 (conc : (⟨S100000, .f32⟩ : BufTy).Contents (Elt F)) (sto : (⟨S4000000, .f32⟩ : BufTy).Contents (Elt F))
    (ms sa : (⟨S2000000, .i32⟩ : BufTy).Contents (Elt F)) (n : Fin 2000000) :
    edgeFeatures conc sto ms sa (ix2 (0 : Fin 2) n) = gatherConc conc ms (ix1 n) := by
  unfold edgeFeatures
  refine (concatenate_pair_apply_left (t := S2x2000000) (s₁ := S1x2000000) (s₂ := S1x2000000) (0 : Fin 2) _ _
    concatenates_S1x2000000_S1x2000000_S2x2000000_d0 (ix2 (0 : Fin 2) n) rfl (ix2 (0 : Fin 1) n)
    (fun b => by match b with | ⟨0, _⟩ => rfl | ⟨1, _⟩ => rfl)).trans ?_
  exact rowOf_apply bcast_S2000000_S1x2000000_1 _ 0 n

/-- Row 1 of the edge features at column `n`: the absolute coefficient of edge `n`. -/
theorem edgeFeatures_row1 (conc : (⟨S100000, .f32⟩ : BufTy).Contents (Elt F)) (sto : (⟨S4000000, .f32⟩ : BufTy).Contents (Elt F))
    (ms sa : (⟨S2000000, .i32⟩ : BufTy).Contents (Elt F)) (n : Fin 2000000) :
    edgeFeatures conc sto ms sa (ix2 (1 : Fin 2) n) = absGather sto sa (ix1 n) := by
  unfold edgeFeatures
  refine (concatenate_pair_apply_right (t := S2x2000000) (s₁ := S1x2000000) (s₂ := S1x2000000) (0 : Fin 2) _ _
    concatenates_S1x2000000_S1x2000000_S2x2000000_d0 (ix2 (1 : Fin 2) n) rfl rfl (ix2 (0 : Fin 1) n)
    (fun b hb => by match b, hb with | ⟨0, _⟩, hb => exact absurd rfl hb | ⟨1, _⟩, _ => rfl) rfl).trans ?_
  exact rowOf_apply bcast_S2000000_S1x2000000_1 _ 0 n

end Cert.Glue

end
-- ==== Proof.RefMlp.lean ====
/-
  The reference's two perceptrons read at a sample: the homeostasis term of node `n` and the message of edge `n`, each
  as the three-layer perceptron of that sample's row of features. Each layer of the reference is a product of the
  samples' rows with a weight matrix (a sum of products over the extended reals), plus the bias repeated over the rows,
  through tanh; the last layer's single column is then viewed as a vector.
-/
import proofs.«106456_j29411936043039_1_alg».proof.Proof.Gen.ReferenceIdeal.Read
import proofs.«106456_j29411936043039_1_alg».proof.Proof.MlpSpec
import Idealize.ShloMosaic.Lib.ValueIdx

noncomputable section

namespace Cert.ReferenceIdeal.RefValue

open Cert.ReferenceIdeal Cert.ReferenceIdeal.Read Idealize.ShloMosaic Idealize.ShloMosaic.ValueIdx Cert.Mlp

/-- A rank-2 index with known coordinates. -/
theorem idx2 {n0 n1 : Nat} (j : (⟨2, ![n0, n1]⟩ : Shape).Idx) (p : Fin n0) (q : Fin n1) (h0 : (j 0).val = p.val) (h1 : (j 1).val = q.val) :
    j = ix2 p q := funext fun a => Fin.ext (by match a with | ⟨0, _⟩ => exact h0 | ⟨1, _⟩ => exact h1)
/-- A rank-1 index with a known coordinate. -/
theorem idx1 {n : Nat} (j : (⟨1, ![n]⟩ : Shape).Idx) (p : Fin n) (h0 : (j 0).val = p.val) : j = ix1 p :=
  funext fun a => Fin.ext (by match a with | ⟨0, _⟩ => exact h0)

/-- The homeostasis term of node `n`: the perceptron of row `n` of the node features under the node weights. -/
theorem homeo_apply (x0 : (⟨S100000x5, .f32⟩ : BufTy).Contents (Elt Ideal)) (x1 : (⟨S100000x2, .f32⟩ : BufTy).Contents (Elt Ideal)) (x10 : (⟨S3x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x14 : (⟨S64x1, .f32⟩ : BufTy).Contents (Elt Ideal)) (x15 : (⟨S1, .f32⟩ : BufTy).Contents (Elt Ideal)) (n : Fin 100000) :
    val_main_v18 (F := Ideal) x0 x1 x10 x11 x12 x13 x14 x15 (ix1 n)
      = mlp3 (fun f : Fin 3 => val_main_v3 (F := Ideal) x0 x1 (ix2 n f)) (fun f b => x10 (ix2 f b)) (fun b => x11 (ix1 b))
          (fun b a => x12 (ix2 b a)) (fun a => x13 (ix1 a)) (fun a => x14 (ix2 a (0 : Fin 1))) (x15 (ix1 (0 : Fin 1))) := by
  unfold mlp3
  rw [val_main_v18_apply, val_main_v17_apply, val_main_v14_apply, val_main_v16_apply, val_main_v15_apply]
  refine congrArg₂ (· + ·) (Finset.sum_congr rfl fun a _ => congrArg₂ (· * ·) ?_ (congrArg x14 (idx2 _ _ _ rfl rfl)))
    (congrArg x15 (idx1 _ _ rfl))
  rw [val_main_v13_apply, val_main_v12_apply, val_main_v9_apply, val_main_v11_apply, val_main_v10_apply]
  refine congrArg Ideal.tanh (congrArg₂ (· + ·) (Finset.sum_congr rfl fun b _ => congrArg₂ (· * ·) ?_ (congrArg x12 (idx2 _ _ _ rfl rfl)))
    (congrArg x13 (idx1 _ _ rfl)))
  rw [val_main_v8_apply, val_main_v7_apply, val_main_v4_apply, val_main_v6_apply, val_main_v5_apply]
  exact congrArg Ideal.tanh (congrArg₂ (· + ·) (Finset.sum_congr rfl fun f _ => congrArg₂ (· * ·)
      (congrArg (val_main_v3 (F := Ideal) x0 x1) (idx2 _ _ _ (Nat.div_one _) rfl)) (congrArg x10 (idx2 _ _ _ rfl rfl)))
    (congrArg x11 (idx1 _ _ rfl)))

/-- The message of edge `n`: the perceptron of row `n` of the edge features under the edge weights. -/
theorem message_apply (x0 : (⟨S100000x5, .f32⟩ : BufTy).Contents (Elt Ideal)) (x2 : (⟨S4000000, .f32⟩ : BufTy).Contents (Elt Ideal)) (x4 : (⟨S2x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x1, .f32⟩ : BufTy).Contents (Elt Ideal)) (x9 : (⟨S1, .f32⟩ : BufTy).Contents (Elt Ideal)) (x16 : (⟨S2000000, .i32⟩ : BufTy).Contents (Elt Ideal)) (x18 : (⟨S2000000, .i32⟩ : BufTy).Contents (Elt Ideal)) (n : Fin 2000000) :
    val_main_v51 (F := Ideal) x0 x2 x4 x5 x6 x7 x8 x9 x16 x18 (ix1 n)
      = mlp3 (fun f : Fin 2 => val_main_v36 (F := Ideal) x0 x2 x16 x18 (ix2 n f)) (fun f b => x4 (ix2 f b)) (fun b => x5 (ix1 b))
          (fun b a => x6 (ix2 b a)) (fun a => x7 (ix1 a)) (fun a => x8 (ix2 a (0 : Fin 1))) (x9 (ix1 (0 : Fin 1))) := by
  unfold mlp3
  rw [val_main_v51_apply, val_main_v50_apply, val_main_v47_apply, val_main_v49_apply, val_main_v48_apply]
  refine congrArg₂ (· + ·) (Finset.sum_congr rfl fun a _ => congrArg₂ (· * ·) ?_ (congrArg x8 (idx2 _ _ _ rfl rfl)))
    (congrArg x9 (idx1 _ _ rfl))
  rw [val_main_v46_apply, val_main_v45_apply, val_main_v42_apply, val_main_v44_apply, val_main_v43_apply]
  refine congrArg Ideal.tanh (congrArg₂ (· + ·) (Finset.sum_congr rfl fun b _ => congrArg₂ (· * ·) ?_ (congrArg x6 (idx2 _ _ _ rfl rfl)))
    (congrArg x7 (idx1 _ _ rfl)))
  rw [val_main_v41_apply, val_main_v40_apply, val_main_v37_apply, val_main_v39_apply, val_main_v38_apply]
  exact congrArg Ideal.tanh (congrArg₂ (· + ·) (Finset.sum_congr rfl fun f _ => congrArg₂ (· * ·)
      (congrArg (val_main_v36 (F := Ideal) x0 x2 x16 x18) (idx2 _ _ _ (Nat.div_one _) rfl)) (congrArg x4 (idx2 _ _ _ rfl rfl)))
    (congrArg x5 (idx1 _ _ rfl)))

end Cert.ReferenceIdeal.RefValue

end
-- ==== Proof.RefRows.lean ====
/-
  The reference's feature rows read at an entry. The node features of sample `n` are the concentration of node `n`
  followed by its two embedding entries (a column joined to a two-column array); the edge features of sample `n` are the
  edge's gathered concentration followed by its absolute coefficient (two columns joined).
-/
import proofs.«106456_j29411936043039_1_alg».proof.Proof.Gen.ReferenceIdeal.Read
import Idealize.ShloMosaic.Lib.ValueIdx
import Idealize.ShloMosaic.Lib.Pipeline.Value

noncomputable section

namespace Cert.ReferenceIdeal.RefRows

open Cert.ReferenceIdeal Cert.ReferenceIdeal.Gen Cert.ReferenceIdeal.Read Idealize.ShloMosaic Idealize.ShloMosaic.ValueIdx

variable {F : FTy → Type} [FloatOps F]

/-- Entry 0 of node `n`'s feature row: the concentration vector at `n`. -/
theorem nodeRow0 (x0 : (⟨S100000x5, .f32⟩ : BufTy).Contents (Elt F)) (x1 : (⟨S100000x2, .f32⟩ : BufTy).Contents (Elt F)) (n : Fin 100000) :
    val_main_v3 (F := F) x0 x1 (ix2 n (0 : Fin 3)) = val_main_v1 (F := F) x0 (ix1 n) := by
  unfold val_main_v3
  refine (concatenate_pair_apply_left (t := S100000x3) (s₁ := S100000x1) (s₂ := S100000x2) (1 : Fin 2) _ _ concatenates_S100000x1_S100000x2_S100000x3_d1 (ix2 n (0 : Fin 3)) rfl
    (ix2 n (0 : Fin 1)) (fun b => by match b with | ⟨0, _⟩ => rfl | ⟨1, _⟩ => rfl)).trans ?_
  refine (val_main_v2_apply x0 _).trans (congrArg (val_main_v1 (F := F) x0) (funext fun a => Fin.ext (by match a with | ⟨0, _⟩ => rfl)))

/-- Entries 1 and 2 of node `n`'s feature row: the node's two embedding entries. -/
theorem nodeRow1 (x0 : (⟨S100000x5, .f32⟩ : BufTy).Contents (Elt F)) (x1 : (⟨S100000x2, .f32⟩ : BufTy).Contents (Elt F)) (n : Fin 100000) :
    val_main_v3 (F := F) x0 x1 (ix2 n (1 : Fin 3)) = x1 (ix2 n (0 : Fin 2)) := by
  unfold val_main_v3
  exact concatenate_pair_apply_right (t := S100000x3) (s₁ := S100000x1) (s₂ := S100000x2) (1 : Fin 2) _ _ concatenates_S100000x1_S100000x2_S100000x3_d1 (ix2 n (1 : Fin 3)) rfl rfl
    (ix2 n (0 : Fin 2)) (fun b hb => by match b, hb with | ⟨0, _⟩, _ => rfl | ⟨1, _⟩, hb => exact absurd rfl hb) rfl
theorem nodeRow2 (x0 : (⟨S100000x5, .f32⟩ : BufTy).Contents (Elt F)) (x1 : (⟨S100000x2, .f32⟩ : BufTy).Contents (Elt F)) (n : Fin 100000) :
    val_main_v3 (F := F) x0 x1 (ix2 n (2 : Fin 3)) = x1 (ix2 n (1 : Fin 2)) := by
  unfold val_main_v3
  exact concatenate_pair_apply_right (t := S100000x3) (s₁ := S100000x1) (s₂ := S100000x2) (1 : Fin 2) _ _ concatenates_S100000x1_S100000x2_S100000x3_d1 (ix2 n (2 : Fin 3)) rfl rfl
    (ix2 n (1 : Fin 2)) (fun b hb => by match b, hb with | ⟨0, _⟩, _ => rfl | ⟨1, _⟩, hb => exact absurd rfl hb) rfl

/-- Entry 0 of edge `n`'s feature row: the gathered concentration at `n`. -/
theorem edgeRow0 (x0 : (⟨S100000x5, .f32⟩ : BufTy).Contents (Elt F)) (x2 : (⟨S4000000, .f32⟩ : BufTy).Contents (Elt F))
    (x16 x18 : (⟨S2000000, .i32⟩ : BufTy).Contents (Elt F)) (n : Fin 2000000) :
    val_main_v36 (F := F) x0 x2 x16 x18 (ix2 n (0 : Fin 2)) = val_main_v25 (F := F) x0 x16 (ix1 n) := by
  unfold val_main_v36
  refine (concatenate_pair_apply_left (t := S2000000x2) (s₁ := S2000000x1) (s₂ := S2000000x1) (1 : Fin 2) _ _ concatenates_S2000000x1_S2000000x1_S2000000x2_d1 (ix2 n (0 : Fin 2)) rfl
    (ix2 n (0 : Fin 1)) (fun b => by match b with | ⟨0, _⟩ => rfl | ⟨1, _⟩ => rfl)).trans ?_
  refine (val_main_v34_apply x0 x16 _).trans (congrArg (val_main_v25 (F := F) x0 x16) (funext fun a => Fin.ext (by match a with | ⟨0, _⟩ => rfl)))

/-- Entry 1 of edge `n`'s feature row: the absolute coefficient at `n`. -/
theorem edgeRow1 (x0 : (⟨S100000x5, .f32⟩ : BufTy).Contents (Elt F)) (x2 : (⟨S4000000, .f32⟩ : BufTy).Contents (Elt F))
    (x16 x18 : (⟨S2000000, .i32⟩ : BufTy).Contents (Elt F)) (n : Fin 2000000) :
    val_main_v36 (F := F) x0 x2 x16 x18 (ix2 n (1 : Fin 2)) = val_main_v33 (F := F) x2 x18 (ix1 n) := by
  unfold val_main_v36
  refine (concatenate_pair_apply_right (t := S2000000x2) (s₁ := S2000000x1) (s₂ := S2000000x1) (1 : Fin 2) _ _ concatenates_S2000000x1_S2000000x1_S2000000x2_d1 (ix2 n (1 : Fin 2)) rfl rfl
    (ix2 n (0 : Fin 1)) (fun b hb => by match b, hb with | ⟨0, _⟩, _ => rfl | ⟨1, _⟩, hb => exact absurd rfl hb) rfl).trans ?_
  refine (val_main_v35_apply x2 x18 _).trans (congrArg (val_main_v33 (F := F) x2 x18) (funext fun a => Fin.ext (by match a with | ⟨0, _⟩ => rfl)))

end Cert.ReferenceIdeal.RefRows

end
-- ==== Proof.RefTail.lean ====
/-
  The reference's result is the shared tail applied to its own messages and homeostasis vector: the reference's
  operations after its two perceptrons are, one for one, the operations of `Cert.Glue.tail`.
-/
import proofs.«106456_j29411936043039_1_alg».proof.Proof.Glue
import proofs.«106456_j29411936043039_1_alg».proof.Proof.Gen.ReferenceIdeal.Read

noncomputable section

namespace Cert.ReferenceIdeal.RefTail

open Idealize.ShloMosaic Cert.ReferenceIdeal Cert.ReferenceIdeal.Read Cert.Glue

variable {F : FTy → Type} [FloatOps F]

theorem result_eq (x0 : (⟨S100000x5, .f32⟩ : BufTy).Contents (Elt F)) (x1 : (⟨S100000x2, .f32⟩ : BufTy).Contents (Elt F))
    (x2 : (⟨S4000000, .f32⟩ : BufTy).Contents (Elt F)) (x3 : (⟨S500000, .f32⟩ : BufTy).Contents (Elt F))
    (x4 : (⟨S2x64, .f32⟩ : BufTy).Contents (Elt F)) (x5 : (⟨S64, .f32⟩ : BufTy).Contents (Elt F))
    (x6 : (⟨S64x64, .f32⟩ : BufTy).Contents (Elt F)) (x7 : (⟨S64, .f32⟩ : BufTy).Contents (Elt F))
    (x8 : (⟨S64x1, .f32⟩ : BufTy).Contents (Elt F)) (x9 : (⟨S1, .f32⟩ : BufTy).Contents (Elt F))
    (x10 : (⟨S3x64, .f32⟩ : BufTy).Contents (Elt F)) (x11 : (⟨S64, .f32⟩ : BufTy).Contents (Elt F))
    (x12 : (⟨S64x64, .f32⟩ : BufTy).Contents (Elt F)) (x13 : (⟨S64, .f32⟩ : BufTy).Contents (Elt F))
    (x14 : (⟨S64x1, .f32⟩ : BufTy).Contents (Elt F)) (x15 : (⟨S1, .f32⟩ : BufTy).Contents (Elt F))
    (x16 x17 x18 : (⟨S2000000, .i32⟩ : BufTy).Contents (Elt F)) (x19 x20 : (⟨S4000000, .i32⟩ : BufTy).Contents (Elt F)) :
    val_main_v71 (F := F) x0 x1 x2 x3 x4 x5 x6 x7 x8 x9 x10 x11 x12 x13 x14 x15 x16 x17 x18 x19 x20
      = tail (val_main_v51 (F := F) x0 x2 x4 x5 x6 x7 x8 x9 x16 x18) (val_main_v18 (F := F) x0 x1 x10 x11 x12 x13 x14 x15)
          x2 x3 x17 x19 x20 := rfl

end Cert.ReferenceIdeal.RefTail

end
-- ==== Proof.Bridge.lean ====
/-
  The two programs' perceptron outputs are the same arrays. For every node, the first 100000 entries of the kernel's
  node-MLP output row equal the reference's homeostasis vector; for every edge, the kernel's edge-MLP output row equals
  the reference's message vector. Both sides are the perceptron `mlp3` of the same feature row under the same weights:
  the kernel's features are the columns of its feature array and its weights the transposes of transposes.
-/
import proofs.«106456_j29411936043039_1_alg».proof.Proof.NodeArray
import proofs.«106456_j29411936043039_1_alg».proof.Proof.EdgeArray
import proofs.«106456_j29411936043039_1_alg».proof.Proof.KernelFeatures
import proofs.«106456_j29411936043039_1_alg».proof.Proof.RefMlp
import proofs.«106456_j29411936043039_1_alg».proof.Proof.RefRows
import proofs.«106456_j29411936043039_1_alg».proof.Proof.RefTail

set_option maxRecDepth 16384

noncomputable section

namespace Cert.Bridge

open Idealize.ShloMosaic Idealize.ShloMosaic.ValueIdx
open Cert.KernelIdeal Cert.KernelIdeal.Gen Cert.Glue Cert.Mlp

/-- The perceptron depends only on its seven arguments. -/
theorem mlp3_congr {n : ℕ} {x x' : Fin n → EReal} {W0 W0' : Fin n → Fin 64 → EReal} {b0 b0' : Fin 64 → EReal}
    {W1 W1' : Fin 64 → Fin 64 → EReal} {b1 b1' : Fin 64 → EReal} {W2 W2' : Fin 64 → EReal} {b2 b2' : EReal}
    (hx : x = x') (h0 : W0 = W0') (hb0 : b0 = b0') (h1 : W1 = W1') (hb1 : b1 = b1') (h2 : W2 = W2') (hb2 : b2 = b2') :
    mlp3 x W0 b0 W1 b1 W2 b2 = mlp3 x' W0' b0' W1' b1' W2' b2' := by
  subst hx h0 hb0 h1 hb1 h2 hb2; rfl

/-- The kernel's messages are the reference's. -/
theorem messages_eq (x0 : (⟨S100000x5, .f32⟩ : BufTy).Contents (Elt Ideal)) (x2 : (⟨S4000000, .f32⟩ : BufTy).Contents (Elt Ideal))
    (x4 : (⟨S2x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x8 : (⟨S64x1, .f32⟩ : BufTy).Contents (Elt Ideal)) (x9 : (⟨S1, .f32⟩ : BufTy).Contents (Elt Ideal))
    (x16 x18 : (⟨S2000000, .i32⟩ : BufTy).Contents (Elt Ideal)) :
    shapeCast S2000000
      (EdgeArray.wholeOut (edgeFeatures (concOf x0) x2 x16 x18) (transpose S64x2 [1, 0] x4 transposes_S2x64_S64x2_1_0) x5
        (transpose S64x64 [1, 0] x6 transposes_S64x64_S64x64_1_0) x7 (transpose S1x64 [1, 0] x8 transposes_S64x1_S1x64_1_0) x9)
      shapeCasts_S1x2000000_S2000000
    = Cert.ReferenceIdeal.Read.val_main_v51 (F := Ideal) x0 x2 x4 x5 x6 x7 x8 x9 x16 x18 := by
  funext i
  obtain ⟨e, rfl⟩ : ∃ e : Fin 2000000, i = ix1 e := ⟨i 0, eq_ix1 i⟩
  refine Eq.trans ?_ (Cert.ReferenceIdeal.RefValue.message_apply x0 x2 x4 x5 x6 x7 x8 x9 x16 x18 e).symm
  refine (shapeCast_apply _ shapeCasts_S1x2000000_S2000000 (ix1 e) (ix2 (0 : Fin 1) e) (by
    rewrite [Shape.rowMajor_val_two, Shape.rowMajor_val_one]; show (0 : ℕ) * 2000000 + e.val = e.val; omega)).trans ?_
  unfold EdgeArray.wholeOut
  refine mlp3_congr ?_ ?_ rfl ?_ rfl ?_ rfl
  · funext f
    match f with
    | ⟨0, _⟩ => exact (edgeFeatures_row0 (concOf x0) x2 x16 x18 e).trans (Cert.ReferenceIdeal.RefRows.edgeRow0 (F := Ideal) x0 x2 x16 x18 e).symm
    | ⟨1, _⟩ => exact (edgeFeatures_row1 (concOf x0) x2 x16 x18 e).trans (Cert.ReferenceIdeal.RefRows.edgeRow1 (F := Ideal) x0 x2 x16 x18 e).symm
    | ⟨k + 2, h⟩ => exact absurd h (by omega)
  · funext f b; exact transposed_apply x4 _ b f
  · funext b a; exact transposed_apply x6 _ a b
  · funext a; exact transposed_apply x8 _ (0 : Fin 1) a

/-- The kernel's homeostasis vector is the reference's. -/
theorem homeostasis_eq (x0 : (⟨S100000x5, .f32⟩ : BufTy).Contents (Elt Ideal)) (x1 : (⟨S100000x2, .f32⟩ : BufTy).Contents (Elt Ideal))
    (x10 : (⟨S3x64, .f32⟩ : BufTy).Contents (Elt Ideal)) (x11 : (⟨S64, .f32⟩ : BufTy).Contents (Elt Ideal))
    (x12 : (⟨S64x64, .f32⟩ : BufTy).Contents (Elt Ideal)) (x13 : (⟨S64, .f32⟩ : BufTy).Contents (Elt Ideal))
    (x14 : (⟨S64x1, .f32⟩ : BufTy).Contents (Elt Ideal)) (x15 : (⟨S1, .f32⟩ : BufTy).Contents (Elt Ideal)) :
    shapeCast S100000
      (extractStridedSlice S1x100000 ![0, 0]
        (NodeArray.wholeOut (nodeFeatures x0 x1) (transpose S64x3 [1, 0] x10 transposes_S3x64_S64x3_1_0) x11
          (transpose S64x64 [1, 0] x12 transposes_S64x64_S64x64_1_0) x13 (transpose S1x64 [1, 0] x14 transposes_S64x1_S1x64_1_0) x15)
        slices_S1x100096_S1x100000_0_0)
      shapeCasts_S1x100000_S100000
    = Cert.ReferenceIdeal.Read.val_main_v18 (F := Ideal) x0 x1 x10 x11 x12 x13 x14 x15 := by
  funext i
  obtain ⟨n, rfl⟩ : ∃ n : Fin 100000, i = ix1 n := ⟨i 0, eq_ix1 i⟩
  refine Eq.trans ?_ (Cert.ReferenceIdeal.RefValue.homeo_apply x0 x1 x10 x11 x12 x13 x14 x15 n).symm
  refine (shapeCast_apply _ shapeCasts_S1x100000_S100000 (ix1 n) (ix2 (0 : Fin 1) n) (by
    rewrite [Shape.rowMajor_val_two, Shape.rowMajor_val_one]; show (0 : ℕ) * 100000 + n.val = n.val; omega)).trans ?_
  refine (extractStridedSlice_apply ![0, 0] _ slices_S1x100096_S1x100000_0_0 (ix2 (0 : Fin 1) n)
    (ix2 (0 : Fin 1) (⟨n.val, by have := n.isLt; omega⟩ : Fin 100096)) (fun b => by
      match b with
      | ⟨0, _⟩ => rfl
      | ⟨1, _⟩ => show n.val = 0 + n.val; omega)).trans ?_
  unfold NodeArray.wholeOut
  refine mlp3_congr ?_ ?_ rfl ?_ rfl ?_ rfl
  · funext f
    match f with
    | ⟨0, _⟩ => exact (nodeFeatures_row0 x0 x1 n).trans (Cert.ReferenceIdeal.RefRows.nodeRow0 (F := Ideal) x0 x1 n).symm
    | ⟨1, _⟩ => exact (nodeFeatures_row1 x0 x1 n).trans (Cert.ReferenceIdeal.RefRows.nodeRow1 (F := Ideal) x0 x1 n).symm
    | ⟨2, _⟩ => exact (nodeFeatures_row2 x0 x1 n).trans (Cert.ReferenceIdeal.RefRows.nodeRow2 (F := Ideal) x0 x1 n).symm
    | ⟨k + 3, h⟩ => exact absurd h (by omega)
  · funext f b; exact transposed_apply x10 _ b f
  · funext b a; exact transposed_apply x12 _ a b
  · funext a; exact transposed_apply x14 _ (0 : Fin 1) a

/-- The reference's result is the shared tail applied to the KERNEL's messages and homeostasis vector. -/
theorem reference_result (x0 : (⟨S100000x5, .f32⟩ : BufTy).Contents (Elt Ideal)) (x1 : (⟨S100000x2, .f32⟩ : BufTy).Contents (Elt Ideal))
    (x2 : (⟨S4000000, .f32⟩ : BufTy).Contents (Elt Ideal)) (x3 : (⟨S500000, .f32⟩ : BufTy).Contents (Elt Ideal))
    (x4 : (⟨S2x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x8 : (⟨S64x1, .f32⟩ : BufTy).Contents (Elt Ideal)) (x9 : (⟨S1, .f32⟩ : BufTy).Contents (Elt Ideal))
    (x10 : (⟨S3x64, .f32⟩ : BufTy).Contents (Elt Ideal)) (x11 : (⟨S64, .f32⟩ : BufTy).Contents (Elt Ideal))
    (x12 : (⟨S64x64, .f32⟩ : BufTy).Contents (Elt Ideal)) (x13 : (⟨S64, .f32⟩ : BufTy).Contents (Elt Ideal))
    (x14 : (⟨S64x1, .f32⟩ : BufTy).Contents (Elt Ideal)) (x15 : (⟨S1, .f32⟩ : BufTy).Contents (Elt Ideal))
    (x16 x17 x18 : (⟨S2000000, .i32⟩ : BufTy).Contents (Elt Ideal)) (x19 x20 : (⟨S4000000, .i32⟩ : BufTy).Contents (Elt Ideal)) :
    Cert.ReferenceIdeal.Read.val_main_v71 (F := Ideal) x0 x1 x2 x3 x4 x5 x6 x7 x8 x9 x10 x11 x12 x13 x14 x15 x16 x17 x18 x19 x20
      = tail
          (shapeCast S2000000
            (EdgeArray.wholeOut (edgeFeatures (concOf x0) x2 x16 x18) (transpose S64x2 [1, 0] x4 transposes_S2x64_S64x2_1_0) x5
              (transpose S64x64 [1, 0] x6 transposes_S64x64_S64x64_1_0) x7 (transpose S1x64 [1, 0] x8 transposes_S64x1_S1x64_1_0) x9)
            shapeCasts_S1x2000000_S2000000)
          (shapeCast S100000
            (extractStridedSlice S1x100000 ![0, 0]
              (NodeArray.wholeOut (nodeFeatures x0 x1) (transpose S64x3 [1, 0] x10 transposes_S3x64_S64x3_1_0) x11
                (transpose S64x64 [1, 0] x12 transposes_S64x64_S64x64_1_0) x13 (transpose S1x64 [1, 0] x14 transposes_S64x1_S1x64_1_0) x15)
              slices_S1x100096_S1x100000_0_0)
            shapeCasts_S1x100000_S100000)
          x2 x3 x17 x19 x20 := by
  rw [messages_eq, homeostasis_eq]
  exact Cert.ReferenceIdeal.RefTail.result_eq x0 x1 x2 x3 x4 x5 x6 x7 x8 x9 x10 x11 x12 x13 x14 x15 x16 x17 x18 x19 x20

/-- The same from arrays equal to the arguments one by one (the two programs' memories agree on the arguments). -/
theorem reference_result_of_eq
    {y0 x0 : (⟨S100000x5, .f32⟩ : BufTy).Contents (Elt Ideal)} {y1 x1 : (⟨S100000x2, .f32⟩ : BufTy).Contents (Elt Ideal)} {y2 x2 : (⟨S4000000, .f32⟩ : BufTy).Contents (Elt Ideal)} {y3 x3 : (⟨S500000, .f32⟩ : BufTy).Contents (Elt Ideal)} {y4 x4 : (⟨S2x64, .f32⟩ : BufTy).Contents (Elt Ideal)} {y5 x5 : (⟨S64, .f32⟩ : BufTy).Contents (Elt Ideal)} {y6 x6 : (⟨S64x64, .f32⟩ : BufTy).Contents (Elt Ideal)} {y7 x7 : (⟨S64, .f32⟩ : BufTy).Contents (Elt Ideal)} {y8 x8 : (⟨S64x1, .f32⟩ : BufTy).Contents (Elt Ideal)} {y9 x9 : (⟨S1, .f32⟩ : BufTy).Contents (Elt Ideal)} {y10 x10 : (⟨S3x64, .f32⟩ : BufTy).Contents (Elt Ideal)} {y11 x11 : (⟨S64, .f32⟩ : BufTy).Contents (Elt Ideal)} {y12 x12 : (⟨S64x64, .f32⟩ : BufTy).Contents (Elt Ideal)} {y13 x13 : (⟨S64, .f32⟩ : BufTy).Contents (Elt Ideal)} {y14 x14 : (⟨S64x1, .f32⟩ : BufTy).Contents (Elt Ideal)} {y15 x15 : (⟨S1, .f32⟩ : BufTy).Contents (Elt Ideal)} {y16 x16 : (⟨S2000000, .i32⟩ : BufTy).Contents (Elt Ideal)} {y17 x17 : (⟨S2000000, .i32⟩ : BufTy).Contents (Elt Ideal)} {y18 x18 : (⟨S2000000, .i32⟩ : BufTy).Contents (Elt Ideal)} {y19 x19 : (⟨S4000000, .i32⟩ : BufTy).Contents (Elt Ideal)} {y20 x20 : (⟨S4000000, .i32⟩ : BufTy).Contents (Elt Ideal)}
    (e0 : y0 = x0) (e1 : y1 = x1) (e2 : y2 = x2) (e3 : y3 = x3) (e4 : y4 = x4) (e5 : y5 = x5) (e6 : y6 = x6) (e7 : y7 = x7) (e8 : y8 = x8) (e9 : y9 = x9) (e10 : y10 = x10) (e11 : y11 = x11) (e12 : y12 = x12) (e13 : y13 = x13) (e14 : y14 = x14) (e15 : y15 = x15) (e16 : y16 = x16) (e17 : y17 = x17) (e18 : y18 = x18) (e19 : y19 = x19) (e20 : y20 = x20) :
    Cert.ReferenceIdeal.Read.val_main_v71 (F := Ideal) y0 y1 y2 y3 y4 y5 y6 y7 y8 y9 y10 y11 y12 y13 y14 y15 y16 y17 y18 y19 y20
      = tail
          (shapeCast S2000000
            (EdgeArray.wholeOut (edgeFeatures (concOf x0) x2 x16 x18) (transpose S64x2 [1, 0] x4 transposes_S2x64_S64x2_1_0) x5
              (transpose S64x64 [1, 0] x6 transposes_S64x64_S64x64_1_0) x7 (transpose S1x64 [1, 0] x8 transposes_S64x1_S1x64_1_0) x9)
            shapeCasts_S1x2000000_S2000000)
          (shapeCast S100000
            (extractStridedSlice S1x100000 ![0, 0]
              (NodeArray.wholeOut (nodeFeatures x0 x1) (transpose S64x3 [1, 0] x10 transposes_S3x64_S64x3_1_0) x11
                (transpose S64x64 [1, 0] x12 transposes_S64x64_S64x64_1_0) x13 (transpose S1x64 [1, 0] x14 transposes_S64x1_S1x64_1_0) x15)
              slices_S1x100096_S1x100000_0_0)
            shapeCasts_S1x100000_S100000)
          x2 x3 x17 x19 x20 := by
  subst e0 e1 e2 e3 e4 e5 e6 e7 e8 e9 e10 e11 e12 e13 e14 e15 e16 e17 e18 e19 e20
  exact reference_result y0 y1 y2 y3 y4 y5 y6 y7 y8 y9 y10 y11 y12 y13 y14 y15 y16 y17 y18 y19 y20

end Cert.Bridge

end
-- ==== Proof.lean ====
/-
  The certificate's five claims.

  Both programs compute, for a graph of 100000 nodes, 500000 reactions and their incidence lists, the rate of change of
  every node's concentration: a three-layer perceptron per node (homeostasis) and one per edge (message), the messages
  summed per reaction, a rate per reaction, the rates' contributions summed per node, plus the homeostasis term. The
  reference applies each perceptron to a (samples × features) array; the kernel runs each perceptron as a pallas_call
  over a (features × samples) array cut in blocks of columns, with the weights transposed (and, for the nodes, 96 padded
  columns that are cut off again). Over the extended reals the two perceptrons are the same function of a sample's
  features — every product appears with its factors swapped, nothing else — and every other operation is shared.

  The frames: each kernel program's run is nine items (host stretches and the two pallas_calls), each pallas_call's
  body a single store of its payload over whole blocks; the reference's run is its generated run.
-/
import proofs.«106456_j29411936043039_1_alg».proof.Defs
import proofs.«106456_j29411936043039_1_alg».proof.Proof.Gen.Kernel
import proofs.«106456_j29411936043039_1_alg».proof.Proof.Gen.KernelIdeal
import proofs.«106456_j29411936043039_1_alg».proof.Proof.Gen.ReferenceIdeal
import proofs.«106456_j29411936043039_1_alg».proof.Proof.Gen.Pre_finite_inputs
import proofs.«106456_j29411936043039_1_alg».proof.Proof.Gen.ReferenceIdeal.Read
import proofs.«106456_j29411936043039_1_alg».proof.Proof.BitsSegments
import proofs.«106456_j29411936043039_1_alg».proof.Proof.Segments
import proofs.«106456_j29411936043039_1_alg».proof.Proof.KernelValue
import proofs.«106456_j29411936043039_1_alg».proof.Proof.Bridge
import Idealize.ShloMosaic.Adequacy
import Idealize.ShloMosaic.Init

set_option maxRecDepth 16384

noncomputable section

namespace Cert.Proof

open Idealize.ShloMosaic Idealize.SL.Sem

/-- The word-level kernel program runs to the end, faults nowhere and leaves its arguments unchanged. -/
theorem frame_kernel : Cert.frame_Kernel := fun m ρ _ => Cert.Kernel.Regions.frame m ρ

/-- So does its idealization. -/
theorem frame_kernelIdeal : Cert.frame_KernelIdeal := fun m ρ _ => Cert.KernelIdeal.Regions.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

open Idealize.ShloMosaic.TcCoe Cert.KernelIdeal Cert.KernelIdeal.Gen Cert.KernelIdeal.Regions in
/-- From memories agreeing on the arguments both idealized programs end with the same result column: the shared tail
    applied to messages and a homeostasis vector that are equal array by array (`Cert.Bridge`). -/
theorem algebraic : Cert.algebraic_KernelIdeal_ReferenceIdeal := by
  intro m ρ m' ρ' _ hagree
  refine ⟨fun c => V9 m (outsBoth m) c main_v59, ?_, ?_⟩
  · exact (θ_run Cert.KernelIdeal.defs _ _).mono (fun r h c => ⟨h c _ (mem_uc main_v59 (by decide)),
      (h c _ (mem_uc main_arg0 (by decide))).trans (V9_main_arg0 m (outsBoth m) c),
      (h c _ (mem_uc main_arg1 (by decide))).trans (V9_main_arg1 m (outsBoth m) c),
      (h c _ (mem_uc main_arg2 (by decide))).trans (V9_main_arg2 m (outsBoth m) c),
      (h c _ (mem_uc main_arg3 (by decide))).trans (V9_main_arg3 m (outsBoth m) c),
      (h c _ (mem_uc main_arg4 (by decide))).trans (V9_main_arg4 m (outsBoth m) c),
      (h c _ (mem_uc main_arg5 (by decide))).trans (V9_main_arg5 m (outsBoth m) c),
      (h c _ (mem_uc main_arg6 (by decide))).trans (V9_main_arg6 m (outsBoth m) c),
      (h c _ (mem_uc main_arg7 (by decide))).trans (V9_main_arg7 m (outsBoth m) c),
      (h c _ (mem_uc main_arg8 (by decide))).trans (V9_main_arg8 m (outsBoth m) c),
      (h c _ (mem_uc main_arg9 (by decide))).trans (V9_main_arg9 m (outsBoth m) c),
      (h c _ (mem_uc main_arg10 (by decide))).trans (V9_main_arg10 m (outsBoth m) c),
      (h c _ (mem_uc main_arg11 (by decide))).trans (V9_main_arg11 m (outsBoth m) c),
      (h c _ (mem_uc main_arg12 (by decide))).trans (V9_main_arg12 m (outsBoth m) c),
      (h c _ (mem_uc main_arg13 (by decide))).trans (V9_main_arg13 m (outsBoth m) c),
      (h c _ (mem_uc main_arg14 (by decide))).trans (V9_main_arg14 m (outsBoth m) c),
      (h c _ (mem_uc main_arg15 (by decide))).trans (V9_main_arg15 m (outsBoth m) c),
      (h c _ (mem_uc main_arg16 (by decide))).trans (V9_main_arg16 m (outsBoth m) c),
      (h c _ (mem_uc main_arg17 (by decide))).trans (V9_main_arg17 m (outsBoth m) c),
      (h c _ (mem_uc main_arg18 (by decide))).trans (V9_main_arg18 m (outsBoth m) c),
      (h c _ (mem_uc main_arg19 (by decide))).trans (V9_main_arg19 m (outsBoth m) c),
      (h c _ (mem_uc main_arg20 (by decide))).trans (V9_main_arg20 m (outsBoth m) c)⟩)
      (Cert.KernelIdeal.Regions.run_all m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20⟩ := hagree c
    refine (Cert.ReferenceIdeal.Read.val_main_v71_eq m' c).trans ?_
    refine (Cert.Bridge.reference_result_of_eq h0 h1 h2 h3 h4 h5 h6 h7 h8 h9 h10 h11 h12 h13 h14 h15 h16 h17 h18 h19 h20).trans ?_
    beta_reduce
    rewrite [Cert.KernelIdeal.Result.result_eq m c, Cert.KernelIdeal.Result.edgeOut_eq m c, Cert.KernelIdeal.Result.nodeOut_eq m c]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
